-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S262144x3 : Shape := ⟨2, ![262144, 3]⟩
abbrev S262144x16 : Shape := ⟨2, ![262144, 16]⟩
abbrev S85x3 : Shape := ⟨2, ![85, 3]⟩
abbrev S85 : Shape := ⟨1, ![85]⟩
abbrev S16 : Shape := ⟨1, ![16]⟩
abbrev S_ : Shape := ⟨0, ![]⟩

class Facts : Prop where
  bcast_S_S262144x3 : S_.BroadcastsInDim S262144x3 (![] : Fin 0 → Fin S262144x3.rank)
  reducesTo_S262144x3_S_d0_1 : S262144x3.ReducesTo [0, 1] S_
  h_S_ : 0 < S_.numel
  bcast_S_S262144x16 : S_.BroadcastsInDim S262144x16 (![] : Fin 0 → Fin S262144x16.rank)
  reducesTo_S262144x16_S_d0_1 : S262144x16.ReducesTo [0, 1] S_
  bcast_S_S85x3 : S_.BroadcastsInDim S85x3 (![] : Fin 0 → Fin S85x3.rank)
  reducesTo_S85x3_S_d0_1 : S85x3.ReducesTo [0, 1] S_
  bcast_S_S85 : S_.BroadcastsInDim S85 (![] : Fin 0 → Fin S85.rank)
  reducesTo_S85_S_d0 : S85.ReducesTo [0] S_
  bcast_S_S16 : S_.BroadcastsInDim S16 (![] : Fin 0 → Fin S16.rank)
  reducesTo_S16_S_d0 : S16.ReducesTo [0] S_

variable [Facts]

def fn_part1 {F : FTy → Type} [FloatOps F] (main_arg3 : FVec F S85 .f32) (main_arg4 : FVec F S16 .f32) (main_v13 : IVec S_ 1) (main_v16 : IVec S85 1) : IVec S_ 1 :=
  let main_c_5 : IVec S_ 1 := constantI S_ 1 1#1
  let main_v17 : IVec S_ 1 := (fun x v => Host.reduce IntOp.andi x v reducesTo_S85_S_d0 h_S_) main_v16 main_c_5
  let main_v18 : IVec S_ 1 := andi main_v13 main_v17
  let main_v19 : FVec F S16 .f32 := Host.absf main_arg4
  let main_cst_6 : FVec F S_ .f32 := constant S_ .f32 0x7F800000#32
  let main_v20 : FVec F S16 .f32 := broadcastInDim S16 ![] bcast_S_S16 main_cst_6
  let main_v21 : IVec S16 1 := cmpf .olt main_v19 main_v20
  let main_c_7 : IVec S_ 1 := constantI S_ 1 1#1
  let main_v22 : IVec S_ 1 := (fun x v => Host.reduce IntOp.andi x v reducesTo_S16_S_d0 h_S_) main_v21 main_c_7
  let main_v23 : IVec S_ 1 := andi main_v18 main_v22
  let main_cst_8 : FVec F S_ .f32 := constant S_ .f32 0x00000000#32
  let main_v24 : FVec F S85 .f32 := broadcastInDim S85 ![] bcast_S_S85 main_cst_8
  let main_v25 : IVec S85 1 := cmpf .une main_arg3 main_v24
  let main_c_9 : IVec S_ 1 := constantI S_ 1 1#1
  let main_v26 : IVec S_ 1 := (fun x v => Host.reduce IntOp.andi x v reducesTo_S85_S_d0 h_S_) main_v25 main_c_9
  let main_v27 : IVec S_ 1 := andi main_v23 main_v26
  main_v27

def fn {F : FTy → Type} [FloatOps F] (main_arg0 : FVec F S262144x3 .f32) (main_arg1 : FVec F S262144x16 .f32) (main_arg2 : FVec F S85x3 .f32) (main_arg3 : FVec F S85 .f32) (main_arg4 : FVec F S16 .f32) : IVec S_ 1 :=
  let main_v0 : FVec F S262144x3 .f32 := Host.absf main_arg0
  let main_cst : FVec F S_ .f32 := constant S_ .f32 0x7F800000#32
  let main_v1 : FVec F S262144x3 .f32 := broadcastInDim S262144x3 ![] bcast_S_S262144x3 main_cst
  let main_v2 : IVec S262144x3 1 := cmpf .olt main_v0 main_v1
  let main_c : IVec S_ 1 := constantI S_ 1 1#1
  let main_v3 : IVec S_ 1 := (fun x v => Host.reduce IntOp.andi x v reducesTo_S262144x3_S_d0_1 h_S_) main_v2 main_c
  let main_v4 : FVec F S262144x16 .f32 := Host.absf main_arg1
  let main_cst_0 : FVec F S_ .f32 := constant S_ .f32 0x7F800000#32
  let main_v5 : FVec F S262144x16 .f32 := broadcastInDim S262144x16 ![] bcast_S_S262144x16 main_cst_0
  let main_v6 : IVec S262144x16 1 := cmpf .olt main_v4 main_v5
  let main_c_1 : IVec S_ 1 := constantI S_ 1 1#1
  let main_v7 : IVec S_ 1 := (fun x v => Host.reduce IntOp.andi x v reducesTo_S262144x16_S_d0_1 h_S_) main_v6 main_c_1
  let main_v8 : IVec S_ 1 := andi main_v3 main_v7
  let main_v9 : FVec F S85x3 .f32 := Host.absf main_arg2
  let main_cst_2 : FVec F S_ .f32 := constant S_ .f32 0x7F800000#32
  let main_v10 : FVec F S85x3 .f32 := broadcastInDim S85x3 ![] bcast_S_S85x3 main_cst_2
  let main_v11 : IVec S85x3 1 := cmpf .olt main_v9 main_v10
  let main_c_3 : IVec S_ 1 := constantI S_ 1 1#1
  let main_v12 : IVec S_ 1 := (fun x v => Host.reduce IntOp.andi x v reducesTo_S85x3_S_d0_1 h_S_) main_v11 main_c_3
  let main_v13 : IVec S_ 1 := andi main_v8 main_v12
  let main_v14 : FVec F S85 .f32 := Host.absf main_arg3
  let main_cst_4 : FVec F S_ .f32 := constant S_ .f32 0x7F800000#32
  let main_v15 : FVec F S85 .f32 := broadcastInDim S85 ![] bcast_S_S85 main_cst_4
  let main_v16 : IVec S85 1 := cmpf .olt main_v14 main_v15
  fn_part1 (F := F) main_arg3 main_arg4 main_v13 main_v16
-- ==== Kernel.lean ====
abbrev S262144x3 : Shape := ⟨2, ![262144, 3]⟩
abbrev S262144x16 : Shape := ⟨2, ![262144, 16]⟩
abbrev S85x3 : Shape := ⟨2, ![85, 3]⟩
abbrev S85 : Shape := ⟨1, ![85]⟩
abbrev S16 : Shape := ⟨1, ![16]⟩
abbrev S3x85 : Shape := ⟨2, ![3, 85]⟩
abbrev S_ : Shape := ⟨0, ![]⟩
abbrev S1x85 : Shape := ⟨2, ![1, 85]⟩
abbrev S1x16 : Shape := ⟨2, ![1, 16]⟩
abbrev S2x85x16 : Shape := ⟨3, ![2, 85, 16]⟩
abbrev S4096x3 : Shape := ⟨2, ![4096, 3]⟩
abbrev S4096x16 : Shape := ⟨2, ![4096, 16]⟩
abbrev S1x85x16 : Shape := ⟨3, ![1, 85, 16]⟩
abbrev S85x16 : Shape := ⟨2, ![85, 16]⟩
abbrev S4096x1 : Shape := ⟨2, ![4096, 1]⟩
abbrev S4096x85 : Shape := ⟨2, ![4096, 85]⟩
abbrev S262144x117 : Shape := ⟨2, ![262144, 117]⟩
abbrev S4096x117 : Shape := ⟨2, ![4096, 117]⟩

abbrev nBuf : Space → Nat
  | .hbm => 17
  | .vmem => 16
  | .smem => 0
  | _ => 0

abbrev bufTy : (tb : Table) → Fin (tcTables nBuf tb) → BufTy
  | .hbm, ⟨0, _⟩ => ⟨S262144x3, .f32⟩
  | .hbm, ⟨1, _⟩ => ⟨S262144x16, .f32⟩
  | .hbm, ⟨2, _⟩ => ⟨S85x3, .f32⟩
  | .hbm, ⟨3, _⟩ => ⟨S85, .f32⟩
  | .hbm, ⟨4, _⟩ => ⟨S16, .f32⟩
  | .hbm, ⟨5, _⟩ => ⟨S3x85, .f32⟩
  | .hbm, ⟨6, _⟩ => ⟨S85x3, .f32⟩
  | .hbm, ⟨7, _⟩ => ⟨S_, .f32⟩
  | .hbm, ⟨8, _⟩ => ⟨S85, .f32⟩
  | .hbm, ⟨9, _⟩ => ⟨S1x85, .f32⟩
  | .hbm, ⟨10, _⟩ => ⟨S85, .f32⟩
  | .hbm, ⟨11, _⟩ => ⟨S1x85, .f32⟩
  | .hbm, ⟨12, _⟩ => ⟨S1x16, .f32⟩
  | .hbm, ⟨13, _⟩ => ⟨S2x85x16, .f32⟩
  | .hbm, ⟨14, _⟩ => ⟨S_, .f32⟩
  | .hbm, ⟨15, _⟩ => ⟨S85x16, .f32⟩
  | .hbm, ⟨16, _⟩ => ⟨S262144x117, .f32⟩
  | .local _ .vmem, ⟨0, _⟩ => ⟨S3x85, .f32⟩
  | .local _ .vmem, ⟨1, _⟩ => ⟨S1x85, .f32⟩
  | .local _ .vmem, ⟨2, _⟩ => ⟨S1x85, .f32⟩
  | .local _ .vmem, ⟨3, _⟩ => ⟨S1x16, .f32⟩
  | .local _ .vmem, ⟨4, _⟩ => ⟨S4096x3, .f32⟩
  | .local _ .vmem, ⟨5, _⟩ => ⟨S4096x3, .f32⟩
  | .local _ .vmem, ⟨6, _⟩ => ⟨S4096x16, .f32⟩
  | .local _ .vmem, ⟨7, _⟩ => ⟨S4096x16, .f32⟩
  | .local _ .vmem, ⟨8, _⟩ => ⟨S1x85x16, .f32⟩
  | .local _ .vmem, ⟨9, _⟩ => ⟨S1x85x16, .f32⟩
  | .local _ .vmem, ⟨10, _⟩ => ⟨S85x16, .f32⟩
  | .local _ .vmem, ⟨11, _⟩ => ⟨S4096x16, .f32⟩
  | .local _ .vmem, ⟨12, _⟩ => ⟨S4096x16, .f32⟩
  | .local _ .vmem, ⟨13, _⟩ => ⟨S85x16, .f32⟩
  | .local _ .vmem, ⟨14, _⟩ => ⟨S4096x117, .f32⟩
  | .local _ .vmem, ⟨15, _⟩ => ⟨S4096x117, .f32⟩
  | _, _ => ⟨S262144x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_scratch0 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg2_0 : Ref sig .tc := ⟨.vmem, 14, rfl⟩
abbrev cc1_stg2_1 : Ref sig .tc := ⟨.vmem, 15, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem4_1 : DmaSem sig := 5
abbrev cc0_sem5_0 : DmaSem sig := 6
abbrev cc0_sem5_1 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem2_0 : DmaSem sig := 13
abbrev cc1_sem2_1 : DmaSem sig := 14

abbrev nD : Nat := 1
abbrev τ : Topo := Topo.v7x

variable {F : FTy → Type} [FloatOps F]

abbrev grid0 : Pipeline.Grid := ⟨2, ![2, 32], ![false, false]⟩

def k0_cond2 (i : grid0.Coords) : BitVec 1 :=
  let arg1 : BitVec 32 := BitVec.ofNat 32 (i 1).val
  let c31_i32 : BitVec 32 := 31#32
  let v52 : BitVec 1 := Scalar.cmpi .eq arg1 c31_i32
  let v53 : BitVec 32 := Scalar.extui v52
  let c0_i32_16 : BitVec 32 := 0#32
  let v54 : BitVec 1 := Scalar.cmpi .ne v53 c0_i32_16
  v54

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S3x85 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .vmem S1x85 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x85 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S4096x3 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S4096x16 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x85x16 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev grid1 : Pipeline.Grid := ⟨1, ![64], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4096x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S85x16 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S4096x117 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  transposes_S85x3_S3x85_1_0 : S85x3.Transposes [1, 0] S3x85
  reducesTo_S85x3_S85_d1 : S85x3.ReducesTo [1] S85
  h_S_ : 0 < S_.numel
  shapeCasts_S85_S1x85 : S85.ShapeCasts S1x85
  shapeCasts_S16_S1x16 : S16.ShapeCasts S1x16
  inb_S85x16_S85x16_0_0 : ∀ a, (![0, 0] : Fin 2 → Nat) a + S85x16.size a ≤ S85x16.size a
  h_S85x16 : 0 < S85x16.numel
  shapeCasts_S85x16_S85x16 : S85x16.ShapeCasts S85x16
  inb_S4096x3_S4096x3_0_0 : ∀ a, (![0, 0] : Fin 2 → Nat) a + S4096x3.size a ≤ S4096x3.size a
  h_S4096x3 : 0 < S4096x3.numel
  slices_S4096x3_o0_0_S4096x1 : S4096x3.Slices ![0, 0] S4096x1
  slices_S4096x3_o0_1_S4096x1 : S4096x3.Slices ![0, 1] S4096x1
  slices_S4096x3_o0_2_S4096x1 : S4096x3.Slices ![0, 2] S4096x1
  inb_S3x85_S3x85_0_0 : ∀ a, (![0, 0] : Fin 2 → Nat) a + S3x85.size a ≤ S3x85.size a
  h_S3x85 : 0 < S3x85.numel
  shapeCasts_S3x85_S3x85 : S3x85.ShapeCasts S3x85
  slices_S3x85_o0_0_S1x85 : S3x85.Slices ![0, 0] S1x85
  slices_S3x85_o1_0_S1x85 : S3x85.Slices ![1, 0] S1x85
  slices_S3x85_o2_0_S1x85 : S3x85.Slices ![2, 0] S1x85
  broadcasts_S4096x1_S4096x85 : S4096x1.Broadcasts S4096x85
  broadcasts_S1x85_S4096x85 : S1x85.Broadcasts S4096x85
  inb_S1x85_S1x85_0_0 : ∀ a, (![0, 0] : Fin 2 → Nat) a + S1x85.size a ≤ S1x85.size a
  h_S1x85 : 0 < S1x85.numel
  shapeCasts_S1x85_S1x85 : S1x85.ShapeCasts S1x85
  inb_S4096x16_S4096x16_0_0 : ∀ a, (![0, 0] : Fin 2 → Nat) a + S4096x16.size a ≤ S4096x16.size a
  h_S4096x16 : 0 < S4096x16.numel
  bitsLt_bf16_f32 : FTy.bits .bf16 < FTy.bits .f32
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S85x16 : S1x16.Broadcasts S85x16
  inb_S1x85x16_S1x85x16_0_0_0 : ∀ a, (![0, 0, 0] : Fin 3 → Nat) a + S1x85x16.size a ≤ S1x85x16.size a
  h_S1x85x16 : 0 < S1x85x16.numel
  shapeCasts_S1x85x16_S85x16 : S1x85x16.ShapeCasts S85x16
  shapeCasts_S85x16_S1x85x16 : S85x16.ShapeCasts S1x85x16
  reducesTo_S2x85x16_S85x16_d0 : S2x85x16.ReducesTo [0] S85x16
  concatenates_S4096x16_S4096x85_S4096x16_S4096x117_d1 : Shape.Concatenates [S4096x16, S4096x85, S4096x16] S4096x117 1
  inb_S4096x117_S4096x117_0_0 : ∀ a, (![0, 0] : Fin 2 → Nat) a + S4096x117.size a ≤ S4096x117.size a
  h_S4096x117 : 0 < S4096x117.numel
  dot_S4096x85_S4096x16_S85x16_0_0_1_1_n_n_wf : DotDims.WF S4096x85 S4096x16 S85x16 [0] [0] [1] [1] [] []
  dot_S4096x16_S85x16_S4096x85_1_1_0_0_n_n_wf : DotDims.WF S4096x16 S85x16 S4096x85 [1] [1] [0] [0] [] []
  dot_S4096x85_S85x16_S4096x16_1_0_0_1_n_n_wf : DotDims.WF S4096x85 S85x16 S4096x16 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S3x85.size a ≤ S3x85.size a
  hwx0_0 : ∀ i : grid0.Coords, EltTy.bits .f32 = 32 ∨ (Rect.block (s := S3x85) S3x85.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x85.size a ≤ S1x85.size a
  hwx0_1 : ∀ i : grid0.Coords, EltTy.bits .f32 = 32 ∨ (Rect.block (s := S1x85) S1x85.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x85.size a ≤ S1x85.size a
  hwx0_2 : ∀ i : grid0.Coords, EltTy.bits .f32 = 32 ∨ (Rect.block (s := S1x85) S1x85.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x16.size a ≤ S1x16.size a
  hwx0_3 : ∀ i : grid0.Coords, EltTy.bits .f32 = 32 ∨ (Rect.block (s := S1x16) S1x16.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S4096x3.size a ≤ S262144x3.size a
  hwx0_4 : ∀ i : grid0.Coords, EltTy.bits .f32 = 32 ∨ (Rect.block (s := S262144x3) S4096x3.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S4096x16.size a ≤ S262144x16.size a
  hwx0_5 : ∀ i : grid0.Coords, EltTy.bits .f32 = 32 ∨ (Rect.block (s := S262144x16) S4096x16.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x85x16.size a ≤ S2x85x16.size a
  hwx0_6 : ∀ i : grid0.Coords, EltTy.bits .f32 = 32 ∨ (Rect.block (s := S2x85x16) S1x85x16.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4096x16.size a ≤ S262144x16.size a
  hwx1_0 : ∀ i : grid1.Coords, EltTy.bits .f32 = 32 ∨ (Rect.block (s := S262144x16) S4096x16.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S85x16.size a ≤ S85x16.size a
  hwx1_1 : ∀ i : grid1.Coords, EltTy.bits .f32 = 32 ∨ (Rect.block (s := S85x16) S85x16.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4096x117.size a ≤ S262144x117.size a
  hwx1_2 : ∀ i : grid1.Coords, EltTy.bits .f32 = 32 ∨ (Rect.block (s := S262144x117) S4096x117.size (cc1_transform_2 i) (hinb1_2 i)).WholeWords (EltTy.packing .f32)

variable [Facts₀]

def dot_S4096x85_S4096x16_S85x16_0_0_1_1_n_n : DotDims S4096x85 S4096x16 S85x16 where
  lhsContracting := [0]
  rhsContracting := [0]
  lhsNonContracting := [1]
  rhsNonContracting := [1]
  lhsBatch := []
  rhsBatch := []
  wf := dot_S4096x85_S4096x16_S85x16_0_0_1_1_n_n_wf
def dot_S4096x16_S85x16_S4096x85_1_1_0_0_n_n : DotDims S4096x16 S85x16 S4096x85 where
  lhsContracting := [1]
  rhsContracting := [1]
  lhsNonContracting := [0]
  rhsNonContracting := [0]
  lhsBatch := []
  rhsBatch := []
  wf := dot_S4096x16_S85x16_S4096x85_1_1_0_0_n_n_wf
def dot_S4096x85_S85x16_S4096x16_1_0_0_1_n_n : DotDims S4096x85 S85x16 S4096x16 where
  lhsContracting := [1]
  rhsContracting := [0]
  lhsNonContracting := [0]
  rhsNonContracting := [1]
  lhsBatch := []
  rhsBatch := []
  wf := dot_S4096x85_S85x16_S4096x16_1_0_0_1_n_n_wf

abbrev win0_0 : Pipeline.Window sig grid0 :=
  Pipeline.Window.ofSpec (Memref.whole main_v0) S3x85.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v3) S1x85.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v5) S1x85.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v6) S1x16.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg0) S4096x3.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg1) S4096x16.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v7) S1x85x16.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun _ => false | 5 => fun _ => false | 6 => fun i => !(k0_cond2 i == 1#1) | ⟨_ + 7, h⟩ => absurd h (Nat.not_lt.2 (Nat.le_add_left _ _))

abbrev win1_0 : Pipeline.Window sig grid1 :=
  Pipeline.Window.ofSpec (Memref.whole main_arg1) S4096x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v8) S85x16.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v9) S4096x117.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S262144x3 : Shape := ⟨2, ![262144, 3]⟩
abbrev S262144x16 : Shape := ⟨2, ![262144, 16]⟩
abbrev S85x3 : Shape := ⟨2, ![85, 3]⟩
abbrev S85 : Shape := ⟨1, ![85]⟩
abbrev S16 : Shape := ⟨1, ![16]⟩
abbrev S1x262144x3 : Shape := ⟨3, ![1, 262144, 3]⟩
abbrev S85x1x3 : Shape := ⟨3, ![85, 1, 3]⟩
abbrev S85x262144x3 : Shape := ⟨3, ![85, 262144, 3]⟩
abbrev S_ : Shape := ⟨0, ![]⟩
abbrev S85x262144 : Shape := ⟨2, ![85, 262144]⟩
abbrev S85x1 : Shape := ⟨2, ![85, 1]⟩
abbrev S85x16 : Shape := ⟨2, ![85, 16]⟩
abbrev S1x16 : Shape := ⟨2, ![1, 16]⟩
abbrev S16x85 : Shape := ⟨2, ![16, 85]⟩
abbrev S262144x85 : Shape := ⟨2, ![262144, 85]⟩
abbrev S262144x117 : Shape := ⟨2, ![262144, 117]⟩

abbrev nBuf : Space → Nat
  | .hbm => 26
  | .vmem => 0
  | .smem => 0
  | _ => 0

abbrev bufTy : (tb : Table) → Fin (tcTables nBuf tb) → BufTy
  | .hbm, ⟨0, _⟩ => ⟨S262144x3, .f32⟩
  | .hbm, ⟨1, _⟩ => ⟨S262144x16, .f32⟩
  | .hbm, ⟨2, _⟩ => ⟨S85x3, .f32⟩
  | .hbm, ⟨3, _⟩ => ⟨S85, .f32⟩
  | .hbm, ⟨4, _⟩ => ⟨S16, .f32⟩
  | .hbm, ⟨5, _⟩ => ⟨S1x262144x3, .f32⟩
  | .hbm, ⟨6, _⟩ => ⟨S85x1x3, .f32⟩
  | .hbm, ⟨7, _⟩ => ⟨S85x262144x3, .f32⟩
  | .hbm, ⟨8, _⟩ => ⟨S85x262144x3, .f32⟩
  | .hbm, ⟨9, _⟩ => ⟨S85x262144x3, .f32⟩
  | .hbm, ⟨10, _⟩ => ⟨S85x262144x3, .f32⟩
  | .hbm, ⟨11, _⟩ => ⟨S_, .f32⟩
  | .hbm, ⟨12, _⟩ => ⟨S85x262144, .f32⟩
  | .hbm, ⟨13, _⟩ => ⟨S85, .f32⟩
  | .hbm, ⟨14, _⟩ => ⟨S85x1, .f32⟩
  | .hbm, ⟨15, _⟩ => ⟨S85x262144, .f32⟩
  | .hbm, ⟨16, _⟩ => ⟨S85x262144, .f32⟩
  | .hbm, ⟨17, _⟩ => ⟨S85x262144, .f32⟩
  | .hbm, ⟨18, _⟩ => ⟨S85x16, .f32⟩
  | .hbm, ⟨19, _⟩ => ⟨S1x16, .f32⟩
  | .hbm, ⟨20, _⟩ => ⟨S85x16, .f32⟩
  | .hbm, ⟨21, _⟩ => ⟨S85x16, .f32⟩
  | .hbm, ⟨22, _⟩ => ⟨S16x85, .f32⟩
  | .hbm, ⟨23, _⟩ => ⟨S262144x85, .f32⟩
  | .hbm, ⟨24, _⟩ => ⟨S262144x16, .f32⟩
  | .hbm, ⟨25, _⟩ => ⟨S262144x117, .f32⟩
  | _, _ => ⟨S262144x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩

abbrev nD : Nat := 1
abbrev τ : Topo := Topo.v7x

variable {F : FTy → Type} [FloatOps F]

class Facts₀ : Prop where
  bcast_S262144x3_S1x262144x3_1_2 : S262144x3.BroadcastsInDim S1x262144x3 (![1, 2] : Fin 2 → Fin S1x262144x3.rank)
  bcast_S85x3_S85x1x3_0_2 : S85x3.BroadcastsInDim S85x1x3 (![0, 2] : Fin 2 → Fin S85x1x3.rank)
  bcast_S1x262144x3_S85x262144x3_0_1_2 : S1x262144x3.BroadcastsInDim S85x262144x3 (![0, 1, 2] : Fin 3 → Fin S85x262144x3.rank)
  bcast_S85x1x3_S85x262144x3_0_1_2 : S85x1x3.BroadcastsInDim S85x262144x3 (![0, 1, 2] : Fin 3 → Fin S85x262144x3.rank)
  reducesTo_S85x262144x3_S85x262144_d2 : S85x262144x3.ReducesTo [2] S85x262144
  h_S_ : 0 < S_.numel
  bcast_S85_S85x1_0 : S85.BroadcastsInDim S85x1 (![0] : Fin 1 → Fin S85x1.rank)
  bcast_S85x1_S85x262144_0_1 : S85x1.BroadcastsInDim S85x262144 (![0, 1] : Fin 2 → Fin S85x262144.rank)
  bcast_S16_S1x16_1 : S16.BroadcastsInDim S1x16 (![1] : Fin 1 → Fin S1x16.rank)
  bcast_S1x16_S85x16_0_1 : S1x16.BroadcastsInDim S85x16 (![0, 1] : Fin 2 → Fin S85x16.rank)
  transposes_S85x16_S16x85_1_0 : S85x16.Transposes [1, 0] S16x85
  concatenates_S262144x16_S262144x85_S262144x16_S262144x117_d1 : Shape.Concatenates [S262144x16, S262144x85, S262144x16] S262144x117 1
  dot_S85x262144_S262144x16_S85x16_1_0_0_1_n_n_wf : DotDims.WF S85x262144 S262144x16 S85x16 [1] [0] [0] [1] [] []
  dot_S262144x16_S16x85_S262144x85_1_0_0_1_n_n_wf : DotDims.WF S262144x16 S16x85 S262144x85 [1] [0] [0] [1] [] []
  dot_S262144x85_S85x16_S262144x16_1_0_0_1_n_n_wf : DotDims.WF S262144x85 S85x16 S262144x16 [1] [0] [0] [1] [] []

variable [Facts₀]

def dot_S85x262144_S262144x16_S85x16_1_0_0_1_n_n : DotDims S85x262144 S262144x16 S85x16 where
  lhsContracting := [1]
  rhsContracting := [0]
  lhsNonContracting := [0]
  rhsNonContracting := [1]
  lhsBatch := []
  rhsBatch := []
  wf := dot_S85x262144_S262144x16_S85x16_1_0_0_1_n_n_wf
def dot_S262144x16_S16x85_S262144x85_1_0_0_1_n_n : DotDims S262144x16 S16x85 S262144x85 where
  lhsContracting := [1]
  rhsContracting := [0]
  lhsNonContracting := [0]
  rhsNonContracting := [1]
  lhsBatch := []
  rhsBatch := []
  wf := dot_S262144x16_S16x85_S262144x85_1_0_0_1_n_n_wf
def dot_S262144x85_S85x16_S262144x16_1_0_0_1_n_n : DotDims S262144x85 S85x16 S262144x16 where
  lhsContracting := [1]
  rhsContracting := [0]
  lhsNonContracting := [0]
  rhsNonContracting := [1]
  lhsBatch := []
  rhsBatch := []
  wf := dot_S262144x85_S85x16_S262144x16_1_0_0_1_n_n_wf

class Facts : Prop extends Facts₀ where

variable [Facts]
-- ==== Proof.R0Data.lean ====
import proofs.«103844_j2207613190522_2_alg».proof.Proof.Gen.KernelIdeal.Launch
import proofs.«103844_j2207613190522_2_alg».proof.Proof.Gen.KernelIdeal.Skeleton
import proofs.«103844_j2207613190522_2_alg».proof.Proof.Gen.KernelIdeal.Points
import Idealize.ShloMosaic.Lib.Pipeline.FrameBody
import Idealize.ShloMosaic.Lib.Ring
import Idealize.ShloMosaic.Lib.Tactic

/-!
# The first call's proof data: the running total it carries from point to point

The first call runs on a grid of 2 × 32 points, point t = 32·c + i being step i of half c.  At every point it
computes the weights of one block of 4096 rows from the point's blocks of the inputs, and adds their product
with the block's features to a running total kept in a scratch buffer; at a half's first step (i = 0) the total
starts again from zero, and at its last step (i = 31) the total, scaled column by column, is the half's output block.
Stated at a parameter V: the buffers' contents when the call is entered.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The weights of the point's block of rows: from the block of points, the transposed kernel points, their squared
    norms and the squared widths. -/
def wts0 (c : Dev nD) (t : Fin cfg0.N) : FVec F S4096x85 .f32 :=
  k0_pay4 (iblk0 V c 4 t) (iblk0 V c 0 t) (iblk0 V c 1 t) (iblk0 V c 2 t)

/-- THE RUNNING TOTAL after point n: at a half's first step the step's product added to zero, afterwards added to
    what the point before left. -/
def acc0 (c : Dev nD) : (n : ℕ) → n < cfg0.N → Vec F S85x16 .f32
  | 0, hn => k0_pay1 (wts0 V c ⟨0, hn⟩) (iblk0 V c 5 ⟨0, hn⟩) (k0_pay3 (F := F))
  | n + 1, hn =>
    if (n + 1) % 32 = 0 then k0_pay1 (wts0 V c ⟨n + 1, hn⟩) (iblk0 V c 5 ⟨n + 1, hn⟩) (k0_pay3 (F := F))
    else k0_pay1 (wts0 V c ⟨n + 1, hn⟩) (iblk0 V c 5 ⟨n + 1, hn⟩) (acc0 c n (Nat.lt_of_succ_lt hn))

/-- The output block a point would store: the running total after it, scaled by the feature weights' row. (Stored,
    and written back, at a half's last step only; elsewhere nothing consults it.) -/
def out0 (c : Dev nD) (t : Fin cfg0.N) : Vec F S1x85x16 .f32 :=
  k0_pay2 (acc0 V c t.val t.isLt) (iblk0 V c 3 t)

/-- The scratch buffer that holds the running total, as the body is handed it. -/
abbrev scM0 : Memref sig .tc .vmem S85x16 .f32 := Memref.whole cc0_scratch0

/-- A scoped buffer whole at some contents. -/
abbrev heldAny (c : Dev nD) (b : Ref sig .tc) : sProp 𝕄 :=
  iprop(∃ f : Buf (Elt F) ((c : Thread nD τ).loc b), ((c : Thread nD τ).loc b) ↦{fullShare} f)

/-- The scoped buffers that are neither a staging buffer of this call nor its scratch (the second call's staging
    buffers), each at some contents: they ride along untouched. -/
def restOther0 (c : Dev nD) : sProp 𝕄 :=
  iprop(heldAny (F := F) c cc1_stg0_0 ∗ heldAny (F := F) c cc1_stg0_1 ∗ heldAny (F := F) c cc1_stg1_0 ∗ heldAny (F := F) c cc1_stg2_0 ∗ heldAny (F := F) c cc1_stg2_1)

/-- The call's invariant before position n: before the first point every scoped buffer the pipeline does not stage at
    some contents and the generator register at some state; afterwards the scratch at the running total the point
    before left, the other such buffers at some contents, the register at some state. -/
def PhiS0 (c : Dev nD) : (n : ℕ) → n ≤ cfg0.N → sProp 𝕄
  | 0, _ => Pipeline.ΦA spec0 c
  | n + 1, hn => iprop(owns (c : Thread nD τ) scM0 fullShare (acc0 V c n hn) ∗ restOther0 (F := F) c ∗ (∃ r, prngReg c r))

/-- The proof data of the first call on core c: the arrays as the call finds them; after the body at point t each
    input's buffer at its block, the output's at the scaled running total; the invariant PhiS0; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => out0 V c t
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = out0 V c t := by dsimp only [dat0]

end Cert.KernelIdeal.Hand

end
-- ==== Proof.R0Base.lean ====
import proofs.«103844_j2207613190522_2_alg».proof.Proof.R0Data
import Idealize.ShloMosaic.Lib.Pipeline.Value

/-!
# The first call's body: what its three kinds of step share

A point t = 32·c + i of the 2 × 32 grid is step i of half c.  The body branches twice on the step: at i = 0 it
first overwrites the running total with zero, and at i = 31 it also stores the scaled total as the half's output
block.  Here: the two conditions in closed form over the grid's 64 points; where the output window is idle, live,
and not written back; each window's staging memref at a point; the call's entry invariant with the scratch
buffer singled out; each input window found at its block whether or not the point fetched it; a buffer read back after a store through
its whole rectangle; and the running total and the invariant unfolded at a point.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The two conditions, in closed form -/

/-- "This is a half's first step", as the body computes it from the step coordinate. -/
abbrev atFirst (i : grid0.Coords) : Prop :=
  (Scalar.cmpi .ne (Scalar.extui (Scalar.cmpi .eq (BitVec.ofNat 32 (i 1).val) 0#32)) 0#32) = 1#1

/-- It holds exactly at the points 0 and 32. -/
theorem atFirst_iff : ∀ t : Fin cfg0.N, atFirst (grid0.coords t) ↔ t.val % 32 = 0 :=
  (by decide +kernel : ∀ t : Fin grid0.N, atFirst (grid0.coords t) ↔ t.val % 32 = 0)

/-- "This is a half's last step", as the body computes it from the step coordinate. -/
abbrev atLast (i : grid0.Coords) : Prop := k0_cond2 i = 1#1

/-- It holds exactly at the points 31 and 63. -/
theorem atLast_iff : ∀ t : Fin cfg0.N, atLast (grid0.coords t) ↔ t.val % 32 = 31 :=
  (by decide +kernel : ∀ t : Fin grid0.N, atLast (grid0.coords t) ↔ t.val % 32 = 31)

/-! ## Where the output window is idle -/

/-- Off a half's last step the body stores nothing into the output window: it is idle there, -/
theorem out_idle : ∀ t : Fin cfg0.N, ¬atLast (grid0.coords t) → cfg0.idle 6 (grid0.coords t) = true := by decide +kernel
/-- and its block is not written back there. -/
theorem out_kept : ∀ t : Fin cfg0.N, ¬atLast (grid0.coords t) → (cfg0.win 6).flush t = false := by decide +kernel
/-- At a half's last step the body stores the output block: the window is live. -/
theorem out_live : ∀ t : Fin cfg0.N, atLast (grid0.coords t) → cfg0.idle 6 (grid0.coords t) = false := by decide +kernel

/-! ## The staging memrefs at a point -/

/-- Each window's current staging memref at point t, spelt as the pipeline passes it to the body, and its wholeness. -/
abbrev sm0_0 (t : Fin cfg0.N) : Memref sig .tc .vmem S3x85 .f32 := win0_0.stage (cfg0.slots t 0)
abbrev sw0_0 (t : Fin cfg0.N) : (sm0_0 t).IsWhole := hstage0_0 ((cfg0.slots t 0).cast nbuf0_0)
abbrev sm0_1 (t : Fin cfg0.N) : Memref sig .tc .vmem S1x85 .f32 := win0_1.stage (cfg0.slots t 1)
abbrev sw0_1 (t : Fin cfg0.N) : (sm0_1 t).IsWhole := hstage0_1 ((cfg0.slots t 1).cast nbuf0_1)
abbrev sm0_2 (t : Fin cfg0.N) : Memref sig .tc .vmem S1x85 .f32 := win0_2.stage (cfg0.slots t 2)
abbrev sw0_2 (t : Fin cfg0.N) : (sm0_2 t).IsWhole := hstage0_2 ((cfg0.slots t 2).cast nbuf0_2)
abbrev sm0_3 (t : Fin cfg0.N) : Memref sig .tc .vmem S1x16 .f32 := win0_3.stage (cfg0.slots t 3)
abbrev sw0_3 (t : Fin cfg0.N) : (sm0_3 t).IsWhole := hstage0_3 ((cfg0.slots t 3).cast nbuf0_3)
abbrev sm0_4 (t : Fin cfg0.N) : Memref sig .tc .vmem S4096x3 .f32 := win0_4.stage (cfg0.slots t 4)
abbrev sw0_4 (t : Fin cfg0.N) : (sm0_4 t).IsWhole := hstage0_4 ((cfg0.slots t 4).cast nbuf0_4)
abbrev sm0_5 (t : Fin cfg0.N) : Memref sig .tc .vmem S4096x16 .f32 := win0_5.stage (cfg0.slots t 5)
abbrev sw0_5 (t : Fin cfg0.N) : (sm0_5 t).IsWhole := hstage0_5 ((cfg0.slots t 5).cast nbuf0_5)
abbrev sm0_6 (t : Fin cfg0.N) : Memref sig .tc .vmem S1x85x16 .f32 := win0_6.stage (cfg0.slots t 6)
abbrev sw0_6 (t : Fin cfg0.N) : (sm0_6 t).IsWhole := hstage0_6 ((cfg0.slots t 6).cast nbuf0_6)

/-! ## The entry invariant, with the scratch buffer singled out -/

/-- What the call is entered with: the scratch buffer whole at some contents, the second call's staging buffers at
    some contents, the generator register at some state. -/
theorem PhiA0_eq (c : Dev nD) :
    (Pipeline.ΦA spec0 c : sProp 𝕄)
      = iprop((∃ d, owns (c : Thread nD τ) scM0 fullShare d) ∗ restOther0 (F := F) c ∗ (∃ r, prngReg c r)) := by
  unfold Pipeline.ΦA; rw [scopedRest0_eq]; unfold restOther0
  simp only [scM0, owns_whole]
  exact BI.equiv_iff.mp ⟨Idealize.SL.BI.sep_assoc, Idealize.SL.BI.sep_assoc'⟩

/-! ## Each input window is found at its block -/

/-- An input window's current staging buffer holds the window's block at every point: fetched there, it is the block;
    not fetched, the block index has not moved since the point before, whose block the body left in place. -/
theorem found0_0 (c : Dev nD) (t : Fin cfg0.N) (d) : (dat0 V c).before 0 t d = iblk0 V c 0 t :=
  ((dat0 V c).before_in_eq_fetched 0 rfl (fun _ => rfl) (fun _ _ _ => rfl)
      (fun t => by rw [after0_0]; unfold Dat.blockOf iblk0; rw [A_eq0]; try rfl) t d).trans
    (by unfold Dat.fetched Dat.blockOf iblk0; rw [A_eq0]; try rfl)
theorem found0_1 (c : Dev nD) (t : Fin cfg0.N) (d) : (dat0 V c).before 1 t d = iblk0 V c 1 t :=
  ((dat0 V c).before_in_eq_fetched 1 rfl (fun _ => rfl) (fun _ _ _ => rfl)
      (fun t => by rw [after0_1]; unfold Dat.blockOf iblk0; rw [A_eq0]; try rfl) t d).trans
    (by unfold Dat.fetched Dat.blockOf iblk0; rw [A_eq0]; try rfl)
theorem found0_2 (c : Dev nD) (t : Fin cfg0.N) (d) : (dat0 V c).before 2 t d = iblk0 V c 2 t :=
  ((dat0 V c).before_in_eq_fetched 2 rfl (fun _ => rfl) (fun _ _ _ => rfl)
      (fun t => by rw [after0_2]; unfold Dat.blockOf iblk0; rw [A_eq0]; try rfl) t d).trans
    (by unfold Dat.fetched Dat.blockOf iblk0; rw [A_eq0]; try rfl)
theorem found0_3 (c : Dev nD) (t : Fin cfg0.N) (d) : (dat0 V c).before 3 t d = iblk0 V c 3 t :=
  ((dat0 V c).before_in_eq_fetched 3 rfl (fun _ => rfl) (fun _ _ _ => rfl)
      (fun t => by rw [after0_3]; unfold Dat.blockOf iblk0; rw [A_eq0]; try rfl) t d).trans
    (by unfold Dat.fetched Dat.blockOf iblk0; rw [A_eq0]; try rfl)
theorem found0_4 (c : Dev nD) (t : Fin cfg0.N) (d) : (dat0 V c).before 4 t d = iblk0 V c 4 t :=
  ((dat0 V c).before_in_eq_fetched 4 rfl (fun _ => rfl) (fun _ _ _ => rfl)
      (fun t => by rw [after0_4]; unfold Dat.blockOf iblk0; rw [A_eq0]; try rfl) t d).trans
    (by unfold Dat.fetched Dat.blockOf iblk0; rw [A_eq0]; try rfl)
theorem found0_5 (c : Dev nD) (t : Fin cfg0.N) (d) : (dat0 V c).before 5 t d = iblk0 V c 5 t :=
  ((dat0 V c).before_in_eq_fetched 5 rfl (fun _ => rfl) (fun _ _ _ => rfl)
      (fun t => by rw [after0_5]; unfold Dat.blockOf iblk0; rw [A_eq0]; try rfl) t d).trans
    (by unfold Dat.fetched Dat.blockOf iblk0; rw [A_eq0]; try rfl)

/-! ## Reading a buffer back after a whole-buffer store -/

/-- The zero offsets of a rank-2 and of a rank-3 whole-buffer rectangle, as the constant function. -/
theorem offs2 : (![0, 0] : Fin 2 → Nat) = fun _ => 0 := funext fun a => by fin_cases a <;> rfl
theorem offs3 : (![0, 0, 0] : Fin 3 → Nat) = fun _ => 0 := funext fun a => by fin_cases a <;> rfl

/-- Reading a buffer back after writes the last of which stored w through the whole-buffer rectangle gives w,
    whatever the buffer held and whatever was written before: that one piece covers every index. -/
theorem read_after_whole_store {sg : RefSig} {κ : Kind} {sp : Space} {S : Shape} {e : EltTy}
    (v : View sg κ sp S e) (f : v.ty.Contents (Elt F)) {off : Fin S.rank → Nat} (h : off = fun _ => 0)
    (inb : ∀ a, off a + S.size a ≤ S.size a) (w : S.Idx → Elt F e) (L : List (View.Piece (Elt F) S e)) :
    v.read (Elt F) (v.writes (Elt F) f ((⟨Rect.unit off S.size inb, w⟩ : View.Piece (Elt F) S e) :: L)) = w :=
  (View.read_writes_eq_canon v f _ (fun y => ⟨_, List.mem_cons.mpr (Or.inl rfl), View.mem_set_unit_zero h inb y⟩)).trans
    (View.canon_cons_unit_zero h inb w L)

/-! ## The running total and the invariant at a point -/

/-- At a half's first step the running total is the step's product added to zero. -/
theorem acc0_first (c : Dev nD) (t : Fin cfg0.N) (h : t.val % 32 = 0) :
    acc0 V c t.val t.isLt = k0_pay1 (wts0 V c t) (iblk0 V c 5 t) (k0_pay3 (F := F)) := by
  obtain ⟨n, hn⟩ := t
  cases n with
  | zero => rfl
  | succ n => exact (if_pos h).trans rfl

/-- At any other step it is the step's product added to the total the point before left. -/
theorem acc0_later (c : Dev nD) (t : Fin cfg0.N) (h : ¬t.val % 32 = 0) :
    acc0 V c t.val t.isLt
      = k0_pay1 (wts0 V c t) (iblk0 V c 5 t) (acc0 V c (t.val - 1) (Nat.lt_of_le_of_lt (Nat.sub_le _ _) t.isLt)) := by
  obtain ⟨n, hn⟩ := t
  cases n with
  | zero => exact absurd (Nat.zero_mod _) h
  | succ n => exact (if_neg h).trans rfl

/-- Before the first point the invariant is the entry invariant. -/
theorem PhiS0_zero (c : Dev nD) (n : ℕ) (h : n ≤ cfg0.N) (hz : n = 0) : PhiS0 V c n h = Pipeline.ΦA spec0 c := by
  subst hz; rfl

/-- After point n: the scratch at the running total after n. -/
theorem PhiS0_succ (c : Dev nD) (n : ℕ) (hn : n < cfg0.N) :
    PhiS0 V c (n + 1) hn
      = iprop(owns (c : Thread nD τ) scM0 fullShare (acc0 V c n hn) ∗ restOther0 (F := F) c ∗ (∃ r, prngReg c r)) := rfl

/-- Before a point that is not the first: the scratch at the running total the point before left. -/
theorem PhiS0_pos (c : Dev nD) (n : ℕ) (h : n ≤ cfg0.N) (hz : n ≠ 0) :
    PhiS0 V c n h
      = iprop(owns (c : Thread nD τ) scM0 fullShare (acc0 V c (n - 1) (by omega)) ∗ restOther0 (F := F) c ∗ (∃ r, prngReg c r)) := by
  cases n with
  | zero => exact absurd rfl hz
  | succ n => rfl

/-- The invariant at a point's start, restated at the point's number. -/
theorem Phi0_castSucc (c : Dev nD) (t : Fin cfg0.N) :
    (dat0 V c).Φ t.castSucc = PhiS0 V c t.val (Nat.le_of_lt t.isLt) := by
  dsimp only [dat0]; simp only [Fin.coe_castSucc]

end Cert.KernelIdeal.Hand

end
-- ==== Proof.R0RunA.lean ====
import proofs.«103844_j2207613190522_2_alg».proof.Proof.R0Base

/-!
# The body at a half's first step

At step 0 of a half the body first overwrites the scratch buffer, whatever it held, with the zero block, then reads
it back as the total so far and stores the step's product added to it: so the scratch ends at the product of the
block's weights with the block's features added to zero.  The output window's buffer is not touched.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- On whole memrefs — the six inputs' at contents x0 … x5, the output's at xo, the scratch at anything — the body at a
    half's first step (not its last) runs to a continuation that holds the inputs' and the output's as they were and the
    scratch at the step's product added to zero.  The zero block read back after its store is the block stored: one
    whole-buffer piece. -/
theorem stepFirst (c : Dev nD) (i : grid0.Coords) (arg2 : Memref sig .tc .vmem S3x85 .f32) (harg2 : arg2.IsWhole) (arg3 : Memref sig .tc .vmem S1x85 .f32) (harg3 : arg3.IsWhole) (arg4 : Memref sig .tc .vmem S1x85 .f32) (harg4 : arg4.IsWhole) (arg5 : Memref sig .tc .vmem S1x16 .f32) (harg5 : arg5.IsWhole) (arg6 : Memref sig .tc .vmem S4096x3 .f32) (harg6 : arg6.IsWhole) (arg7 : Memref sig .tc .vmem S4096x16 .f32) (harg7 : arg7.IsWhole) (arg8 : Memref sig .tc .vmem S1x85x16 .f32) (harg8 : arg8.IsWhole) (arg9 : Memref sig .tc .vmem S85x16 .f32) (harg9 : arg9.IsWhole)
    (hF : atFirst i) (hL : ¬atLast i)
    (x0 : Vec F S3x85 .f32) (x1 : Vec F S1x85 .f32) (x2 : Vec F S1x85 .f32) (x3 : Vec F S1x16 .f32) (x4 : Vec F S4096x3 .f32) (x5 : Vec F S4096x16 .f32)
    (xo : Vec F S1x85x16 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5
        ∗ owns (c : Thread nD τ) arg8 fullShare xo ∗ (∃ d, owns (c : Thread nD τ) arg9 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5
            ∗ owns (c : Thread nD τ) arg8 fullShare xo
            ∗ owns (c : Thread nD τ) arg9 fullShare (k0_pay1 (k0_pay4 x4 x0 x1 x2) x5 (k0_pay3 (F := F)))) -∗ K ⟨⟩))
      ⊢ wp frame (wpE (defs₀ (F := F)) Variants.none c none) E (cc0__qf_reduce_kernel i arg2 harg2 arg3 harg3 arg4 harg4 arg5 harg5 arg6 harg6 arg7 harg7 arg8 harg8 arg9 harg9) K := by
  simp only [cc0__qf_reduce_kernel_eq_skeleton]; unfold cc0__qf_reduce_kernel_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%ds, %fs, -, HS⟩, Hk⟩
  obtain rfl := harg2.eq_unread hf0; obtain rfl := harg3.eq_unread hf1; obtain rfl := harg4.eq_unread hf2
  obtain rfl := harg5.eq_unread hf3; obtain rfl := harg6.eq_unread hf4; obtain rfl := harg7.eq_unread hf5
  obtain rfl := harg8.eq_unread hf6
  sl_exec (disch := first | exact hF | exact hL)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  iexists _; isplitr
  swap; · iexact HS
  ipureintro
  sl_unfold_run_names
  rw [read_after_whole_store _ _ offs2]
  simp only [View.readAt_eq_ld, harg2.read_unread, harg3.read_unread, harg4.read_unread, harg5.read_unread,
    harg6.read_unread, harg7.read_unread, harg9.read_unread,
    View.ld_unit_zero (S := S3x85) offs2, View.ld_unit_zero (S := S1x85) offs2, View.ld_unit_zero (S := S1x16) offs2,
    View.ld_unit_zero (S := S4096x3) offs2, View.ld_unit_zero (S := S4096x16) offs2, View.ld_unit_zero (S := S85x16) offs2,
    View.readCov_unit_zero (S := S85x16) _ offs2]

end Cert.KernelIdeal.Hand

end
-- ==== Proof.R0RunB.lean ====
import proofs.«103844_j2207613190522_2_alg».proof.Proof.R0RunA

/-!
# The body at a step between a half's first and last

At a step that is neither first nor last the body reads the total so far from the scratch buffer and stores the
step's product added to it.  The output window's buffer is not touched.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- On whole memrefs — the six inputs' at contents x0 … x5, the output's at xo, the scratch at the total so far xs — the
    body at a step that is neither a half's first nor its last runs to a continuation that holds the inputs' and the
    output's as they were and the scratch at the step's product added to xs. -/
theorem stepMiddle (c : Dev nD) (i : grid0.Coords) (arg2 : Memref sig .tc .vmem S3x85 .f32) (harg2 : arg2.IsWhole) (arg3 : Memref sig .tc .vmem S1x85 .f32) (harg3 : arg3.IsWhole) (arg4 : Memref sig .tc .vmem S1x85 .f32) (harg4 : arg4.IsWhole) (arg5 : Memref sig .tc .vmem S1x16 .f32) (harg5 : arg5.IsWhole) (arg6 : Memref sig .tc .vmem S4096x3 .f32) (harg6 : arg6.IsWhole) (arg7 : Memref sig .tc .vmem S4096x16 .f32) (harg7 : arg7.IsWhole) (arg8 : Memref sig .tc .vmem S1x85x16 .f32) (harg8 : arg8.IsWhole) (arg9 : Memref sig .tc .vmem S85x16 .f32) (harg9 : arg9.IsWhole)
    (hF : ¬atFirst i) (hL : ¬atLast i)
    (x0 : Vec F S3x85 .f32) (x1 : Vec F S1x85 .f32) (x2 : Vec F S1x85 .f32) (x3 : Vec F S1x16 .f32) (x4 : Vec F S4096x3 .f32) (x5 : Vec F S4096x16 .f32)
    (xo : Vec F S1x85x16 .f32) (xs : Vec F S85x16 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5
        ∗ owns (c : Thread nD τ) arg8 fullShare xo ∗ owns (c : Thread nD τ) arg9 fullShare xs
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5
            ∗ owns (c : Thread nD τ) arg8 fullShare xo
            ∗ owns (c : Thread nD τ) arg9 fullShare (k0_pay1 (k0_pay4 x4 x0 x1 x2) x5 xs)) -∗ K ⟨⟩))
      ⊢ wp frame (wpE (defs₀ (F := F)) Variants.none c none) E (cc0__qf_reduce_kernel i arg2 harg2 arg3 harg3 arg4 harg4 arg5 harg5 arg6 harg6 arg7 harg7 arg8 harg8 arg9 harg9) K := by
  simp only [cc0__qf_reduce_kernel_eq_skeleton]; unfold cc0__qf_reduce_kernel_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs, %hfs, HS⟩, Hk⟩
  obtain rfl := harg2.eq_unread hf0; obtain rfl := harg3.eq_unread hf1; obtain rfl := harg4.eq_unread hf2
  obtain rfl := harg5.eq_unread hf3; obtain rfl := harg6.eq_unread hf4; obtain rfl := harg7.eq_unread hf5
  obtain rfl := harg8.eq_unread hf6; obtain rfl := harg9.eq_unread hfs
  sl_exec (disch := first | exact hF | exact hL)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  iexists _; isplitr
  swap; · iexact HS
  ipureintro
  sl_unfold_run_names
  rw [read_after_whole_store _ _ offs2]
  simp only [View.readAt_eq_ld, harg2.read_unread, harg3.read_unread, harg4.read_unread, harg5.read_unread,
    harg6.read_unread, harg7.read_unread, harg9.read_unread,
    View.ld_unit_zero (S := S3x85) offs2, View.ld_unit_zero (S := S1x85) offs2, View.ld_unit_zero (S := S1x16) offs2,
    View.ld_unit_zero (S := S4096x3) offs2, View.ld_unit_zero (S := S4096x16) offs2, View.ld_unit_zero (S := S85x16) offs2,
    View.readCov_unit_zero (S := S85x16) _ offs2]

end Cert.KernelIdeal.Hand

end
-- ==== Proof.R0RunC.lean ====
import proofs.«103844_j2207613190522_2_alg».proof.Proof.R0RunB

/-!
# The body at a half's last step

At step 31 of a half the body adds the step's product to the total so far as at any later step, then reads the new
total back from the scratch buffer and stores it, scaled column by column by the feature weights' row, as the
output block.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- On whole memrefs — the six inputs' at contents x0 … x5, the output's at anything, the scratch at the total so far xs —
    the body at a half's last step (not its first) runs to a continuation that holds the inputs' as they were, the scratch
    at the new total, the step's product added to xs, and the output's at the new total scaled by x3.  The total read back
    after its store is the total stored. -/
theorem stepLast (c : Dev nD) (i : grid0.Coords) (arg2 : Memref sig .tc .vmem S3x85 .f32) (harg2 : arg2.IsWhole) (arg3 : Memref sig .tc .vmem S1x85 .f32) (harg3 : arg3.IsWhole) (arg4 : Memref sig .tc .vmem S1x85 .f32) (harg4 : arg4.IsWhole) (arg5 : Memref sig .tc .vmem S1x16 .f32) (harg5 : arg5.IsWhole) (arg6 : Memref sig .tc .vmem S4096x3 .f32) (harg6 : arg6.IsWhole) (arg7 : Memref sig .tc .vmem S4096x16 .f32) (harg7 : arg7.IsWhole) (arg8 : Memref sig .tc .vmem S1x85x16 .f32) (harg8 : arg8.IsWhole) (arg9 : Memref sig .tc .vmem S85x16 .f32) (harg9 : arg9.IsWhole)
    (hF : ¬atFirst i) (hL : atLast i)
    (x0 : Vec F S3x85 .f32) (x1 : Vec F S1x85 .f32) (x2 : Vec F S1x85 .f32) (x3 : Vec F S1x16 .f32) (x4 : Vec F S4096x3 .f32) (x5 : Vec F S4096x16 .f32)
    (xs : Vec F S85x16 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5
        ∗ (∃ d, owns (c : Thread nD τ) arg8 fullShare d) ∗ owns (c : Thread nD τ) arg9 fullShare xs
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5
            ∗ owns (c : Thread nD τ) arg8 fullShare (k0_pay2 (k0_pay1 (k0_pay4 x4 x0 x1 x2) x5 xs) x3)
            ∗ owns (c : Thread nD τ) arg9 fullShare (k0_pay1 (k0_pay4 x4 x0 x1 x2) x5 xs)) -∗ K ⟨⟩))
      ⊢ wp frame (wpE (defs₀ (F := F)) Variants.none c none) E (cc0__qf_reduce_kernel i arg2 harg2 arg3 harg3 arg4 harg4 arg5 harg5 arg6 harg6 arg7 harg7 arg8 harg8 arg9 harg9) K := by
  simp only [cc0__qf_reduce_kernel_eq_skeleton]; unfold cc0__qf_reduce_kernel_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs, %hfs, HS⟩, Hk⟩
  obtain rfl := harg2.eq_unread hf0; obtain rfl := harg3.eq_unread hf1; obtain rfl := harg4.eq_unread hf2
  obtain rfl := harg5.eq_unread hf3; obtain rfl := harg6.eq_unread hf4; obtain rfl := harg7.eq_unread hf5
  obtain rfl := harg9.eq_unread hfs
  sl_exec (disch := first | exact hF | exact hL)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr
    swap; · iexact H6
    ipureintro
    sl_unfold_run_names
    rw [read_after_whole_store _ _ offs3]
    simp only [View.readAt_eq_ld, harg2.read_unread, harg3.read_unread, harg4.read_unread, harg5.read_unread,
      harg6.read_unread, harg7.read_unread, harg9.read_unread,
      View.ld_unit_zero (S := S3x85) offs2, View.ld_unit_zero (S := S1x85) offs2, View.ld_unit_zero (S := S1x16) offs2,
      View.ld_unit_zero (S := S4096x3) offs2, View.ld_unit_zero (S := S4096x16) offs2, View.ld_unit_zero (S := S85x16) offs2,
      View.readCov_unit_zero (S := S85x16) _ offs2]
  iexists _; isplitr
  swap; · iexact HS
  ipureintro
  sl_unfold_run_names
  rw [read_after_whole_store _ _ offs2]
  simp only [View.readAt_eq_ld, harg2.read_unread, harg3.read_unread, harg4.read_unread, harg5.read_unread,
    harg6.read_unread, harg7.read_unread, harg9.read_unread,
    View.ld_unit_zero (S := S3x85) offs2, View.ld_unit_zero (S := S1x85) offs2, View.ld_unit_zero (S := S1x16) offs2,
    View.ld_unit_zero (S := S4096x3) offs2, View.ld_unit_zero (S := S4096x16) offs2, View.ld_unit_zero (S := S85x16) offs2,
    View.readCov_unit_zero (S := S85x16) _ offs2]

end Cert.KernelIdeal.Hand

end
-- ==== Proof.R0Frame.lean ====
import proofs.«103844_j2207613190522_2_alg».proof.Proof.R0RunC

/-!
# The first call's body obligation

At any point of the 2 × 32 grid the body, handed each input window's staging buffer at the window's block, the
output window's at whatever it holds, and the scratch buffer at the running total the point before left (at
anything before a half's first step), returns the inputs as they were, the scratch at the running total after
the point, and the output window's buffer untouched — except at a half's last step, where it holds the scaled
total.  The point's number decides which of the three kinds of step it is; the arithmetic of t mod 32 excludes a
step that is both first and last.  The invariant before the first point is the call's entry invariant, and after
the last point it gives the entry invariant back, forgetting what the scratch holds.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- What the body is called with at point t: the invariant, what the core owes, and the seven windows' current
    staging buffers one by one. -/
def bodyPre0 (c : Dev nD) (t : Fin cfg0.N) : sProp 𝕄 :=
  iprop((dat0 V c).Φ t.castSucc ∗ (dat0 V c).owesAt () t.castSucc
    ∗ (∃ d, owns (c : Thread nD τ) (sm0_0 t) fullShare ((dat0 V c).before 0 t d))
    ∗ (∃ d, owns (c : Thread nD τ) (sm0_1 t) fullShare ((dat0 V c).before 1 t d))
    ∗ (∃ d, owns (c : Thread nD τ) (sm0_2 t) fullShare ((dat0 V c).before 2 t d))
    ∗ (∃ d, owns (c : Thread nD τ) (sm0_3 t) fullShare ((dat0 V c).before 3 t d))
    ∗ (∃ d, owns (c : Thread nD τ) (sm0_4 t) fullShare ((dat0 V c).before 4 t d))
    ∗ (∃ d, owns (c : Thread nD τ) (sm0_5 t) fullShare ((dat0 V c).before 5 t d))
    ∗ (∃ d, owns (c : Thread nD τ) (sm0_6 t) fullShare ((dat0 V c).before 6 t d)))

/-- What it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t)

set_option maxHeartbeats 4800000 in
/-- The body at any point.  Each input's buffer holds its block; the point's number modulo 32 says which kind of step
    it is, and that step's run applies: the invariant hands it the scratch at the running total the point before
    left (at anything before a half's first step, where the body overwrites it) and takes it back at the running
    total after this point; the other scoped buffers and the generator register ride along; nothing is owed. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [found0_0, found0_1, found0_2, found0_3, found0_4, found0_5]
  rw [show (dat0 V c).owesAt () t.succ = (dat0 V c).owesAt () t.castSucc from rfl]
  rw [show (dat0 V c).Φ t.succ = PhiS0 V c (t.val + 1) t.isLt from rfl, PhiS0_succ]
  have hN : t.val < 64 := lt_of_lt_of_eq t.isLt (show cfg0.N = 64 from N_0)
  rw [show (dat0 V c).leavesExact 0 t = owns (c : Thread nD τ) (sm0_0 t) fullShare (iblk0 V c 0 t) from by
    unfold Dat.leavesExact; rw [show cfg0.idle 0 (grid0.coords t) = false from rfl, after0_0]]
  rw [show (dat0 V c).leavesExact 1 t = owns (c : Thread nD τ) (sm0_1 t) fullShare (iblk0 V c 1 t) from by
    unfold Dat.leavesExact; rw [show cfg0.idle 1 (grid0.coords t) = false from rfl, after0_1]]
  rw [show (dat0 V c).leavesExact 2 t = owns (c : Thread nD τ) (sm0_2 t) fullShare (iblk0 V c 2 t) from by
    unfold Dat.leavesExact; rw [show cfg0.idle 2 (grid0.coords t) = false from rfl, after0_2]]
  rw [show (dat0 V c).leavesExact 3 t = owns (c : Thread nD τ) (sm0_3 t) fullShare (iblk0 V c 3 t) from by
    unfold Dat.leavesExact; rw [show cfg0.idle 3 (grid0.coords t) = false from rfl, after0_3]]
  rw [show (dat0 V c).leavesExact 4 t = owns (c : Thread nD τ) (sm0_4 t) fullShare (iblk0 V c 4 t) from by
    unfold Dat.leavesExact; rw [show cfg0.idle 4 (grid0.coords t) = false from rfl, after0_4]]
  rw [show (dat0 V c).leavesExact 5 t = owns (c : Thread nD τ) (sm0_5 t) fullShare (iblk0 V c 5 t) from by
    unfold Dat.leavesExact; rw [show cfg0.idle 5 (grid0.coords t) = false from rfl, after0_5]]
  by_cases h0 : t.val % 32 = 0
  · by_cases h1 : t.val % 32 = 31
    · exfalso; omega
    · -- a half's first step
      have hF : atFirst (grid0.coords t) := (atFirst_iff t).mpr h0
      have hL : ¬atLast (grid0.coords t) := fun h => h1 ((atLast_iff t).mp h)
      rw [Dat.leavesExact_idle (dat0 V c) 6 t (out_idle t hL) (out_kept t hL)]
      rw [acc0_first V c t h0]; unfold wts0
      by_cases hz : t.val = 0
      · rw [Phi0_castSucc V c t, PhiS0_zero V c _ _ hz, PhiA0_eq]
        iintro ⟨⟨HS, Hr, Hg⟩, Ho, ⟨%d0, H0⟩, ⟨%d1, H1⟩, ⟨%d2, H2⟩, ⟨%d3, H3⟩, ⟨%d4, H4⟩, ⟨%d5, H5⟩, ⟨%d6, H6⟩⟩
        iapply (stepFirst c (grid0.coords t) (sm0_0 t) (sw0_0 t) (sm0_1 t) (sw0_1 t) (sm0_2 t) (sw0_2 t) (sm0_3 t) (sw0_3 t) (sm0_4 t) (sw0_4 t) (sm0_5 t) (sw0_5 t) (sm0_6 t) (sw0_6 t) scM0 (Memref.isWhole_whole _) hF hL
          (iblk0 V c 0 t) (iblk0 V c 1 t) (iblk0 V c 2 t) (iblk0 V c 3 t) (iblk0 V c 4 t) (iblk0 V c 5 t) ((dat0 V c).before 6 t d6) Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HS]; · iexact HS
        iintro ⟨H0, H1, H2, H3, H4, H5, H6, HS⟩
        isplitl [HS Hr Hg]
        · isplitl [HS]; · iexact HS
          isplitl [Hr]; · iexact Hr
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        iexists _; iexact H6
      · rw [Phi0_castSucc V c t, PhiS0_pos V c _ _ hz]
        iintro ⟨⟨HS, Hr, Hg⟩, Ho, ⟨%d0, H0⟩, ⟨%d1, H1⟩, ⟨%d2, H2⟩, ⟨%d3, H3⟩, ⟨%d4, H4⟩, ⟨%d5, H5⟩, ⟨%d6, H6⟩⟩
        iapply (stepFirst c (grid0.coords t) (sm0_0 t) (sw0_0 t) (sm0_1 t) (sw0_1 t) (sm0_2 t) (sw0_2 t) (sm0_3 t) (sw0_3 t) (sm0_4 t) (sw0_4 t) (sm0_5 t) (sw0_5 t) (sm0_6 t) (sw0_6 t) scM0 (Memref.isWhole_whole _) hF hL
          (iblk0 V c 0 t) (iblk0 V c 1 t) (iblk0 V c 2 t) (iblk0 V c 3 t) (iblk0 V c 4 t) (iblk0 V c 5 t) ((dat0 V c).before 6 t d6) Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HS]; · iexists _; iexact HS
        iintro ⟨H0, H1, H2, H3, H4, H5, H6, HS⟩
        isplitl [HS Hr Hg]
        · isplitl [HS]; · iexact HS
          isplitl [Hr]; · iexact Hr
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        iexists _; iexact H6
  · have hz : t.val ≠ 0 := fun h => h0 (by rw [h])
    have hF : ¬atFirst (grid0.coords t) := fun h => h0 ((atFirst_iff t).mp h)
    by_cases h1 : t.val % 32 = 31
    · -- a half's last step
      have hL : atLast (grid0.coords t) := (atLast_iff t).mpr h1
      rw [show (dat0 V c).leavesExact 6 t = owns (c : Thread nD τ) (sm0_6 t) fullShare (out0 V c t) from by
        unfold Dat.leavesExact; rw [out_live t hL, after0_6]]
      unfold out0; rw [acc0_later V c t h0]; unfold wts0
      rw [Phi0_castSucc V c t, PhiS0_pos V c _ _ hz]
      iintro ⟨⟨HS, Hr, Hg⟩, Ho, ⟨%d0, H0⟩, ⟨%d1, H1⟩, ⟨%d2, H2⟩, ⟨%d3, H3⟩, ⟨%d4, H4⟩, ⟨%d5, H5⟩, ⟨%d6, H6⟩⟩
      iapply (stepLast c (grid0.coords t) (sm0_0 t) (sw0_0 t) (sm0_1 t) (sw0_1 t) (sm0_2 t) (sw0_2 t) (sm0_3 t) (sw0_3 t) (sm0_4 t) (sw0_4 t) (sm0_5 t) (sw0_5 t) (sm0_6 t) (sw0_6 t) scM0 (Memref.isWhole_whole _) hF hL
        (iblk0 V c 0 t) (iblk0 V c 1 t) (iblk0 V c 2 t) (iblk0 V c 3 t) (iblk0 V c 4 t) (iblk0 V c 5 t) (acc0 V c (t.val - 1) (Nat.lt_of_le_of_lt (Nat.sub_le _ _) t.isLt)) Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS]; · iexact HS
      iintro ⟨H0, H1, H2, H3, H4, H5, H6, HS⟩
      isplitl [HS Hr Hg]
      · isplitl [HS]; · iexact HS
        isplitl [Hr]; · iexact Hr
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
    · -- a step in between
      have hL : ¬atLast (grid0.coords t) := fun h => h1 ((atLast_iff t).mp h)
      rw [Dat.leavesExact_idle (dat0 V c) 6 t (out_idle t hL) (out_kept t hL)]
      rw [acc0_later V c t h0]; unfold wts0
      rw [Phi0_castSucc V c t, PhiS0_pos V c _ _ hz]
      iintro ⟨⟨HS, Hr, Hg⟩, Ho, ⟨%d0, H0⟩, ⟨%d1, H1⟩, ⟨%d2, H2⟩, ⟨%d3, H3⟩, ⟨%d4, H4⟩, ⟨%d5, H5⟩, ⟨%d6, H6⟩⟩
      iapply (stepMiddle c (grid0.coords t) (sm0_0 t) (sw0_0 t) (sm0_1 t) (sw0_1 t) (sm0_2 t) (sw0_2 t) (sm0_3 t) (sw0_3 t) (sm0_4 t) (sw0_4 t) (sm0_5 t) (sw0_5 t) (sm0_6 t) (sw0_6 t) scM0 (Memref.isWhole_whole _) hF hL
        (iblk0 V c 0 t) (iblk0 V c 1 t) (iblk0 V c 2 t) (iblk0 V c 3 t) (iblk0 V c 4 t) (iblk0 V c 5 t) ((dat0 V c).before 6 t d6) (acc0 V c (t.val - 1) (Nat.lt_of_le_of_lt (Nat.sub_le _ _) t.isLt)) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS]; · iexact HS
      iintro ⟨H0, H1, H2, H3, H4, H5, H6, HS⟩
      isplitl [HS Hr Hg]
      · isplitl [HS]; · iexact HS
        isplitl [Hr]; · iexact Hr
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the call is the invariant before the first point. -/
theorem hin0 (c : Dev nD) : (Pipeline.ΦA spec0 c : sProp 𝕄) ⊢ (dat0 V c).Φ 0 := by
  rw [show (dat0 V c).Φ 0 = PhiS0 V c 0 (Nat.zero_le _) from rfl, PhiS0_zero V c 0 _ rfl]
  first | done | exact Idealize.SL.BI.Entails.refl _

/-- After any point the invariant gives the entry invariant back: what the scratch holds is forgotten. -/
theorem Phi0_out (c : Dev nD) (t : Fin (cfg0.N + 1)) (ht : t.val ≠ 0) : (dat0 V c).Φ t ⊢ (Pipeline.ΦA spec0 c : sProp 𝕄) := by
  rw [show (dat0 V c).Φ t = PhiS0 V c t.val (Nat.le_of_lt_succ t.isLt) from rfl, PhiS0_pos V c _ _ ht, PhiA0_eq]
  iintro ⟨HS, Hr, Hg⟩
  isplitl [HS]
  · iexists _; iexact HS
  isplitl [Hr]; · iexact Hr
  iexact Hg

/-- In particular after the last point. -/
theorem hout0 (c : Dev nD) : (dat0 V c).Φ (Fin.last cfg0.N) ⊢ (Pipeline.ΦA spec0 c : sProp 𝕄) :=
  Phi0_out V c _ (by rw [Fin.val_last]; have : cfg0.N = 64 := N_0; omega)

end Cert.KernelIdeal.Hand

end
-- ==== Proof.R1Data.lean ====
import proofs.«103844_j2207613190522_2_alg».proof.Proof.Gen.KernelIdeal.Launch
import proofs.«103844_j2207613190522_2_alg».proof.Proof.Gen.KernelIdeal.Skeleton
import proofs.«103844_j2207613190522_2_alg».proof.Proof.Gen.KernelIdeal.Points
import Idealize.ShloMosaic.Lib.Pipeline.FrameBody
import Idealize.ShloMosaic.Lib.Ring
import Idealize.ShloMosaic.Lib.Tactic

/-!
# The second call's proof data

The second call runs on a grid of 64 points, point t handling rows 4096·t … 4096·t + 4095: from the point's block
of features and the whole kernel-feature matrix it stores the block of result rows — the features, their products
with the matrix's rows, and those products against the matrix's columns, side by side.  Nothing is carried between
points.  Stated at a parameter V: the buffers' contents when the call is entered.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the call finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The block of result rows point t stores: from its block of features and the kernel-feature matrix. -/
def out1 (c : Dev nD) (t : Fin cfg1.N) : Vec F S4096x117 .f32 :=
  k1_pay1 (iblk1 V c 0 t) (iblk1 V c 1 t)

/-- The proof data of the second call on core c: the arrays as the call finds them; after the body at point t each
    input's buffer at its block and the output's at the stored block; the invariant the scoped buffers the pipeline
    does not stage and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1 V c t
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1 V c t := by dsimp only [dat1]

end Cert.KernelIdeal.Hand

end
-- ==== Proof.RunData.lean ====
import proofs.«103844_j2207613190522_2_alg».proof.Proof.R0Data
import proofs.«103844_j2207613190522_2_alg».proof.Proof.R1Data
import Idealize.ShloMosaic.Lib.Pipeline.RegionsLoop
import Idealize.ShloMosaic.Lib.Pipeline.FrameSuffix

/-!
# The buffers' contents between the program's four segments

The program is: a stretch of host operations (the kernel points transposed, their squared norms, the squared
widths, the feature weights as a row), the first call, a second stretch (the two halves' output blocks added),
the second call.  The contents of every buffer at each boundary are a fold from the launch memory: a stretch
applies its operations; a call leaves its arrays at what its write-backs leave and every other buffer as entered.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- Core c's buffers at launch. -/
abbrev W0 : Dev nD → Valuation τ sig (Elt F) := fun c b => m ((c : Dev nD), b)
/-- After the first stretch (the first call's entry). -/
abbrev W1 : Dev nD → Valuation τ sig (Elt F) := fun c => StableHlo.after hostOps0 (W0 m c)
/-- The same read at the core's references. -/
abbrev V1 : (c : Dev nD) → (b : Ref sig .tc) → Buf (Elt F) ((c : Thread nD τ).loc b) := fun c b => W1 m c b
/-- At the first call's exit: its arrays at what the pipeline leaves, every other buffer as entered. -/
def W2 (c : Dev nD) : Valuation τ sig (Elt F) :=
  Pipeline.withArrays spec0 c (W1 m c) fun w => (dat0 (V1 m) c).arrAt w cfg0.N
/-- The same read at the core's references. -/
abbrev V2 : (c : Dev nD) → (b : Ref sig .tc) → Buf (Elt F) ((c : Thread nD τ).loc b) := fun c b => W2 m c b
/-- After the second stretch (the second call's entry). -/
abbrev W3 : Dev nD → Valuation τ sig (Elt F) := fun c => StableHlo.after hostOps1 (W2 m c)
/-- The same read at the core's references. -/
abbrev V3 : (c : Dev nD) → (b : Ref sig .tc) → Buf (Elt F) ((c : Thread nD τ).loc b) := fun c b => W3 m c b
/-- At the second call's exit: its arrays at what the pipeline leaves, every other buffer as entered. -/
def W4 (c : Dev nD) : Valuation τ sig (Elt F) :=
  Pipeline.withArrays spec1 c (W3 m c) fun w => (dat1 (V3 m) c).arrAt w cfg1.N
/-- The same read at the core's references. -/
abbrev V4 : (c : Dev nD) → (b : Ref sig .tc) → Buf (Elt F) ((c : Thread nD τ).loc b) := fun c b => W4 m c b

theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
theorem W4_arr (c : Dev nD) (w : Fin cfg1.W) :
    W4 m c (Proc.devRef .tc (Pipeline.arrRef spec1 w)) = (dat1 (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb

/-- No pipeline has a prefetched table. -/
abbrev adm : (p : Fin 2) → (pcfgs (F := F) p).Adm := fun p => (cfgs p).toPCfg_adm

/-- Every pipeline's proof data, each at its call's entry contents. -/
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V3 m) c

end Cert.KernelIdeal.Hand

end
-- ==== Proof.R1Frame.lean ====
import proofs.«103844_j2207613190522_2_alg».proof.Proof.R1Data
import Idealize.ShloMosaic.Lib.Pipeline.Value

/-!
# The second call's body at a point

At every point the body reads the point's block of features and the kernel-feature matrix, reads its output buffer
once without using what it read, and overwrites that buffer whole with the block of result rows.  So after the body
the two input buffers hold what they held and the output buffer holds the result block of the two inputs — whatever
it held before.  The input buffers hold the windows' blocks at every point, fetched there or not: the matrix's window
is fetched at the first point only, and its block never moves.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body's accesses all start at the origin of their buffer; the origin, as a function. -/
theorem origin2 : (![0, 0] : Fin 2 → Nat) = fun _ => 0 := funext fun a => by fin_cases a <;> rfl

/-! ## The body on three whole buffers -/

set_option maxHeartbeats 1000000 in
/-- On whole buffers, the first reading x0, the second reading x1, the third holding anything, the body runs to
    its continuation with the first two as they were and the third reading the result block of x0 and x1: the third
    buffer is read once (the value is dropped) and then stored over whole, and a whole store read back is what was
    stored. -/
theorem kernel1_triple (c : Dev nD) (E : Set ℕ) (i : grid1.Coords)
    (a1 : Memref sig .tc .vmem S4096x16 .f32) (h1 : a1.IsWhole)
    (a2 : Memref sig .tc .vmem S85x16 .f32) (h2 : a2.IsWhole)
    (a3 : Memref sig .tc .vmem S4096x117 .f32) (h3 : a3.IsWhole)
    (x0 : Vec F S4096x16 .f32) (x1 : Vec F S85x16 .f32) (K : PUnit → sProp 𝕄) :
    iprop(owns (c : Thread nD τ) a1 fullShare x0 ∗ owns (c : Thread nD τ) a2 fullShare x1
        ∗ (∃ d, owns (c : Thread nD τ) a3 fullShare d)
        ∗ (iprop(owns (c : Thread nD τ) a1 fullShare x0 ∗ owns (c : Thread nD τ) a2 fullShare x1
            ∗ owns (c : Thread nD τ) a3 fullShare (k1_pay1 x0 x1)) -∗ K ⟨⟩))
      ⊢ wp frame (wpE (defs₀ (F := F)) Variants.none c none) E (cc1__output_kernel i a1 h1 a2 h2 a3 h3) K := by
  simp only [cc1__output_kernel_eq_skeleton]; unfold cc1__output_kernel_skel
  unfold owns
  iintro ⟨⟨%f1, %e1, H1⟩, ⟨%f2, %e2, H2⟩, ⟨%d3, %f3, -, H3⟩, Hk⟩
  subst e1; subst e2
  sl_exec
  sl_step
  iapply Hk
  isplitl [H1]
  · iexists f1; isplitr; · ipureintro; rfl
    iexact H1
  isplitl [H2]
  · iexists f2; isplitr; · ipureintro; rfl
    iexact H2
  iexists _; isplitr
  swap; · iexact H3
  ipureintro
  refine (View.read_writes_eq_canon _ _ _ fun y => ⟨_, List.mem_singleton_self _, View.mem_set_unit_zero origin2 inb_S4096x117_S4096x117_0_0 y⟩).trans ?_
  rw [View.canon_unit_zero origin2]
  simp only [View.readAt_eq_ld, View.ld_unit_zero (S := S4096x16) origin2, View.ld_unit_zero (S := S85x16) origin2]

/-! ## What the input buffers hold when the body runs -/

variable (V : (c : Dev nD) → (b : Ref sig .tc) → Buf (Elt F) ((c : Thread nD τ).loc b))

/-- What a fetch of a window reads off its array is the window's block off the entry contents. -/
theorem blockOf1 (c : Dev nD) (w : Fin cfg1.W) (t : Fin cfg1.N) : (dat1 V c).blockOf w t = iblk1 V c w t := by
  unfold Dat.blockOf iblk1; rw [A_eq1]

/-- The features' buffer holds the point's block of features at every point (it is fetched at every point). -/
theorem holds1_0 (c : Dev nD) (t : Fin cfg1.N) (d) : (dat1 V c).before 0 t d = iblk1 V c 0 t := by
  have hkeep : ∀ t, (cfg1.win 0).cut (cfg1.grid.coords t) ((dat1 V c).after 0 t) = (dat1 V c).blockOf 0 t := fun t => by
    rw [after1_0, blockOf1]
  rw [(dat1 V c).before_in_eq_fetched 0 rfl (fun _ => rfl) (fun _ _ _ => rfl) hkeep t d]
  unfold Dat.fetched; rw [blockOf1]; rfl

/-- The matrix's buffer holds the whole matrix at every point: fetched at the first point, and at a later point the
    body before left it in place and the window's block index has not moved. -/
theorem holds1_1 (c : Dev nD) (t : Fin cfg1.N) (d) : (dat1 V c).before 1 t d = iblk1 V c 1 t := by
  have hkeep : ∀ t, (cfg1.win 1).cut (cfg1.grid.coords t) ((dat1 V c).after 1 t) = (dat1 V c).blockOf 1 t := fun t => by
    rw [after1_1, blockOf1]
  rw [(dat1 V c).before_in_eq_fetched 1 rfl (fun _ => rfl) (fun _ _ _ => rfl) hkeep t d]
  unfold Dat.fetched; rw [blockOf1]; rfl

/-! ## The body at a point of the grid -/

/-- What the pipeline hands the body at point t: the invariant, the core's dues, each window's current buffer at
    what it then holds. -/
def pointPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- What the body hands back: the same, each buffer at what the body leaves. -/
def pointPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the two input buffers hold their blocks, the output buffer something, so the body's
    triple applies at those blocks; the invariant and the dues are the same at the next point and pass through. -/
theorem point_sound1 (c : Dev nD) (t : Fin cfg1.N) :
    pointPre1 V c t ⊢ wp frame (wpE (defs₀ (F := F)) Variants.none c none) Set.univ (bodyAt1 t) (fun _ => pointPost1 V c t) := by
  unfold pointPre1 pointPost1 bodyAt1
  simp only [holds1_0, holds1_1]
  rw [show (dat1 V c).Φ t.succ = (dat1 V c).Φ t.castSucc from rfl,
    show (dat1 V c).owesAt () t.succ = (dat1 V c).owesAt () t.castSucc from rfl,
    after1_0, after1_1, after1_2]
  unfold out1
  iintro ⟨HΦ, Ho, ⟨%d0, H0⟩, ⟨%d1, H1⟩, ⟨%d2, H2⟩⟩
  iapply (kernel1_triple c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The second call's body obligation: the body at every point, the windows taken one by one. -/
theorem body_obligation1 (V : (c : Dev nD) → (b : Ref sig .tc) → Buf (Elt F) ((c : Thread nD τ).loc b)) (c : Dev nD) : BodyObligation (dat1 (F := F) V c) (defs₀ (F := F)) Variants.none () Set.univ := fun t => by
  rw [bigSep_W1, bigSep_W1]
  exact point_sound1 V c t

end Cert.KernelIdeal.Hand

end
-- ==== Proof.Run.lean ====
import proofs.«103844_j2207613190522_2_alg».proof.Proof.RunData
import proofs.«103844_j2207613190522_2_alg».proof.Proof.R1Frame
import proofs.«103844_j2207613190522_2_alg».proof.Proof.Gen.KernelIdeal.Regions

/-!
# The run: the program's four segments from the launch to the return

Between two segments a core holds every unscoped buffer whole, at the contents the fold names for that boundary,
beside its generator register at some state and its dues, which are none.  A stretch of host operations moves the
buffers from one boundary's contents to the next by applying its operations.  A call takes its windows' arrays out of
the buffers, hands the generator register and the scoped buffers it does not stage to its invariant, runs its grid,
and puts the arrays back at what its write-backs left, every other buffer as it was.  At the end every unscoped
buffer is read against the final memory.

The first call's invariant is the running total's, not the plain one; what is used of it is stated as three
hypotheses: its body obligation, that the plain invariant opens it, and that at the last point it closes to the
plain invariant again.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## A call's exit contents, as the library's two conditions -/

/-- At the first call's exit each of its arrays holds what the pipeline leaves there, -/
theorem leaves0 (c : Dev nD) (w : Fin cfg0.W) : (dat0 (V1 m) c).arrAt w cfg0.N = V2 m c (Pipeline.arrRef spec0 w) :=
  (W2_arr m c w).symm
/-- and every buffer that is no array of it what it held at entry. -/
theorem keeps0 (c : Dev nD) (b : Ref sig .tc) (hb : b ∉ Finset.univ.image (Pipeline.arrRef spec0)) : V2 m c b = V1 m c b :=
  W2_of_ne m c b fun w e => hb (Finset.mem_image.mpr ⟨w, Finset.mem_univ w, e⟩)
/-- The same of the second call. -/
theorem leaves1 (c : Dev nD) (w : Fin cfg1.W) : (dat1 (V3 m) c).arrAt w cfg1.N = V4 m c (Pipeline.arrRef spec1 w) :=
  (W4_arr m c w).symm
theorem keeps1 (c : Dev nD) (b : Ref sig .tc) (hb : b ∉ Finset.univ.image (Pipeline.arrRef spec1)) : V4 m c b = V3 m c b :=
  W4_of_ne m c b fun w e => hb (Finset.mem_image.mpr ⟨w, Finset.mem_univ w, e⟩)

/-! ## What a core holds between segments -/

/-- No core owes another anything: no pair has a level. -/
abbrev noPairs : GSem nD τ sig → Finset Unit := fun _ => ∅
abbrev level0 : GSem nD τ sig → Unit → ℕ := fun _ _ => 0

/-- Beside the buffers: the generator register at some state and the core's dues, none. -/
abbrev beside (c : Dev nD) : sProp 𝕄 :=
  iprop((∃ r, prngReg c r) ∗ ∃ W, owes (c : Thread nD τ) (0 : CellTallies nD τ sig Unit) W)

/-- The state at a boundary whose contents are W. -/
abbrev at_ (W : Dev nD → Valuation τ sig (Elt F)) (c : Dev nD) : sProp 𝕄 :=
  iprop(StableHlo.held (c : Thread nD τ) (Pipeline.ucRefs τ sig) (W c) ∗ beside (F := F) c)

/-- A stretch of host operations from the contents W: it touches unscoped buffers only and allocates none, so it
    runs over the held buffers to the operations' results, the rest riding along. -/
abbrev stretch (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ Variants.none noPairs level0 :=
  Pipeline.HostSeg.ofOps _ _ _ _ _ (Pipeline.ucRefs τ sig) ops
    (fun op h => Pipeline.sub_ucRefs op (List.forall_iff_forall_mem.mp hsub op h))
    (fun op h => List.forall_iff_forall_mem.mp hfresh op h) W (beside (F := F))

/-- An unscoped reference of the core is among the held ones. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The last state, the dues apart: every unscoped buffer at the last contents, the generator register at some state. -/
abbrev atEnd (c : Dev nD) : sProp 𝕄 :=
  iprop(StableHlo.held (c : Thread nD τ) (Pipeline.ucRefs τ sig) (W4 m c) ∗ ∃ r, prngReg c r)

/-! ## The two calls -/

set_option backward.isDefEq.respectTransparency.types false in
/-- THE FIRST CALL, entered at the contents after the first stretch and left at its exit contents.  Its invariant is
    entered through the plain one (hi0) and left through it (ho0); its body obligation is hb0. -/
def call0 (hb0 : ∀ (V : (c : Dev nD) → (b : Ref sig .tc) → Buf (Elt F) ((c : Thread nD τ).loc b)) (c : Dev nD), BodyObligation (dat0 (F := F) V c) (defs₀ (F := F)) Variants.none () Set.univ)
    (hi0 : ∀ (V : (c : Dev nD) → (b : Ref sig .tc) → Buf (Elt F) ((c : Thread nD τ).loc b)) (c : Dev nD), (Pipeline.ΦA spec0 c : sProp 𝕄) ⊢ (dat0 V c).Φ 0)
    (ho0 : ∀ (V : (c : Dev nD) → (b : Ref sig .tc) → Buf (Elt F) ((c : Thread nD τ).loc b)) (c : Dev nD), (dat0 V c).Φ (Fin.last cfg0.N) ⊢ (Pipeline.ΦA spec0 c : sProp 𝕄)) :
    Pipeline.RegionSeg (pcfgs (F := F)) adm (pdats m) () defs₀ Variants.none noPairs level0 0 where
  win := launch0.win.to₀
  block_pos := launch0.block_pos
  stage_whole := launch0.stage_whole
  K := PEmpty
  osem k := k.elim
  ho := Pipeline.OwnSemFacts.none _
  hbody c := (hb0 (V1 m) c).loose
  hwaits := Pipeline.hwaits_of_owed_zero _ _ _ _ noPairs level0 0 fun _ _ => rfl
  pre := at_ (W1 m)
  post := at_ (W2 m)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    have hout := Pipeline.arrays_of_unscopedBufs (p := 0) (pcfgs (F := F)) adm (pdats m) launch0.win launch0.arr_whole c
      ((pdats m 0 c).share_full fun _ => rfl) (V1 m c) fun _ => rfl
    rw [Pipeline.unscopedBufs_held] at hout
    rw [Pipeline.ownSems0_none]
    iintro ⟨⟨Hbufs, Hreg, Hdue⟩, -, -⟩
    ihave Hsplit := hout $$ Hbufs
    icases Hsplit with ⟨Harr, Hother⟩
    imodintro
    isplitl [Harr]; · iexact Harr
    isplitr
    · unfold Pipeline.prefHeld
      rw [show (Finset.univ : Finset (Fin 0)) = ∅ from rfl, BI.bigSep_empty]; iempintro
    isplitl [Hdue]
    · unfold Pipeline.Dat.owesAt Pipeline.owesWithin
      icases Hdue with ⟨%W, Hdue⟩
      iexists W; isplitr
      · ipureintro; exact fun _ _ => Or.inl trivial
      iexact Hdue
    isplitl [Hreg]; · iexact Hreg
    iexact Hother
  hin c := by
    refine BIBase.Entails.trans ?_ (hi0 (V1 m) c)
    unfold Pipeline.ΦA
    iintro ⟨Hreg, -, Hsc⟩
    isplitl [Hsc]; · iexact Hsc
    iexact Hreg
  hout c := by
    refine BIBase.Entails.trans (ho0 (V1 m) c) ?_
    rw [Pipeline.ownSems0_none]; unfold Pipeline.ΦA
    iintro ⟨Hsc, Hreg⟩
    isplitl [Hreg]; · iexact Hreg
    isplitr; · iempintro
    iexact Hsc
  hexit c := by
    have hback := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (leaves0 m c) (keeps0 m c)
    rw [Pipeline.unscopedBufs_held] at hback
    iintro ⟨Harr, Hdue, Hreg, Hother⟩
    imodintro
    isplitl [Harr Hother]
    · iapply hback; isplitl [Harr]; · iexact Harr
      iexact Hother
    isplitl [Hreg]; · iexact Hreg
    unfold Pipeline.Dat.owesAt Pipeline.owesWithin
    icases Hdue with ⟨%W, -, Hdue⟩
    iexists W; iexact Hdue

set_option backward.isDefEq.respectTransparency.types false in
/-- THE SECOND CALL, entered at the contents after the second stretch and left at the last contents.  Its invariant
    is the plain one: the scoped buffers it does not stage and the generator register, untouched. -/
def call1 : Pipeline.RegionSeg (pcfgs (F := F)) adm (pdats m) () defs₀ Variants.none noPairs level0 1 where
  win := launch1.win.to₀
  block_pos := launch1.block_pos
  stage_whole := launch1.stage_whole
  K := PEmpty
  osem k := k.elim
  ho := Pipeline.OwnSemFacts.none _
  hbody c := (body_obligation1 (V3 m) c).loose
  hwaits := Pipeline.hwaits_of_owed_zero _ _ _ _ noPairs level0 1 fun _ _ => rfl
  pre := at_ (W3 m)
  post c := iprop(atEnd m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    have hout := Pipeline.arrays_of_unscopedBufs (p := 1) (pcfgs (F := F)) adm (pdats m) launch1.win launch1.arr_whole c
      ((pdats m 1 c).share_full fun _ => rfl) (V3 m c) fun _ => rfl
    rw [Pipeline.unscopedBufs_held] at hout
    rw [Pipeline.ownSems0_none]
    iintro ⟨⟨Hbufs, Hreg, Hdue⟩, -, -⟩
    ihave Hsplit := hout $$ Hbufs
    icases Hsplit with ⟨Harr, Hother⟩
    imodintro
    isplitl [Harr]; · iexact Harr
    isplitr
    · unfold Pipeline.prefHeld
      rw [show (Finset.univ : Finset (Fin 0)) = ∅ from rfl, BI.bigSep_empty]; iempintro
    isplitl [Hdue]
    · unfold Pipeline.Dat.owesAt Pipeline.owesWithin
      icases Hdue with ⟨%W, Hdue⟩
      iexists W; isplitr
      · ipureintro; exact fun _ _ => Or.inl trivial
      iexact Hdue
    isplitl [Hreg]; · iexact Hreg
    iexact Hother
  hin c := by
    rw [show (pdats m 1 c).Φ 0 = Pipeline.ΦA spec1 c from rfl]; unfold Pipeline.ΦA
    iintro ⟨Hreg, -, Hsc⟩
    isplitl [Hsc]; · iexact Hsc
    iexact Hreg
  hout c := by
    rw [Pipeline.ownSems0_none, show (pdats m 1 c).Φ (Fin.last _) = Pipeline.ΦA spec1 c from rfl]; unfold Pipeline.ΦA
    iintro ⟨Hsc, Hreg⟩
    isplitl [Hreg]; · iexact Hreg
    isplitr; · iempintro
    iexact Hsc
  hexit c := by
    have hback := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V3 m c) (V4 m c) ((pdats m 1 c).arrAt · cfg1.N) (leaves1 m c) (keeps1 m c)
    rw [Pipeline.unscopedBufs_held] at hback
    iintro ⟨Harr, Hdue, Hreg, Hother⟩
    imodintro
    isplitr [Hdue]
    · isplitl [Harr Hother]
      · iapply hback; isplitl [Harr]; · iexact Harr
        iexact Hother
      iexact Hreg
    unfold Pipeline.Dat.owesAt Pipeline.owesWithin
    icases Hdue with ⟨%W, -, Hdue⟩
    iexists W; iexact Hdue

/-! ## The program as its segments, and the launch -/

/-- The four segments in the program's order. -/
abbrev parts (hb0 : ∀ (V : (c : Dev nD) → (b : Ref sig .tc) → Buf (Elt F) ((c : Thread nD τ).loc b)) (c : Dev nD), BodyObligation (dat0 (F := F) V c) (defs₀ (F := F)) Variants.none () Set.univ)
    (hi0 : ∀ (V : (c : Dev nD) → (b : Ref sig .tc) → Buf (Elt F) ((c : Thread nD τ).loc b)) (c : Dev nD), (Pipeline.ΦA spec0 c : sProp 𝕄) ⊢ (dat0 V c).Φ 0)
    (ho0 : ∀ (V : (c : Dev nD) → (b : Ref sig .tc) → Buf (Elt F) ((c : Thread nD τ).loc b)) (c : Dev nD), (dat0 V c).Φ (Fin.last cfg0.N) ⊢ (Pipeline.ΦA spec0 c : sProp 𝕄)) :
    List (Pipeline.Seg (pcfgs (F := F)) adm (pdats m) () defs₀ Variants.none noPairs level0) :=
  [ .host (stretch hostOps0 hostOps0_sub hostOps0_fresh (W0 m)),
    .region (call0 m hb0 hi0 ho0),
    .host (stretch hostOps1 hostOps1_sub hostOps1_fresh (W2 m)),
    .region (call1 m) ]

/-- The program is the run of its segments: it is the chain of their fragments, item by item. -/
theorem main_parts (hb0 : ∀ (V : (c : Dev nD) → (b : Ref sig .tc) → Buf (Elt F) ((c : Thread nD τ).loc b)) (c : Dev nD), BodyObligation (dat0 (F := F) V c) (defs₀ (F := F)) Variants.none () Set.univ)
    (hi0 : ∀ (V : (c : Dev nD) → (b : Ref sig .tc) → Buf (Elt F) ((c : Thread nD τ).loc b)) (c : Dev nD), (Pipeline.ΦA spec0 c : sProp 𝕄) ⊢ (dat0 V c).Φ 0)
    (ho0 : ∀ (V : (c : Dev nD) → (b : Ref sig .tc) → Buf (Elt F) ((c : Thread nD τ).loc b)) (c : Dev nD), (dat0 V c).Φ (Fin.last cfg0.N) ⊢ (Pipeline.ΦA spec0 c : sProp 𝕄)) (c : Dev nD) :
    main (F := F) c = Pipeline.Seg.run (parts m hb0 hi0 ho0) := (main_chain c).trans (by chain_rfl)

set_option backward.isDefEq.respectTransparency.types false in
/-- THE RUN.  From any memory with zero counters every weakly fair execution of the program terminates, and in every
    final memory every unscoped buffer of every core holds the last contents of the fold. -/
theorem run_all (hb0 : ∀ (V : (c : Dev nD) → (b : Ref sig .tc) → Buf (Elt F) ((c : Thread nD τ).loc b)) (c : Dev nD), BodyObligation (dat0 (F := F) V c) (defs₀ (F := F)) Variants.none () Set.univ)
    (hi0 : ∀ (V : (c : Dev nD) → (b : Ref sig .tc) → Buf (Elt F) ((c : Thread nD τ).loc b)) (c : Dev nD), (Pipeline.ΦA spec0 c : sProp 𝕄) ⊢ (dat0 V c).Φ 0)
    (ho0 : ∀ (V : (c : Dev nD) → (b : Ref sig .tc) → Buf (Elt F) ((c : Thread nD τ).loc b)) (c : Dev nD), (dat0 V c).Φ (Fin.last cfg0.N) ⊢ (Pipeline.ΦA spec0 c : sProp 𝕄)) (m : (ℓ : Loc nD τ sig) → Buf (Elt F) ℓ) (ρ : Dev nD → PrngReg) : θ_run defs (onTc (τ := τ) (main (F := F))) ⟨m, fun _ => 0, ρ⟩ (fun r => ∀ c : Dev nD, ∀ b ∈ Pipeline.ucRefs τ sig, r.2.mem (((c : Thread nD τ)).1, b) = W4 m c b) :=
  Pipeline.θ_run_regions_kit (pcfgs (F := F)) adm (pdats m) () cellOf_inj emb₁ defs₀ Variants.none noPairs level0 m ρ main
    (parts m hb0 hi0 ho0)
    (fun c Q => by rw [main_parts m hb0 hi0 ho0 c])
    (by simp only [parts, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := at_ (W0 m)) (Tₙ := atEnd m)
    (hch := ⟨fun _ => .rfl, fun _ => .rfl, fun _ => .rfl, fun _ => .rfl, fun _ => .rfl⟩)
    (hinit := by
      refine Pipeline.initEach noPairs level0 fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hbufs, -, Hdue, -, Hreg, -⟩, -⟩
      imodintro
      isplitl [Hbufs]; · iexact Hbufs
      isplitl [Hreg]; · iexists _; iexact Hreg
      iexists ∅; iexact Hdue)
    (QY := fun c s => ∀ b ∈ Pipeline.ucRefs τ sig, s.mem (((c : Thread nD τ)).1, b) = W4 m c b)
    (hfin := fun c s' => by
      iintro ⟨⟨Hbufs, -⟩, HSI⟩
      unfold StableHlo.held
      imodintro
      iapply (pointsTo_read_all (Pipeline.ucRefs τ sig) (fun b => (((c : Thread nD τ)).1, b)) (W4 m c) s')
      isplitl [Hbufs]; · iexact Hbufs
      iexact HSI)
    (hQ := fun s h => h)

end Cert.KernelIdeal.Hand

end
-- ==== Proof.RunArgs.lean ====
import proofs.«103844_j2207613190522_2_alg».proof.Proof.RunData
import proofs.«103844_j2207613190522_2_alg».proof.Proof.Gen.KernelIdeal.Regions
import Idealize.ShloMosaic.Lib.Pipeline.Value

/-!
# The arguments reach the end as launched

No host operation writes an argument array and no call changes one: a call reads the points and the features through
input windows, whose arrays it leaves as entered, and bypasses the kernel points, the widths and the feature weights.
So the contents at the last boundary, read at an argument, walk back to the launch memory.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- The first stretch leaves every buffer it does not write as launched. -/
theorem W1_of (c : Dev nD) (r : Ref sig .tc) (h : r ∉ hostOps0_W) : W1 m c r = W0 m c r :=
  StableHlo.after_of_writes_sub hostOps0 _ hostOps0_writes h

/-- The second stretch leaves every buffer it does not write as the first call left it. -/
theorem W3_of (c : Dev nD) (r : Ref sig .tc) (h : r ∉ hostOps1_W) : W3 m c r = W2 m c r :=
  StableHlo.after_of_writes_sub hostOps1 _ hostOps1_writes h

theorem W4_main_arg0 (c : Dev nD) : W4 m c (Proc.devRef .tc main_arg0) = m ((c : Thread nD τ).loc main_arg0) :=
  calc W4 m c (Proc.devRef .tc main_arg0)
    _ = W3 m c (Proc.devRef .tc main_arg0) := W4_of_ne m c main_arg0 (by decide)
    _ = W2 m c (Proc.devRef .tc main_arg0) := W3_of m c main_arg0 (by decide)
    _ = W1 m c (Proc.devRef .tc main_arg0) := (W2_arr m c 4).trans (((dat0 (V1 m) c).arrAt_in 4 rfl _).trans (A_eq0 (V1 m) c 4))
    _ = W0 m c (Proc.devRef .tc main_arg0) := W1_of m c main_arg0 (by decide)
    _ = m ((c : Thread nD τ).loc main_arg0) := rfl

theorem W3_main_arg1 (c : Dev nD) : W3 m c (Proc.devRef .tc main_arg1) = m ((c : Thread nD τ).loc main_arg1) :=
  calc W3 m c (Proc.devRef .tc main_arg1)
    _ = W2 m c (Proc.devRef .tc main_arg1) := W3_of m c main_arg1 (by decide)
    _ = W1 m c (Proc.devRef .tc main_arg1) := (W2_arr m c 5).trans (((dat0 (V1 m) c).arrAt_in 5 rfl _).trans (A_eq0 (V1 m) c 5))
    _ = W0 m c (Proc.devRef .tc main_arg1) := W1_of m c main_arg1 (by decide)
    _ = m ((c : Thread nD τ).loc main_arg1) := rfl

theorem W4_main_arg1 (c : Dev nD) : W4 m c (Proc.devRef .tc main_arg1) = m ((c : Thread nD τ).loc main_arg1) :=
  ((W4_arr m c 0).trans (((dat1 (V3 m) c).arrAt_in 0 rfl _).trans (A_eq1 (V3 m) c 0))).trans (W3_main_arg1 m c)

theorem W4_main_arg2 (c : Dev nD) : W4 m c (Proc.devRef .tc main_arg2) = m ((c : Thread nD τ).loc main_arg2) :=
  calc W4 m c (Proc.devRef .tc main_arg2)
    _ = W3 m c (Proc.devRef .tc main_arg2) := W4_of_ne m c main_arg2 (by decide)
    _ = W2 m c (Proc.devRef .tc main_arg2) := W3_of m c main_arg2 (by decide)
    _ = W1 m c (Proc.devRef .tc main_arg2) := W2_of_ne m c main_arg2 (by decide)
    _ = W0 m c (Proc.devRef .tc main_arg2) := W1_of m c main_arg2 (by decide)
    _ = m ((c : Thread nD τ).loc main_arg2) := rfl

theorem W4_main_arg3 (c : Dev nD) : W4 m c (Proc.devRef .tc main_arg3) = m ((c : Thread nD τ).loc main_arg3) :=
  calc W4 m c (Proc.devRef .tc main_arg3)
    _ = W3 m c (Proc.devRef .tc main_arg3) := W4_of_ne m c main_arg3 (by decide)
    _ = W2 m c (Proc.devRef .tc main_arg3) := W3_of m c main_arg3 (by decide)
    _ = W1 m c (Proc.devRef .tc main_arg3) := W2_of_ne m c main_arg3 (by decide)
    _ = W0 m c (Proc.devRef .tc main_arg3) := W1_of m c main_arg3 (by decide)
    _ = m ((c : Thread nD τ).loc main_arg3) := rfl

theorem W4_main_arg4 (c : Dev nD) : W4 m c (Proc.devRef .tc main_arg4) = m ((c : Thread nD τ).loc main_arg4) :=
  calc W4 m c (Proc.devRef .tc main_arg4)
    _ = W3 m c (Proc.devRef .tc main_arg4) := W4_of_ne m c main_arg4 (by decide)
    _ = W2 m c (Proc.devRef .tc main_arg4) := W3_of m c main_arg4 (by decide)
    _ = W1 m c (Proc.devRef .tc main_arg4) := W2_of_ne m c main_arg4 (by decide)
    _ = W0 m c (Proc.devRef .tc main_arg4) := W1_of m c main_arg4 (by decide)
    _ = m ((c : Thread nD τ).loc main_arg4) := rfl

/-- The result buffer at the end holds what the second call's write-backs leave. -/
theorem W4_main_v9 (c : Dev nD) : W4 m c (Proc.devRef .tc main_v9) = (dat1 (V3 m) c).arrAt 2 cfg1.N :=
  W4_arr m c 2

end Cert.KernelIdeal.Hand

end
-- ==== Proof.LibColDot.lean ====
/-
  A matrix product that contracts the FIRST axis of both operands, read at an index, on the extended reals.

  For dimension numbers that contract the left operand's first axis against the right operand's first — a [K, M]
  array against a [K, P] array, the product `lᵀ · r` — the product into a zero accumulator, read at row `p` and column
  `q`, is `Σ k, l (k, p) · r (k, q)` over the K contraction coordinates. The contraction's index set has one axis; the
  sum is re-indexed through that axis's coordinate. The two facts about the free axes (the left index's second
  coordinate is the output row, the right index's second coordinate the output column) are taken as hypotheses, since
  for given dimension numbers they hold by computation.
-/
import Idealize.ShloMosaic.PureOps.Ideal.Laws
import Idealize.ShloMosaic.Lib.ValueIdx

noncomputable section

open scoped BigOperators

namespace Cert.LibColDot

open Idealize.ShloMosaic Idealize.ShloMosaic.ValueIdx

/-- The product `lᵀ · r` into the zero accumulator at (p, q) is the sum over the contraction coordinate of the left
    operand at (k, p) times the right operand at (k, q). -/
theorem matmul_zero_apply {K M P : ℕ} {φ₁ φ₂ : FTy}
    (D : DotDims ⟨2, ![K, M]⟩ ⟨2, ![K, P]⟩ ⟨2, ![M, P]⟩)
    (hlc : D.lhsContracting = [0]) (hrc : D.rhsContracting = [0])
    (hl1 : ∀ (j : (⟨2, ![M, P]⟩ : Shape).Idx) (c : D.contr.Idx), (D.lhsIdx j c 1).val = (j 0).val)
    (hr1 : ∀ (j : (⟨2, ![M, P]⟩ : Shape).Idx) (c : D.contr.Idx), (D.rhsIdx j c 1).val = (j 1).val)
    (hrank : D.contr.rank = 1) (hsize : D.contr.size ⟨0, by omega⟩ = K)
    (prec : Option ContractPrecision)
    (l : FVec Ideal ⟨2, ![K, M]⟩ φ₁) (r : FVec Ideal ⟨2, ![K, P]⟩ φ₂) (p : Fin M) (q : Fin P) :
    FloatOps.matmul D prec l r (constant ⟨2, ![M, P]⟩ .f32 0x00000000#32) (ix2 p q)
      = ∑ k : Fin K, l (ix2 k p) * r (ix2 k q) := by
  rw [Ideal.matmul_constant_zero_apply, ← Equiv.sum_comp (contrEquiv1 D K hrank hsize).symm]
  refine Finset.sum_congr rfl fun k _ => ?_
  have hk := contrEquiv1_symm_val D K hrank hsize k
  have el : D.lhsIdx (ix2 p q) ((contrEquiv1 D K hrank hsize).symm k) = ix2 k p := funext fun a => Fin.ext (by
    match a with
    | ⟨0, _⟩ => exact (D.lhsIdx_val_of_single hlc _ _).trans hk
    | ⟨1, _⟩ => exact hl1 _ _)
  have er : D.rhsIdx (ix2 p q) ((contrEquiv1 D K hrank hsize).symm k) = ix2 k q := funext fun a => Fin.ext (by
    match a with
    | ⟨0, _⟩ => exact (D.rhsIdx_val_of_single hrc _ _).trans hk
    | ⟨1, _⟩ => exact hr1 _ _)
  rw [el, er]

end Cert.LibColDot

end
-- ==== Proof.Spec.lean ====
import Idealize.ShloMosaic.PureOps.Ideal
import Mathlib.Algebra.BigOperators.Fin

/-!
# The two programs' results as functions of the argument arrays

Points X : 262144 × 3, features Fm : 262144 × 16, kernel points Q : 85 × 3, widths oD : 85,
feature weights oF : 16, all extended reals.  Both programs compute a kernel-feature matrix
QF : 85 × 16, QF k f = oF f · Σ_r w(r,k) · Fm r f with the Gaussian-type weight
w(r,k) = exp(|X r − Q k|² / oD k²), and return the rows [Fm r, Fm r · QFᵀ, (Fm r · QFᵀ) · QF].

They differ in how QF is reached.  The reference takes the squared distance as Σ_d (X r d − Q k d)²
and scales one sum over all rows.  The kernel expands the square as |x|² + |q|² − 2 x·q, clamps it at
zero, adds up the rows in 2 × 32 consecutive blocks of 4096 (two halves, 32 steps each, every step adding
one block's partial sum to a running total that starts at zero), scales each half's total by oF f, and
adds the two halves.
-/

noncomputable section

namespace Cert.Spec

open Idealize.ShloMosaic
open scoped BigOperators

/-- The literal 2.0 of the expanded square, as the float pattern denotes it. -/
def two : EReal := Ideal.ofBits .f32 0x40000000#32

/-- The reference's weight: exp(Σ_d (X r d − Q k d)² / oD k²). -/
def wRef (X : Fin 262144 → Fin 3 → EReal) (Q : Fin 85 → Fin 3 → EReal) (oD : Fin 85 → EReal)
    (k : Fin 85) (r : Fin 262144) : EReal :=
  Ideal.exp (Ideal.div (∑ d : Fin 3, (X r d - Q k d) * (X r d - Q k d)) (oD k * oD k))

/-- The reference's kernel-feature matrix: one sum over all rows, scaled by oF f. -/
def qfRef (X : Fin 262144 → Fin 3 → EReal) (Fm : Fin 262144 → Fin 16 → EReal) (Q : Fin 85 → Fin 3 → EReal)
    (oD : Fin 85 → EReal) (oF : Fin 16 → EReal) (k : Fin 85) (f : Fin 16) : EReal :=
  oF f * ∑ r : Fin 262144, wRef X Q oD k r * Fm r f

/-- The kernel's weight: the square expanded, |x|² + |q|² − 2·(x·q), clamped at zero. -/
def wKer (X : Fin 262144 → Fin 3 → EReal) (Q : Fin 85 → Fin 3 → EReal) (oD : Fin 85 → EReal)
    (r : Fin 262144) (k : Fin 85) : EReal :=
  Ideal.exp (Ideal.div
    (max (((X r 0 * X r 0 + X r 1 * X r 1 + X r 2 * X r 2) + ∑ d : Fin 3, Q k d * Q k d)
        - two * (X r 0 * Q k 0 + X r 1 * Q k 1 + X r 2 * Q k 2)) 0)
    (oD k * oD k))

/-- Row y of the block that half c reads at step i (a row of the array for i < 32). -/
def row (c : Fin 2) (i : ℕ) (y : Fin 4096) : Fin 262144 :=
  ⟨((c.val * 32 + i) * 4096 + y.val) % 262144, Nat.mod_lt _ (by norm_num)⟩

/-- One step's partial sum: the block's rows' weights against their features. -/
def part (X : Fin 262144 → Fin 3 → EReal) (Fm : Fin 262144 → Fin 16 → EReal) (Q : Fin 85 → Fin 3 → EReal)
    (oD : Fin 85 → EReal) (c : Fin 2) (i : ℕ) (k : Fin 85) (f : Fin 16) : EReal :=
  ∑ y : Fin 4096, wKer X Q oD (row c i y) k * Fm (row c i y) f

/-- The running total of half c after step i: from zero, one partial sum added per step. -/
def total (X : Fin 262144 → Fin 3 → EReal) (Fm : Fin 262144 → Fin 16 → EReal) (Q : Fin 85 → Fin 3 → EReal)
    (oD : Fin 85 → EReal) (c : Fin 2) : ℕ → Fin 85 → Fin 16 → EReal
  | 0 => fun k f => 0 + part X Fm Q oD c 0 k f
  | n + 1 => fun k f => total X Fm Q oD c n k f + part X Fm Q oD c (n + 1) k f

/-- The kernel's kernel-feature matrix: each half's total after its 32 steps scaled by oF f, the halves added. -/
def qfKer (X : Fin 262144 → Fin 3 → EReal) (Fm : Fin 262144 → Fin 16 → EReal) (Q : Fin 85 → Fin 3 → EReal)
    (oD : Fin 85 → EReal) (oF : Fin 16 → EReal) (k : Fin 85) (f : Fin 16) : EReal :=
  ∑ c : Fin 2, total X Fm Q oD c 31 k f * oF f

/-- A result row from the features and a kernel-feature matrix: the features, their products with every row of
    QF, and those products against QF's columns. -/
def outOf (Fm : Fin 262144 → Fin 16 → EReal) (QF : Fin 85 → Fin 16 → EReal) (r : Fin 262144) (col : Fin 117) : EReal :=
  if h : col.val < 16 then Fm r ⟨col.val, h⟩
  else if h2 : col.val < 101 then ∑ f : Fin 16, Fm r f * QF ⟨col.val - 16, by omega⟩ f
  else ∑ k : Fin 85, (∑ f' : Fin 16, Fm r f' * QF k f') * QF k ⟨col.val - 101, by omega⟩

end Cert.Spec

end
-- ==== Proof.R0Val1.lean ====
import proofs.«103844_j2207613190522_2_alg».proof.Proof.Gen.KernelIdeal.Skeleton
import proofs.«103844_j2207613190522_2_alg».proof.Proof.LibColDot
import proofs.«103844_j2207613190522_2_alg».proof.Proof.Spec
import Idealize.ShloMosaic.Lib.ValueIdx
import Idealize.ShloMosaic.Lib.Pipeline.Value
import Idealize.ShloMosaic.Lib.ValueLayout

/-!
# The first kernel's four stored or carried values, read at an index on the extended reals

The zero block is 0 everywhere.  The weight of row y against kernel point k is the exponential of the expanded
square |x|² + |q|² − 2·x·q clamped at zero over the squared width.  The running total's update at (k, f) is the
previous total plus the sum over the block's rows y of weight (y, k) · feature (y, f): the product contracts the
rows.  The output block at (0, k, f) is the total at (k, f) times the feature weight f.
-/

noncomputable section

namespace Cert.KernelIdeal.Hand

open Cert.KernelIdeal Cert.KernelIdeal.Gen
open Idealize.ShloMosaic Idealize.ShloMosaic.ValueIdx
open scoped BigOperators

/-- Column d of a block of points, at row y. -/
theorem slice_col (x : S4096x3.Idx → EReal) (d : ℕ) (hd : d < 3) (h : S4096x3.Slices ![0, d] S4096x1) (y : Fin 4096) (u : Fin 1) :
    extractStridedSlice S4096x1 ![0, d] x h (ix2 y u) = x (ix2 y ⟨d, hd⟩) :=
  extractStridedSlice_apply _ x h _ (ix2 y ⟨d, hd⟩) fun a => by
    match a with
    | ⟨0, _⟩ => show y.val = 0 + y.val; omega
    | ⟨1, _⟩ => show d = d + u.val; omega

/-- Row d of the transposed kernel points, at column k. -/
theorem slice_row (x : S3x85.Idx → EReal) (d : ℕ) (hd : d < 3) (h : S3x85.Slices ![d, 0] S1x85) (u : Fin 1) (k : Fin 85) :
    extractStridedSlice S1x85 ![d, 0] x h (ix2 u k) = x (ix2 ⟨d, hd⟩ k) :=
  extractStridedSlice_apply _ x h _ (ix2 ⟨d, hd⟩ k) fun a => by
    match a with
    | ⟨0, _⟩ => show d = d + u.val; omega
    | ⟨1, _⟩ => show k.val = 0 + k.val; omega

/-- A column repeated along the kernel points. -/
theorem bcast_col (x : S4096x1.Idx → EReal) (h : S4096x1.Broadcasts S4096x85) (y : Fin 4096) (k : Fin 85) :
    broadcastTo S4096x85 x h (ix2 y k) = x (ix2 y 0) :=
  broadcastTo_apply x h _ (ix2 y 0) fun a => by
    match a with
    | ⟨0, _⟩ => rfl
    | ⟨1, _⟩ => rfl

/-- A row repeated along the block's rows. -/
theorem bcast_row (x : S1x85.Idx → EReal) (h : S1x85.Broadcasts S4096x85) (y : Fin 4096) (k : Fin 85) :
    broadcastTo S4096x85 x h (ix2 y k) = x (ix2 0 k) :=
  broadcastTo_apply x h _ (ix2 0 k) fun a => by
    match a with
    | ⟨0, _⟩ => rfl
    | ⟨1, _⟩ => rfl

/-- The feature weights' row repeated along the kernel points. -/
theorem bcast_row16 (x : S1x16.Idx → EReal) (h : S1x16.Broadcasts S85x16) (k : Fin 85) (f : Fin 16) :
    broadcastTo S85x16 x h (ix2 k f) = x (ix2 0 f) :=
  broadcastTo_apply x h _ (ix2 0 f) fun a => by
    match a with
    | ⟨0, _⟩ => rfl
    | ⟨1, _⟩ => rfl

/-- The zero block. -/
theorem zeroBlock_apply (j : S85x16.Idx) : (k0_pay3 (F := Ideal)) j = 0 := by
  unfold k0_pay3
  rw [shapeCast_self]
  exact Ideal.ofBits_zero_f32

/-- The weight of row y against kernel point k. -/
theorem weight_apply (v3 : Vec Ideal S4096x3 .f32) (v7 : Vec Ideal S3x85 .f32) (v28 v38 : Vec Ideal S1x85 .f32)
    (y : Fin 4096) (k : Fin 85) :
    k0_pay4 v3 v7 v28 v38 (ix2 y k)
      = Ideal.exp (Ideal.div
          (max (((v3 (ix2 y 0) * v3 (ix2 y 0) + v3 (ix2 y 1) * v3 (ix2 y 1) + v3 (ix2 y 2) * v3 (ix2 y 2)) + v28 (ix2 0 k))
              - Cert.Spec.two * (v3 (ix2 y 0) * v7 (ix2 0 k) + v3 (ix2 y 1) * v7 (ix2 1 k) + v3 (ix2 y 2) * v7 (ix2 2 k))) 0)
          (v38 (ix2 0 k))) := by
  unfold k0_pay4
  simp only [shapeCast_self]
  show Ideal.exp (Ideal.div (max ((_ + _) - _ * (_ + _)) _) _) = _
  simp only [bcast_col, bcast_row, mulf_apply, addf_apply, slice_col _ 0 (by decide), slice_col _ 1 (by decide),
    slice_col _ 2 (by decide), slice_row _ 0 (by decide), slice_row _ 1 (by decide), slice_row _ 2 (by decide)]
  rw [show (0 : EReal) = Ideal.ofBits .f32 0x00000000#32 from Ideal.ofBits_zero_f32.symm]
  rfl

/-- The running total's update: the previous total plus the block's rows' weights against their features. -/
theorem update_apply (v42 : FVec Ideal S4096x85 .f32) (v43 : Vec Ideal S4096x16 .f32) (v47 : Vec Ideal S85x16 .f32)
    (k : Fin 85) (f : Fin 16) :
    k0_pay1 v42 v43 v47 (ix2 k f) = v47 (ix2 k f) + ∑ y : Fin 4096, v42 (ix2 y k) * v43 (ix2 y f) := by
  unfold k0_pay1
  simp only [shapeCast_self]
  show v47 (ix2 k f) + _ = _
  congr 1
  refine (Cert.LibColDot.matmul_zero_apply (K := 4096) (M := 85) (P := 16) dot_S4096x85_S4096x16_S85x16_0_0_1_1_n_n rfl rfl
    (fun j c => ?_) (fun j c => ?_) rfl rfl none _ _ k f).trans ?_
  · unfold DotDims.lhsIdx
    rw [dif_neg (show ¬(1 : Fin S4096x85.rank) ∈ dot_S4096x85_S4096x16_S85x16_0_0_1_1_n_n.lhsBatch by decide),
      dif_pos (show (1 : Fin S4096x85.rank) ∈ dot_S4096x85_S4096x16_S85x16_0_0_1_1_n_n.lhsNonContracting by decide)]
    rfl
  · unfold DotDims.rhsIdx
    rw [dif_neg (show ¬(1 : Fin S4096x16.rank) ∈ dot_S4096x85_S4096x16_S85x16_0_0_1_1_n_n.rhsBatch by decide),
      dif_pos (show (1 : Fin S4096x16.rank) ∈ dot_S4096x85_S4096x16_S85x16_0_0_1_1_n_n.rhsNonContracting by decide)]
    rfl
  · rfl

/-- The output block: the total scaled by the feature weights' row. -/
theorem scaled_apply (v55 : Vec Ideal S85x16 .f32) (v56 : Vec Ideal S1x16 .f32) (u : Fin 1) (k : Fin 85) (f : Fin 16) :
    k0_pay2 v55 v56 (ix3 u k f) = v55 (ix2 k f) * v56 (ix2 0 f) := by
  unfold k0_pay2
  simp only [shapeCast_self]
  refine (shapeCast_apply _ shapeCasts_S85x16_S1x85x16 (ix3 u k f) (ix2 k f) ?_).trans ?_
  · rw [Shape.rowMajor_val_two, Shape.rowMajor_val_three]
    show k.val * 16 + f.val = (u.val * 85 + k.val) * 16 + f.val
    have hu : u.val = 0 := by have := u.isLt; omega
    rw [hu]; omega
  · show v55 (ix2 k f) * broadcastTo S85x16 _ broadcasts_S1x16_S85x16 (ix2 k f) = _
    rw [bcast_row16]

end Cert.KernelIdeal.Hand

end
-- ==== Proof.SpecG.lean ====
import proofs.«103844_j2207613190522_2_alg».proof.Proof.Spec

/-!
# The kernel's running total over what the first call is handed

The first call does not see the kernel points and widths themselves but three arrays the program prepares from
them: the kernel points transposed, their squared norms, and the squared widths.  The weight, a step's partial
sum and the running total are stated here over those three arrays; with the arrays at what the program computes
they are the specification's.
-/

noncomputable section

namespace Cert.Spec

open Idealize.ShloMosaic
open scoped BigOperators

/-- The weight from the transposed kernel points QT, their squared norms qn and the squared widths od2. -/
def wKerG (X : Fin 262144 → Fin 3 → EReal) (QT : Fin 3 → Fin 85 → EReal) (qn od2 : Fin 85 → EReal)
    (r : Fin 262144) (k : Fin 85) : EReal :=
  Ideal.exp (Ideal.div
    (max (((X r 0 * X r 0 + X r 1 * X r 1 + X r 2 * X r 2) + qn k)
        - two * (X r 0 * QT 0 k + X r 1 * QT 1 k + X r 2 * QT 2 k)) 0)
    (od2 k))

/-- One step's partial sum over those arrays. -/
def partG (X : Fin 262144 → Fin 3 → EReal) (Fm : Fin 262144 → Fin 16 → EReal) (QT : Fin 3 → Fin 85 → EReal)
    (qn od2 : Fin 85 → EReal) (c : Fin 2) (i : ℕ) (k : Fin 85) (f : Fin 16) : EReal :=
  ∑ y : Fin 4096, wKerG X QT qn od2 (row c i y) k * Fm (row c i y) f

/-- The running total over those arrays. -/
def totalG (X : Fin 262144 → Fin 3 → EReal) (Fm : Fin 262144 → Fin 16 → EReal) (QT : Fin 3 → Fin 85 → EReal)
    (qn od2 : Fin 85 → EReal) (c : Fin 2) : ℕ → Fin 85 → Fin 16 → EReal
  | 0 => fun k f => 0 + partG X Fm QT qn od2 c 0 k f
  | n + 1 => fun k f => totalG X Fm QT qn od2 c n k f + partG X Fm QT qn od2 c (n + 1) k f

/-- With the three arrays at what the program computes from the kernel points and widths, the running total is the
    specification's. -/
theorem totalG_eq (X : Fin 262144 → Fin 3 → EReal) (Fm : Fin 262144 → Fin 16 → EReal) (Q : Fin 85 → Fin 3 → EReal)
    (oD : Fin 85 → EReal) (c : Fin 2) (n : ℕ) :
    totalG X Fm (fun d k => Q k d) (fun k => ∑ d : Fin 3, Q k d * Q k d) (fun k => oD k * oD k) c n = total X Fm Q oD c n := by
  induction n with
  | zero => rfl
  | succ n ih =>
    funext k f
    show totalG X Fm _ _ _ c n k f + _ = total X Fm Q oD c n k f + _
    rw [ih]
    rfl

end Cert.Spec

end
-- ==== Proof.Args.lean ====
import Idealize.ShloMosaic.Lib.ValueIdx
import proofs.«103844_j2207613190522_2_alg».proof.Proof.Spec

/-!
# The argument arrays read at their coordinates, and the result array

An array of extents [n0, n1] is read as a function of a row and a column, a vector of extent [n] as a
function of its one coordinate; the result array of either program is the row function of the specification
read at an index's two coordinates.
-/

noncomputable section

namespace Cert.Spec

open Idealize.ShloMosaic Idealize.ShloMosaic.ValueIdx

/-- A rank-2 array as a function of its two coordinates. -/
def mat {n0 n1 : ℕ} (a : (⟨2, ![n0, n1]⟩ : Shape).Idx → EReal) : Fin n0 → Fin n1 → EReal := fun r d => a (ix2 r d)

/-- A rank-1 array as a function of its coordinate. -/
def vec {n : ℕ} (a : (⟨1, ![n]⟩ : Shape).Idx → EReal) : Fin n → EReal := fun k => a (ix1 k)

/-- The result array from the feature array and a kernel-feature matrix. -/
def result (QF : Fin 85 → Fin 16 → EReal) (a1 : (⟨2, ![262144, 16]⟩ : Shape).Idx → EReal) :
    (⟨2, ![262144, 117]⟩ : Shape).Idx → EReal :=
  fun j => outOf (mat a1) QF (j 0) (j 1)

/-- The kernel's result array, from the five argument arrays. -/
def resKer (a0 : (⟨2, ![262144, 3]⟩ : Shape).Idx → EReal) (a1 : (⟨2, ![262144, 16]⟩ : Shape).Idx → EReal)
    (a2 : (⟨2, ![85, 3]⟩ : Shape).Idx → EReal) (a3 : (⟨1, ![85]⟩ : Shape).Idx → EReal)
    (a4 : (⟨1, ![16]⟩ : Shape).Idx → EReal) : (⟨2, ![262144, 117]⟩ : Shape).Idx → EReal :=
  result (qfKer (mat a0) (mat a1) (mat a2) (vec a3) (vec a4)) a1

/-- The reference's result array, from the five argument arrays. -/
def resRef (a0 : (⟨2, ![262144, 3]⟩ : Shape).Idx → EReal) (a1 : (⟨2, ![262144, 16]⟩ : Shape).Idx → EReal)
    (a2 : (⟨2, ![85, 3]⟩ : Shape).Idx → EReal) (a3 : (⟨1, ![85]⟩ : Shape).Idx → EReal)
    (a4 : (⟨1, ![16]⟩ : Shape).Idx → EReal) : (⟨2, ![262144, 117]⟩ : Shape).Idx → EReal :=
  result (qfRef (mat a0) (mat a1) (mat a2) (vec a3) (vec a4)) a1

end Cert.Spec

end
-- ==== Proof.R0Val2.lean ====
import proofs.«103844_j2207613190522_2_alg».proof.Proof.R0Data
import proofs.«103844_j2207613190522_2_alg».proof.Proof.R0Val1
import proofs.«103844_j2207613190522_2_alg».proof.Proof.SpecG
import proofs.«103844_j2207613190522_2_alg».proof.Proof.Args
import Idealize.ShloMosaic.Lib.Pipeline.Value

/-!
# The first call's blocks and running total, read at an index

Row y of the block of points (or of features) that point t reads is row 4096·t + y of the array; the transposed
kernel points, their squared norms, the squared widths and the feature weights' row are read whole at every point.
So one step's contracted sum is the specification's partial sum of half t / 32 at step t % 32, and the running
total after point t is the specification's running total there — by induction on the point.
-/

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat)
open Cert.Spec
open scoped BigOperators

variable (V : (c : Dev nD) → (b : Ref sig .tc) → Buf (Elt Ideal) ((c : Thread nD τ).loc b)) (c : Dev nD)

/-- The points, the features, the transposed kernel points, their squared norms, the squared widths and the feature
    weights as the first call finds them, read at their coordinates. -/
abbrev Xa : Fin 262144 → Fin 3 → EReal := mat (V c main_arg0 : S262144x3.Idx → EReal)
abbrev Fa : Fin 262144 → Fin 16 → EReal := mat (V c main_arg1 : S262144x16.Idx → EReal)
abbrev QTa : Fin 3 → Fin 85 → EReal := mat (V c main_v0 : S3x85.Idx → EReal)
abbrev qna : Fin 85 → EReal := fun k => (V c main_v3 : S1x85.Idx → EReal) (ix2 0 k)
abbrev od2a : Fin 85 → EReal := fun k => (V c main_v5 : S1x85.Idx → EReal) (ix2 0 k)
abbrev oFa : Fin 16 → EReal := fun f => (V c main_v6 : S1x16.Idx → EReal) (ix2 0 f)

/-- The array's row that row y of point t's block is. -/
def rowT (t : Fin cfg0.N) (y : Fin 4096) : Fin 262144 :=
  ⟨4096 * t.val + y.val, by have := t.isLt; have h : cfg0.N = 64 := N_0; have := y.isLt; omega⟩

/-- The printed index maps over the grid: the blocks of points and of features move with the point, the four small
    windows stay at the origin. -/
theorem idx_facts0 : ∀ t : Fin cfg0.N,
    win0_4.index t (0 : Fin 2) = t.val ∧ win0_4.index t (1 : Fin 2) = 0
    ∧ win0_5.index t (0 : Fin 2) = t.val ∧ win0_5.index t (1 : Fin 2) = 0
    ∧ win0_0.index t (0 : Fin 2) = 0 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0 :=
  (by decide +kernel : ∀ t : Fin grid0.N, _)

theorem blk4_apply (t : Fin cfg0.N) (y : Fin 4096) (d : Fin 3) :
    (iblk0 V c 4 t : S4096x3.Idx → EReal) (ix2 y d) = Xa V c (rowT t y) d := by
  obtain ⟨e0, e1, -⟩ := idx_facts0 t
  unfold iblk0
  rw [View.read_apply]
  show V c main_arg0 _ = V c main_arg0 _
  congr 1
  funext a; apply Fin.ext
  match a with
  | ⟨0, _⟩ => show win0_4.index t (0 : Fin 2) * 4096 + 1 * y.val = 4096 * t.val + y.val; rw [e0]; omega
  | ⟨1, _⟩ => show win0_4.index t (1 : Fin 2) * 3 + 1 * d.val = d.val; rw [e1]; omega

theorem blk5_apply (t : Fin cfg0.N) (y : Fin 4096) (f : Fin 16) :
    (iblk0 V c 5 t : S4096x16.Idx → EReal) (ix2 y f) = Fa V c (rowT t y) f := by
  obtain ⟨-, -, e0, e1, -⟩ := idx_facts0 t
  unfold iblk0
  rw [View.read_apply]
  show V c main_arg1 _ = V c main_arg1 _
  congr 1
  funext a; apply Fin.ext
  match a with
  | ⟨0, _⟩ => show win0_5.index t (0 : Fin 2) * 4096 + 1 * y.val = 4096 * t.val + y.val; rw [e0]; omega
  | ⟨1, _⟩ => show win0_5.index t (1 : Fin 2) * 16 + 1 * f.val = f.val; rw [e1]; omega

theorem blk0_apply (t : Fin cfg0.N) (d : Fin 3) (k : Fin 85) :
    (iblk0 V c 0 t : S3x85.Idx → EReal) (ix2 d k) = QTa V c d k := by
  obtain ⟨-, -, -, -, e0, e1, -⟩ := idx_facts0 t
  unfold iblk0
  rw [View.read_apply]
  show V c main_v0 _ = V c main_v0 _
  congr 1
  funext a; apply Fin.ext
  match a with
  | ⟨0, _⟩ => show win0_0.index t (0 : Fin 2) * 3 + 1 * d.val = d.val; rw [e0]; omega
  | ⟨1, _⟩ => show win0_0.index t (1 : Fin 2) * 85 + 1 * k.val = k.val; rw [e1]; omega

theorem blk1_apply (t : Fin cfg0.N) (k : Fin 85) :
    (iblk0 V c 1 t : S1x85.Idx → EReal) (ix2 0 k) = qna V c k := by
  obtain ⟨-, -, -, -, -, -, e0, e1, -⟩ := idx_facts0 t
  unfold iblk0
  rw [View.read_apply]
  show V c main_v3 _ = V c main_v3 _
  congr 1
  funext a; apply Fin.ext
  match a with
  | ⟨0, _⟩ => show win0_1.index t (0 : Fin 2) * 1 + 1 * 0 = 0; rw [e0]
  | ⟨1, _⟩ => show win0_1.index t (1 : Fin 2) * 85 + 1 * k.val = k.val; rw [e1]; omega

theorem blk2_apply (t : Fin cfg0.N) (k : Fin 85) :
    (iblk0 V c 2 t : S1x85.Idx → EReal) (ix2 0 k) = od2a V c k := by
  obtain ⟨-, -, -, -, -, -, -, -, e0, e1, -⟩ := idx_facts0 t
  unfold iblk0
  rw [View.read_apply]
  show V c main_v5 _ = V c main_v5 _
  congr 1
  funext a; apply Fin.ext
  match a with
  | ⟨0, _⟩ => show win0_2.index t (0 : Fin 2) * 1 + 1 * 0 = 0; rw [e0]
  | ⟨1, _⟩ => show win0_2.index t (1 : Fin 2) * 85 + 1 * k.val = k.val; rw [e1]; omega

theorem blk3_apply (t : Fin cfg0.N) (f : Fin 16) :
    (iblk0 V c 3 t : S1x16.Idx → EReal) (ix2 0 f) = oFa V c f := by
  obtain ⟨-, -, -, -, -, -, -, -, -, -, e0, e1⟩ := idx_facts0 t
  unfold iblk0
  rw [View.read_apply]
  show V c main_v6 _ = V c main_v6 _
  congr 1
  funext a; apply Fin.ext
  match a with
  | ⟨0, _⟩ => show win0_3.index t (0 : Fin 2) * 1 + 1 * 0 = 0; rw [e0]
  | ⟨1, _⟩ => show win0_3.index t (1 : Fin 2) * 16 + 1 * f.val = f.val; rw [e1]; omega

/-- The weight of row y of point t's block against kernel point k. -/
theorem wts0_apply (t : Fin cfg0.N) (y : Fin 4096) (k : Fin 85) :
    wts0 V c t (ix2 y k) = wKerG (Xa V c) (QTa V c) (qna V c) (od2a V c) (rowT t y) k := by
  unfold wts0
  rw [weight_apply]
  rw [blk4_apply V c t y 0, blk4_apply V c t y 1, blk4_apply V c t y 2, blk0_apply V c t 0 k, blk0_apply V c t 1 k,
    blk0_apply V c t 2 k, blk1_apply V c t k, blk2_apply V c t k]
  rfl

/-- Point t = 32·h + i is step i of half h: its block's rows are the specification's. -/
theorem rowT_eq (t : Fin cfg0.N) (h : Fin 2) (i : ℕ) (ht : t.val = h.val * 32 + i) (hi : i < 32) (y : Fin 4096) :
    rowT t y = row h i y := by
  apply Fin.ext
  show 4096 * t.val + y.val = ((h.val * 32 + i) * 4096 + y.val) % 262144
  have := h.isLt; have := y.isLt
  rw [ht]; omega

/-- One step's contracted sum is the specification's partial sum. -/
theorem step_sum (t : Fin cfg0.N) (h : Fin 2) (i : ℕ) (ht : t.val = h.val * 32 + i) (hi : i < 32) (k : Fin 85) (f : Fin 16) :
    ∑ y : Fin 4096, wts0 V c t (ix2 y k) * (iblk0 V c 5 t : S4096x16.Idx → EReal) (ix2 y f)
      = partG (Xa V c) (Fa V c) (QTa V c) (qna V c) (od2a V c) h i k f := by
  unfold partG
  refine Finset.sum_congr rfl fun y _ => ?_
  rw [wts0_apply, blk5_apply, rowT_eq t h i ht hi y]

end Cert.KernelIdeal.Hand

end
-- ==== Proof.R0Val3.lean ====
import proofs.«103844_j2207613190522_2_alg».proof.Proof.R0Val2

/-!
# The first call's output array

By induction on the point, the running total after point 32·h + i is the specification's total of half h after
step i.  The output block a half's last step stores is that total scaled column by column by the feature weights;
it is written back at points 31 and 63, into rows 0 and 1 of the [2, 85, 16] output array, which they cover.
-/

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat)
open Cert.Spec
open scoped BigOperators

variable (V : (c : Dev nD) → (b : Ref sig .tc) → Buf (Elt Ideal) ((c : Thread nD τ).loc b)) (c : Dev nD)

/-- THE RUNNING TOTAL after point n = 32·h + i is the specification's total of half h after step i. -/
theorem acc0_apply : ∀ (n : ℕ) (hn : n < cfg0.N) (h : Fin 2) (i : ℕ), n = h.val * 32 + i → i < 32 → ∀ (k : Fin 85) (f : Fin 16),
    (acc0 V c n hn : S85x16.Idx → EReal) (ix2 k f) = totalG (Xa V c) (Fa V c) (QTa V c) (qna V c) (od2a V c) h i k f
  | 0, hn, h, i, hni, hi, k, f => by
    obtain rfl : i = 0 := by omega
    rw [show acc0 V c 0 hn = k0_pay1 (wts0 V c ⟨0, hn⟩) (iblk0 V c 5 ⟨0, hn⟩) (k0_pay3 (F := Ideal)) from rfl, update_apply,
      zeroBlock_apply, step_sum V c ⟨0, hn⟩ h 0 hni hi]
    rfl
  | n + 1, hn, h, i, hni, hi, k, f => by
    by_cases h0 : (n + 1) % 32 = 0
    · obtain rfl : i = 0 := by omega
      rw [show acc0 V c (n + 1) hn = k0_pay1 (wts0 V c ⟨n + 1, hn⟩) (iblk0 V c 5 ⟨n + 1, hn⟩) (k0_pay3 (F := Ideal)) from by
        rw [acc0]; exact if_pos h0]
      rw [update_apply, zeroBlock_apply, step_sum V c ⟨n + 1, hn⟩ h 0 hni hi]
      rfl
    · obtain ⟨i', rfl⟩ : ∃ i', i = i' + 1 := ⟨i - 1, by omega⟩
      rw [show acc0 V c (n + 1) hn = k0_pay1 (wts0 V c ⟨n + 1, hn⟩) (iblk0 V c 5 ⟨n + 1, hn⟩) (acc0 V c n (Nat.lt_of_succ_lt hn)) from by
        rw [acc0]; exact if_neg h0]
      rw [update_apply, acc0_apply n (Nat.lt_of_succ_lt hn) h i' (by omega) (by omega) k f, step_sum V c ⟨n + 1, hn⟩ h (i' + 1) hni hi]
      rfl

/-- The output block of point t = 32·h + i: the total scaled by the feature weights. -/
theorem out0_apply (t : Fin cfg0.N) (h : Fin 2) (i : ℕ) (ht : t.val = h.val * 32 + i) (hi : i < 32) (u : Fin 1) (k : Fin 85) (f : Fin 16) :
    (out0 V c t : S1x85x16.Idx → EReal) (ix3 u k f)
      = totalG (Xa V c) (Fa V c) (QTa V c) (qna V c) (od2a V c) h i k f * oFa V c f := by
  unfold out0
  rw [scaled_apply, acc0_apply V c t.val t.isLt h i ht hi k f, blk3_apply]

/-- What the first call's output array ends holding: row h the total of half h after its 32 steps, scaled. -/
def G0 : Buf (Elt Ideal) ((c : Thread nD τ).loc main_v7) :=
  fun j : S2x85x16.Idx => totalG (Xa V c) (Fa V c) (QTa V c) (qna V c) (od2a V c) (j 0) 31 (j 1) (j 2) * oFa V c (j 2)

/-- The output window's index map over the grid: the block row is the half. -/
theorem idx_facts6 : ∀ t : Fin cfg0.N,
    win0_6.index t (0 : Fin 3) = t.val / 32 ∧ win0_6.index t (1 : Fin 3) = 0 ∧ win0_6.index t (2 : Fin 3) = 0 :=
  (by decide +kernel : ∀ t : Fin grid0.N, _)

/-- A write-back (at a half's last step) writes the half's row of G0. -/
theorem flushed6_eq (t : Fin cfg0.N) (hf : (cfg0.win 6).flush t = true) :
    (dat0 V c).flushed 6 t = ((cfg0.win 6).blk t).view.read (Elt Ideal) (G0 V c) := by
  have hN : cfg0.N = 64 := N_0
  have h31 : t.val % 32 = 31 := (flush0_6 t).mp hf
  have htl := t.isLt
  obtain ⟨e0, e1, e2⟩ := idx_facts6 t
  show (cfg0.win 6).cut (grid0.coords t) ((dat0 V c).after 6 t) = _
  rw [after0_6]
  funext j
  obtain ⟨u, k, f, rfl⟩ : ∃ (u : Fin 1) (k : Fin 85) (f : Fin 16), j = ix3 u k f := ⟨j 0, j 1, j 2, eq_ix3 j⟩
  show (out0 V c t : S1x85x16.Idx → EReal) (ix3 u k f) = G0 V c (((cfg0.win 6).blk t).view.emb (ix3 u k f))
  have hemb : ((cfg0.win 6).blk t).view.emb (ix3 u k f) = ix3 (⟨t.val / 32, by omega⟩ : Fin 2) k f := by
    funext a; apply Fin.ext
    match a with
    | ⟨0, _⟩ => show win0_6.index t (0 : Fin 3) * 1 + 1 * u.val = t.val / 32; have := u.isLt; rw [e0]; omega
    | ⟨1, _⟩ => show win0_6.index t (1 : Fin 3) * 85 + 1 * k.val = k.val; rw [e1]; omega
    | ⟨2, _⟩ => show win0_6.index t (2 : Fin 3) * 16 + 1 * f.val = f.val; rw [e2]; omega
  rw [hemb, out0_apply V c t ⟨t.val / 32, by omega⟩ 31 (by show t.val = t.val / 32 * 32 + 31; omega) (by decide)]
  rfl

/-- The two write-backs cover the array: row h is written at point 32·h + 31. -/
theorem cover6 (i : S2x85x16.Idx) :
    ∃ t : Fin cfg0.N, (cfg0.win 6).flush t = true ∧ i ∈ ((cfg0.win 6).blk t).view.set := by
  have hN : cfg0.N = 64 := N_0
  have h0 : (i 0).val < 2 := (i 0).isLt
  have h1 : (i 1).val < 85 := (i 1).isLt
  have h2 : (i 2).val < 16 := (i 2).isLt
  have hlt : 32 * (i 0).val + 31 < cfg0.N := by omega
  obtain ⟨e0, e1, e2⟩ := idx_facts6 ⟨32 * (i 0).val + 31, hlt⟩
  refine ⟨⟨32 * (i 0).val + 31, hlt⟩, (flush0_6 _).mpr (by show (32 * (i 0).val + 31) % 32 = 31; omega), ?_⟩
  show i ∈ ((View.whole main_v7).slice (win0_6.rect ⟨32 * (i 0).val + 31, hlt⟩)).set
  rw [View.set_slice_whole, Rect.mem_set_unit]
  intro a
  match a with
  | ⟨0, _⟩ =>
    show win0_6.index ⟨32 * (i 0).val + 31, hlt⟩ (0 : Fin 3) * 1 ≤ (i 0).val ∧ (i 0).val < win0_6.index ⟨32 * (i 0).val + 31, hlt⟩ (0 : Fin 3) * 1 + 1
    rw [e0]; dsimp only; omega
  | ⟨1, _⟩ =>
    show win0_6.index ⟨32 * (i 0).val + 31, hlt⟩ (1 : Fin 3) * 85 ≤ (i 1).val ∧ (i 1).val < win0_6.index ⟨32 * (i 0).val + 31, hlt⟩ (1 : Fin 3) * 85 + 85
    rw [e1]; omega
  | ⟨2, _⟩ =>
    show win0_6.index ⟨32 * (i 0).val + 31, hlt⟩ (2 : Fin 3) * 16 ≤ (i 2).val ∧ (i 2).val < win0_6.index ⟨32 * (i 0).val + 31, hlt⟩ (2 : Fin 3) * 16 + 16
    rw [e2]; omega

/-- THE FIRST CALL'S OUTPUT ARRAY after the call. -/
theorem arr0_eq : (dat0 V c).arrAt 6 cfg0.N = G0 V c :=
  (dat0 V c).arrAt_eq_of_cover 6 (G0 V c) (flushed6_eq V c) cover6

end Cert.KernelIdeal.Hand

end
-- ==== Proof.LibRowDot.lean ====
/-
  A matrix product that contracts the LAST axis of both operands, read at an index over the extended reals.

  For an [M, K] left operand and a [P, K] right operand (the shape of `x · Wᵀ` with `W` stored row-major by output
  feature), the product into a zero accumulator, read at `(p, q)`, is `Σ_k l(p, k) · r(q, k)`: the inner product of
  row `p` of the left operand with row `q` of the right one. The same holds of the host's general dot with no
  batch axis. The four facts about the dimension record that say which operand axis each result axis and the
  contraction position feed are hypotheses: a program proves them of its own record by unfolding.
-/
import Idealize.ShloMosaic.Lib.ValueIdx
import Idealize.ShloMosaic.PureOps.Ideal.Laws

noncomputable section

namespace Cert.LibRowDot

open Idealize.ShloMosaic Idealize.ShloMosaic.ValueIdx
open scoped BigOperators

variable {M K P : Nat} {φ₁ φ₂ : FTy}

/-- Both operand indices at result index `(p, q)` and contraction position `k`: `(p, k)` on the left, `(q, k)` on the
    right. -/
theorem operand_indices (D : DotDims ⟨2, ![M, K]⟩ ⟨2, ![P, K]⟩ ⟨2, ![M, P]⟩)
    (hr : D.contr.rank = 1) (hs : D.contr.size ⟨0, by omega⟩ = K)
    (hl0 : ∀ (j : (⟨2, ![M, P]⟩ : Shape).Idx) (c : D.contr.Idx), (D.lhsIdx j c 0).val = (j 0).val)
    (hl1 : ∀ (j : (⟨2, ![M, P]⟩ : Shape).Idx) (c : D.contr.Idx), (D.lhsIdx j c 1).val = (c ⟨0, by omega⟩).val)
    (hr0 : ∀ (j : (⟨2, ![M, P]⟩ : Shape).Idx) (c : D.contr.Idx), (D.rhsIdx j c 0).val = (j 1).val)
    (hr1 : ∀ (j : (⟨2, ![M, P]⟩ : Shape).Idx) (c : D.contr.Idx), (D.rhsIdx j c 1).val = (c ⟨0, by omega⟩).val)
    (p : Fin M) (q : Fin P) (k : Fin K) :
    D.lhsIdx (ix2 p q) ((contrEquiv1 D K hr hs).symm k) = ix2 p k
      ∧ D.rhsIdx (ix2 p q) ((contrEquiv1 D K hr hs).symm k) = ix2 q k := by
  have hk := contrEquiv1_symm_val D K hr hs k
  refine ⟨funext fun a => Fin.ext ?_, funext fun a => Fin.ext ?_⟩
  · match a with
    | ⟨0, _⟩ => exact hl0 _ _
    | ⟨1, _⟩ => exact (hl1 _ _).trans hk
  · match a with
    | ⟨0, _⟩ => exact hr0 _ _
    | ⟨1, _⟩ => exact (hr1 _ _).trans hk

/-- The kernel's matrix product into a zero accumulator, at `(p, q)`: `Σ_k l(p, k) · r(q, k)`. -/
theorem matmul_zero_apply (D : DotDims ⟨2, ![M, K]⟩ ⟨2, ![P, K]⟩ ⟨2, ![M, P]⟩)
    (hr : D.contr.rank = 1) (hs : D.contr.size ⟨0, by omega⟩ = K)
    (hl0 : ∀ (j : (⟨2, ![M, P]⟩ : Shape).Idx) (c : D.contr.Idx), (D.lhsIdx j c 0).val = (j 0).val)
    (hl1 : ∀ (j : (⟨2, ![M, P]⟩ : Shape).Idx) (c : D.contr.Idx), (D.lhsIdx j c 1).val = (c ⟨0, by omega⟩).val)
    (hr0 : ∀ (j : (⟨2, ![M, P]⟩ : Shape).Idx) (c : D.contr.Idx), (D.rhsIdx j c 0).val = (j 1).val)
    (hr1 : ∀ (j : (⟨2, ![M, P]⟩ : Shape).Idx) (c : D.contr.Idx), (D.rhsIdx j c 1).val = (c ⟨0, by omega⟩).val)
    (prec : Option ContractPrecision) (lhs : FVec Ideal ⟨2, ![M, K]⟩ φ₁) (rhs : FVec Ideal ⟨2, ![P, K]⟩ φ₂) (p : Fin M) (q : Fin P) :
    FloatOps.matmul D prec lhs rhs (constant (F := Ideal) ⟨2, ![M, P]⟩ .f32 0x00000000#32) (ix2 p q)
      = ∑ k : Fin K, lhs (ix2 p k) * rhs (ix2 q k) := by
  refine (Ideal.matmul_constant_zero_apply D prec lhs rhs (ix2 p q)).trans ?_
  rw [← Equiv.sum_comp (contrEquiv1 D K hr hs).symm]
  refine Finset.sum_congr rfl fun k _ => ?_
  obtain ⟨el, er⟩ := operand_indices D hr hs hl0 hl1 hr0 hr1 p q k
  rw [el, er]

/-- The host's general dot with the same dimension record, at `(p, q)`: the same sum. -/
theorem dotGeneral_apply (D : DotDims ⟨2, ![M, K]⟩ ⟨2, ![P, K]⟩ ⟨2, ![M, P]⟩)
    (hr : D.contr.rank = 1) (hs : D.contr.size ⟨0, by omega⟩ = K)
    (hl0 : ∀ (j : (⟨2, ![M, P]⟩ : Shape).Idx) (c : D.contr.Idx), (D.lhsIdx j c 0).val = (j 0).val)
    (hl1 : ∀ (j : (⟨2, ![M, P]⟩ : Shape).Idx) (c : D.contr.Idx), (D.lhsIdx j c 1).val = (c ⟨0, by omega⟩).val)
    (hr0 : ∀ (j : (⟨2, ![M, P]⟩ : Shape).Idx) (c : D.contr.Idx), (D.rhsIdx j c 0).val = (j 1).val)
    (hr1 : ∀ (j : (⟨2, ![M, P]⟩ : Shape).Idx) (c : D.contr.Idx), (D.rhsIdx j c 1).val = (c ⟨0, by omega⟩).val)
    (prec : Option ContractPrecision) (sched : HostSchedule) (lhs : FVec Ideal ⟨2, ![M, K]⟩ φ₁) (rhs : FVec Ideal ⟨2, ![P, K]⟩ φ₂)
    (p : Fin M) (q : Fin P) :
    FloatOps.dotGeneral D prec sched lhs rhs (ix2 p q) = ∑ k : Fin K, lhs (ix2 p k) * rhs (ix2 q k) := by
  refine (Ideal.dotGeneral_apply D prec sched lhs rhs (ix2 p q)).trans ?_
  rw [← Equiv.sum_comp (contrEquiv1 D K hr hs).symm]
  refine Finset.sum_congr rfl fun k _ => ?_
  obtain ⟨el, er⟩ := operand_indices D hr hs hl0 hl1 hr0 hr1 p q k
  rw [el, er]

end Cert.LibRowDot

end
-- ==== Proof.LibPlainDot.lean ====
/-
  A plain matrix product read at an index, on the extended reals.

  For dimension numbers that contract the left operand's second axis against the right operand's first — an
  [M, K] array times a [K, P] array — the product into a zero accumulator, read at row `p` and column `q`, is
  `Σ k, l (p, k) · r (k, q)` over the K contraction coordinates. The contraction's index set has one axis; the sum is
  re-indexed through that axis's coordinate. The two facts about the free axes (the left index keeps the row, the right
  index keeps the column) are taken as hypotheses, since for given dimension numbers they hold by computation.
-/
import Idealize.ShloMosaic.PureOps.Ideal.Laws
import Idealize.ShloMosaic.Lib.ValueIdx

noncomputable section

open scoped BigOperators

namespace Cert.LibPlainDot

open Idealize.ShloMosaic Idealize.ShloMosaic.ValueIdx

/-- The matrix product into the zero accumulator at (p, q) is the sum over the contraction coordinate of the left
    operand at (p, k) times the right operand at (k, q). -/
theorem matmul_zero_apply {M K P : ℕ} {φ₁ φ₂ : FTy}
    (D : DotDims ⟨2, ![M, K]⟩ ⟨2, ![K, P]⟩ ⟨2, ![M, P]⟩)
    (hlc : D.lhsContracting = [1]) (hrc : D.rhsContracting = [0])
    (hl0 : ∀ (j : (⟨2, ![M, P]⟩ : Shape).Idx) (c : D.contr.Idx), (D.lhsIdx j c 0).val = (j 0).val)
    (hr1 : ∀ (j : (⟨2, ![M, P]⟩ : Shape).Idx) (c : D.contr.Idx), (D.rhsIdx j c 1).val = (j 1).val)
    (hrank : D.contr.rank = 1) (hsize : D.contr.size ⟨0, by omega⟩ = K)
    (prec : Option ContractPrecision)
    (l : FVec Ideal ⟨2, ![M, K]⟩ φ₁) (r : FVec Ideal ⟨2, ![K, P]⟩ φ₂) (p : Fin M) (q : Fin P) :
    FloatOps.matmul D prec l r (constant ⟨2, ![M, P]⟩ .f32 0x00000000#32) (ix2 p q)
      = ∑ k : Fin K, l (ix2 p k) * r (ix2 k q) := by
  rw [Ideal.matmul_constant_zero_apply, ← Equiv.sum_comp (contrEquiv1 D K hrank hsize).symm]
  refine Finset.sum_congr rfl fun k _ => ?_
  have hk := contrEquiv1_symm_val D K hrank hsize k
  have el : D.lhsIdx (ix2 p q) ((contrEquiv1 D K hrank hsize).symm k) = ix2 p k := funext fun a => Fin.ext (by
    match a with
    | ⟨0, _⟩ => exact hl0 _ _
    | ⟨1, _⟩ => exact (D.lhsIdx_val_of_single hlc _ _).trans hk)
  have er : D.rhsIdx (ix2 p q) ((contrEquiv1 D K hrank hsize).symm k) = ix2 k q := funext fun a => Fin.ext (by
    match a with
    | ⟨0, _⟩ => exact (D.rhsIdx_val_of_single hrc _ _).trans hk
    | ⟨1, _⟩ => exact hr1 _ _)
  rw [el, er]

end Cert.LibPlainDot

end
-- ==== Proof.R1Val1.lean ====
import proofs.«103844_j2207613190522_2_alg».proof.Proof.Gen.KernelIdeal.Skeleton
import proofs.«103844_j2207613190522_2_alg».proof.Proof.LibRowDot
import proofs.«103844_j2207613190522_2_alg».proof.Proof.LibPlainDot
import Idealize.ShloMosaic.Lib.Pipeline.Value
import Idealize.ShloMosaic.Lib.ValueIdx

/-!
# One stored block of result rows, entry by entry

The second call's body takes a block x of 4096 feature rows (16 columns) and the kernel-feature matrix q
(85 rows, 16 columns) and stores 4096 rows of 117 columns: columns 0–15 are the row of x itself, column 16 + k is
the inner product of the row of x with row k of q, and column 101 + g is the sum over k of that inner product times
q(k, g).  The two matrix products start from a zero accumulator and the changes of float format between them are
the identity on extended reals, so each entry is a plain finite sum.
-/

set_option maxRecDepth 16384

noncomputable section

namespace Cert.KernelIdeal.Hand

open Cert.KernelIdeal Cert.KernelIdeal.Gen
open Idealize.ShloMosaic Idealize.ShloMosaic.TcCoe Idealize.ShloMosaic.ValueIdx
open scoped BigOperators

/-- A result row from one row x of features and a kernel-feature matrix: x itself, its inner products with the
    matrix's rows, and those inner products against the matrix's columns, side by side. -/
def rowOut (x : Fin 16 → EReal) (QF : Fin 85 → Fin 16 → EReal) (col : Fin 117) : EReal :=
  if h : col.val < 16 then x ⟨col.val, h⟩
  else if h2 : col.val < 101 then ∑ f : Fin 16, x f * QF ⟨col.val - 16, by omega⟩ f
  else ∑ k : Fin 85, (∑ f' : Fin 16, x f' * QF k f') * QF k ⟨col.val - 101, by omega⟩

/-! ## The two products' operand indices -/

/-- In the first product (last axis against last axis) the left index keeps the result's row. -/
theorem rowDot_l0 (j : S4096x85.Idx) (c : dot_S4096x16_S85x16_S4096x85_1_1_0_0_n_n.contr.Idx) :
    (dot_S4096x16_S85x16_S4096x85_1_1_0_0_n_n.lhsIdx j c 0).val = (j 0).val := by
  unfold DotDims.lhsIdx
  rw [dif_neg (show ¬(0 : Fin S4096x16.rank) ∈ dot_S4096x16_S85x16_S4096x85_1_1_0_0_n_n.lhsBatch by decide), dif_pos (show (0 : Fin S4096x16.rank) ∈ dot_S4096x16_S85x16_S4096x85_1_1_0_0_n_n.lhsNonContracting by decide)]
  rfl

/-- Its left index's column is the contraction position. -/
theorem rowDot_l1 (j : S4096x85.Idx) (c : dot_S4096x16_S85x16_S4096x85_1_1_0_0_n_n.contr.Idx) :
    (dot_S4096x16_S85x16_S4096x85_1_1_0_0_n_n.lhsIdx j c 1).val = (c ⟨0, by decide⟩).val :=
  dot_S4096x16_S85x16_S4096x85_1_1_0_0_n_n.lhsIdx_val_of_single rfl j c

/-- Its right index's row is the result's column. -/
theorem rowDot_r0 (j : S4096x85.Idx) (c : dot_S4096x16_S85x16_S4096x85_1_1_0_0_n_n.contr.Idx) :
    (dot_S4096x16_S85x16_S4096x85_1_1_0_0_n_n.rhsIdx j c 0).val = (j 1).val := by
  unfold DotDims.rhsIdx
  rw [dif_neg (show ¬(0 : Fin S85x16.rank) ∈ dot_S4096x16_S85x16_S4096x85_1_1_0_0_n_n.rhsBatch by decide), dif_pos (show (0 : Fin S85x16.rank) ∈ dot_S4096x16_S85x16_S4096x85_1_1_0_0_n_n.rhsNonContracting by decide)]
  rfl

/-- Its right index's column is the contraction position. -/
theorem rowDot_r1 (j : S4096x85.Idx) (c : dot_S4096x16_S85x16_S4096x85_1_1_0_0_n_n.contr.Idx) :
    (dot_S4096x16_S85x16_S4096x85_1_1_0_0_n_n.rhsIdx j c 1).val = (c ⟨0, by decide⟩).val :=
  dot_S4096x16_S85x16_S4096x85_1_1_0_0_n_n.rhsIdx_val_of_single rfl j c

/-- In the second product (a plain one) the left index keeps the result's row. -/
theorem plainDot_l0 (j : S4096x16.Idx) (c : dot_S4096x85_S85x16_S4096x16_1_0_0_1_n_n.contr.Idx) :
    (dot_S4096x85_S85x16_S4096x16_1_0_0_1_n_n.lhsIdx j c 0).val = (j 0).val := by
  unfold DotDims.lhsIdx
  rw [dif_neg (show ¬(0 : Fin S4096x85.rank) ∈ dot_S4096x85_S85x16_S4096x16_1_0_0_1_n_n.lhsBatch by decide), dif_pos (show (0 : Fin S4096x85.rank) ∈ dot_S4096x85_S85x16_S4096x16_1_0_0_1_n_n.lhsNonContracting by decide)]
  rfl

/-- Its right index keeps the result's column. -/
theorem plainDot_r1 (j : S4096x16.Idx) (c : dot_S4096x85_S85x16_S4096x16_1_0_0_1_n_n.contr.Idx) :
    (dot_S4096x85_S85x16_S4096x16_1_0_0_1_n_n.rhsIdx j c 1).val = (j 1).val := by
  unfold DotDims.rhsIdx
  rw [dif_neg (show ¬(1 : Fin S85x16.rank) ∈ dot_S4096x85_S85x16_S4096x16_1_0_0_1_n_n.rhsBatch by decide), dif_pos (show (1 : Fin S85x16.rank) ∈ dot_S4096x85_S85x16_S4096x16_1_0_0_1_n_n.rhsNonContracting by decide)]
  rfl

/-! ## The two products at an index -/

/-- The first product at (y, k): the inner product of row y of the left operand with row k of the right one. -/
theorem rowDot_apply (l : FVec Ideal S4096x16 .bf16) (r : FVec Ideal S85x16 .bf16) (y : Fin 4096) (k : Fin 85) :
    matmul dot_S4096x16_S85x16_S4096x85_1_1_0_0_n_n none l r (constant (F := Ideal) S4096x85 .f32 0x00000000#32) (ix2 y k)
      = ∑ f : Fin 16, l (ix2 y f) * r (ix2 k f) :=
  Cert.LibRowDot.matmul_zero_apply dot_S4096x16_S85x16_S4096x85_1_1_0_0_n_n rfl rfl rowDot_l0 rowDot_l1 rowDot_r0 rowDot_r1 none l r y k

/-- The second product at (y, g): row y of the left operand against column g of the right one. -/
theorem plainDot_apply (l : FVec Ideal S4096x85 .bf16) (r : FVec Ideal S85x16 .bf16) (y : Fin 4096) (g : Fin 16) :
    matmul dot_S4096x85_S85x16_S4096x16_1_0_0_1_n_n none l r (constant (F := Ideal) S4096x16 .f32 0x00000000#32) (ix2 y g)
      = ∑ k : Fin 85, l (ix2 y k) * r (ix2 k g) :=
  Cert.LibPlainDot.matmul_zero_apply dot_S4096x85_S85x16_S4096x16_1_0_0_1_n_n rfl rfl plainDot_l0 plainDot_r1 rfl rfl none l r y g

/-! ## The three pieces side by side -/

/-- Three pieces of 16, 85 and 16 columns joined along the columns, read at (y, col): the piece whose span holds
    col, at col less the columns before it. -/
theorem sideBySide_apply {α : Type} (p0 : S4096x16.Idx → α) (p1 : S4096x85.Idx → α) (p2 : S4096x16.Idx → α) (y : Fin 4096) (col : Fin 117) :
    concatenate S4096x117 1 [⟨S4096x16, p0⟩, ⟨S4096x85, p1⟩, ⟨S4096x16, p2⟩] concatenates_S4096x16_S4096x85_S4096x16_S4096x117_d1 (ix2 y col)
      = if h : col.val < 16 then p0 (ix2 y ⟨col.val, h⟩)
        else if h2 : col.val < 101 then p1 (ix2 y ⟨col.val - 16, by omega⟩)
        else p2 (ix2 y ⟨col.val - 101, by omega⟩) := by
  have hc : col.val < 117 := col.isLt
  by_cases h : col.val < 16
  · rw [dif_pos h]
    refine concatenate_apply_piece (t := S4096x117) (1 : Fin 2) [⟨S4096x16, p0⟩, ⟨S4096x85, p1⟩, ⟨S4096x16, p2⟩] concatenates_S4096x16_S4096x85_S4096x16_S4096x117_d1 (ix2 y col) 0 (by simp) S4096x16 p0 rfl rfl 0 rfl (ix2 y ⟨col.val, h⟩) ?_ ?_
    · intro b hb
      match b with
      | ⟨0, _⟩ => rfl
      | ⟨1, _⟩ => exact absurd rfl hb
    · show 0 + col.val = col.val
      omega
  · rw [dif_neg h]
    by_cases h2 : col.val < 101
    · rw [dif_pos h2]
      refine concatenate_apply_piece (t := S4096x117) (1 : Fin 2) [⟨S4096x16, p0⟩, ⟨S4096x85, p1⟩, ⟨S4096x16, p2⟩] concatenates_S4096x16_S4096x85_S4096x16_S4096x117_d1 (ix2 y col) 1 (by simp) S4096x85 p1 rfl rfl 16 rfl (ix2 y ⟨col.val - 16, by omega⟩) ?_ ?_
      · intro b hb
        match b with
        | ⟨0, _⟩ => rfl
        | ⟨1, _⟩ => exact absurd rfl hb
      · show 16 + (col.val - 16) = col.val
        omega
    · rw [dif_neg h2]
      refine concatenate_apply_piece (t := S4096x117) (1 : Fin 2) [⟨S4096x16, p0⟩, ⟨S4096x85, p1⟩, ⟨S4096x16, p2⟩] concatenates_S4096x16_S4096x85_S4096x16_S4096x117_d1 (ix2 y col) 2 (by simp) S4096x16 p2 rfl rfl 101 rfl (ix2 y ⟨col.val - 101, by omega⟩) ?_ ?_
      · intro b hb
        match b with
        | ⟨0, _⟩ => rfl
        | ⟨1, _⟩ => exact absurd rfl hb
      · show 101 + (col.val - 101) = col.val
        omega

/-! ## The stored block -/

/-- The block the body stores, at row y and column col: the result row of row y of the feature block. -/
theorem pay1_apply (x0 : Vec Ideal S4096x16 .f32) (x1 : Vec Ideal S85x16 .f32) (y : Fin 4096) (col : Fin 117) :
    k1_pay1 (F := Ideal) x0 x1 (ix2 y col) = rowOut (fun f => x0 (ix2 y f)) (fun k f => x1 (ix2 k f)) col := by
  unfold k1_pay1 rowOut
  dsimp only
  refine (sideBySide_apply _ _ _ y col).trans ?_
  by_cases h : col.val < 16
  · rw [dif_pos h, dif_pos h]
  · rw [dif_neg h, dif_neg h]
    by_cases h2 : col.val < 101
    · rw [dif_pos h2, dif_pos h2]
      refine (rowDot_apply _ _ y _).trans ?_
      simp only [truncf_apply, shapeCast_self]
    · rw [dif_neg h2, dif_neg h2]
      refine (plainDot_apply _ _ y _).trans ?_
      refine Finset.sum_congr rfl fun k _ => ?_
      simp only [truncf_apply, shapeCast_self]
      rw [rowDot_apply]
      simp only [truncf_apply, shapeCast_self]

end Cert.KernelIdeal.Hand

end
-- ==== Proof.R1Val2.lean ====
import proofs.«103844_j2207613190522_2_alg».proof.Proof.R1Data
import proofs.«103844_j2207613190522_2_alg».proof.Proof.R1Val1
import proofs.«103844_j2207613190522_2_alg».proof.Proof.Args
import Idealize.ShloMosaic.Lib.Pipeline.Value

/-!
# What one point of the second call writes back

Point t of the 64 reads rows 4096·t … 4096·t + 4095 of the feature array and the whole kernel-feature matrix, and
its output block sits at the same rows of the result array.  So the block it stores, entry by entry, is the result
function of the two arrays read at those rows: entry (y, col) of the block is the result at (4096·t + y, col), which
depends on the features only through row 4096·t + y.
-/

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open scoped BigOperators

/-- The result row depends on the feature array only through its row r. -/
theorem outOf_eq_rowOut (Fm : Fin 262144 → Fin 16 → EReal) (QF : Fin 85 → Fin 16 → EReal) (r : Fin 262144) (col : Fin 117) :
    Cert.Spec.outOf Fm QF r col = rowOut (Fm r) QF col := rfl

/-- One entry of a stored block, for any blocks x0, x1 that are rows n·4096 … of a feature array a1 and the whole of a
    matrix q: the entry at block index jb is the result function at the array index i lying n·4096 rows further down. -/
theorem point_eq (a1 : S262144x16.Idx → EReal) (q : S85x16.Idx → EReal) (x0 : Vec Ideal S4096x16 .f32) (x1 : Vec Ideal S85x16 .f32)
    (jb : S4096x117.Idx) (i : S262144x117.Idx) (n : ℕ)
    (h0 : ∀ (y : S4096x16.Idx) (k : S262144x16.Idx), (k 0).val = n * 4096 + (y 0).val → (k 1).val = (y 1).val → x0 y = a1 k)
    (h1 : x1 = q)
    (hi0 : (i 0).val = n * 4096 + (jb 0).val) (hi1 : (i 1).val = (jb 1).val) :
    k1_pay1 (F := Ideal) x0 x1 jb = Cert.Spec.result (Cert.Spec.mat q) a1 i := by
  subst h1
  obtain ⟨y, col, rfl⟩ : ∃ (y : Fin 4096) (col : Fin 117), jb = ix2 y col := ⟨jb 0, jb 1, eq_ix2 jb⟩
  obtain ⟨r, col', rfl⟩ : ∃ (r : Fin 262144) (col' : Fin 117), i = ix2 r col' := ⟨i 0, i 1, eq_ix2 i⟩
  have hcol : col = col' := Fin.ext hi1.symm
  subst hcol
  have hx : (fun f : Fin 16 => x0 (ix2 y f)) = Cert.Spec.mat a1 r :=
    funext fun f => h0 (ix2 y f) (ix2 r f) hi0 rfl
  refine (pay1_apply x0 x1 y col).trans ?_
  show _ = Cert.Spec.outOf (Cert.Spec.mat a1) (Cert.Spec.mat x1) r col
  rw [outOf_eq_rowOut, hx]
  rfl

/-! ## The printed index maps over the grid -/

/-- The feature window's block index at point t is (t, 0). -/
theorem idx1_0 : ∀ t : Fin cfg1.N, win1_0.index t (0 : Fin 2) = t.val ∧ win1_0.index t (1 : Fin 2) = 0 :=
  (by decide +kernel : ∀ t : Fin grid1.N, win1_0.index t (0 : Fin 2) = t.val ∧ win1_0.index t (1 : Fin 2) = 0)

/-- The matrix window's block index is (0, 0) at every point. -/
theorem idx1_1 : ∀ t : Fin cfg1.N, win1_1.index t (0 : Fin 2) = 0 ∧ win1_1.index t (1 : Fin 2) = 0 :=
  (by decide +kernel : ∀ t : Fin grid1.N, win1_1.index t (0 : Fin 2) = 0 ∧ win1_1.index t (1 : Fin 2) = 0)

/-- The result window's block index at point t is (t, 0). -/
theorem idx1_2 : ∀ t : Fin cfg1.N, win1_2.index t (0 : Fin 2) = t.val ∧ win1_2.index t (1 : Fin 2) = 0 :=
  (by decide +kernel : ∀ t : Fin grid1.N, win1_2.index t (0 : Fin 2) = t.val ∧ win1_2.index t (1 : Fin 2) = 0)

/-! ## The input blocks as parts of their arrays -/

variable (V : (c : Dev nD) → (b : Ref sig .tc) → Buf (Elt Ideal) ((c : Thread nD τ).loc b))

/-- The feature block at point t is rows 4096·t … 4096·t + 4095 of the feature array. -/
theorem iblk1_0_apply (c : Dev nD) (t : Fin cfg1.N) (y : S4096x16.Idx) (k : S262144x16.Idx)
    (hk0 : (k 0).val = t.val * 4096 + (y 0).val) (hk1 : (k 1).val = (y 1).val) :
    (iblk1 (F := Ideal) V c 0 t : Vec Ideal S4096x16 .f32) y = (V c main_arg1 : S262144x16.Idx → EReal) k := by
  obtain ⟨e0, e1⟩ := idx1_0 t
  unfold iblk1
  rw [View.read_apply]
  show V c main_arg1 _ = V c main_arg1 _
  congr 1
  funext a
  apply Fin.ext
  match a with
  | ⟨0, _⟩ => show win1_0.index t (0 : Fin 2) * 4096 + 1 * (y 0).val = (k 0).val; rw [e0, hk0]; omega
  | ⟨1, _⟩ => show win1_0.index t (1 : Fin 2) * 16 + 1 * (y 1).val = (k 1).val; rw [e1, hk1]; omega

/-- The matrix block at every point is the whole kernel-feature matrix. -/
theorem iblk1_1_eq (c : Dev nD) (t : Fin cfg1.N) :
    (iblk1 (F := Ideal) V c 1 t : Vec Ideal S85x16 .f32) = (V c main_v8 : S85x16.Idx → EReal) := by
  obtain ⟨e0, e1⟩ := idx1_1 t
  funext y
  unfold iblk1
  rw [View.read_apply]
  show V c main_v8 _ = V c main_v8 y
  congr 1
  funext a
  apply Fin.ext
  match a with
  | ⟨0, _⟩ => show win1_1.index t (0 : Fin 2) * 85 + 1 * (y 0).val = (y 0).val; rw [e0]; omega
  | ⟨1, _⟩ => show win1_1.index t (1 : Fin 2) * 16 + 1 * (y 1).val = (y 1).val; rw [e1]; omega

/-! ## The block written back -/

/-- What point t writes back is block t of the result function of the kernel-feature matrix and the feature array as
    the call finds them. -/
theorem flushed1_eq (c : Dev nD) (t : Fin cfg1.N) :
    (dat1 (F := Ideal) V c).flushed 2 t = ((cfg1.win 2).blk t).view.read (Elt Ideal)
      (Cert.Spec.result (Cert.Spec.mat (V c main_v8 : S85x16.Idx → EReal)) (V c main_arg1 : S262144x16.Idx → EReal)) := by
  obtain ⟨e0, e1⟩ := idx1_2 t
  show (cfg1.win 2).cut (grid1.coords t) ((dat1 (F := Ideal) V c).after 2 t) = _
  rw [after1_2]
  unfold out1
  funext j
  show k1_pay1 (F := Ideal) (iblk1 V c 0 t) (iblk1 V c 1 t) ((cfg1.win 2).xinj (grid1.coords t) j)
    = Cert.Spec.result (Cert.Spec.mat (V c main_v8 : S85x16.Idx → EReal)) (V c main_arg1 : S262144x16.Idx → EReal) (((cfg1.win 2).blk t).view.emb j)
  refine point_eq (V c main_arg1) (V c main_v8) (iblk1 V c 0 t) (iblk1 V c 1 t) ((cfg1.win 2).xinj (grid1.coords t) j)
    (((cfg1.win 2).blk t).view.emb j) t.val (fun y k hk0 hk1 => iblk1_0_apply V c t y k hk0 hk1) (iblk1_1_eq V c t) ?_ ?_
  · show win1_2.index t (0 : Fin 2) * 4096 + 1 * (j 0).val = t.val * 4096 + (j 0).val
    rw [e0]; omega
  · show win1_2.index t (1 : Fin 2) * 117 + 1 * (j 1).val = (j 1).val
    rw [e1]; omega

end Cert.KernelIdeal.Hand

end
-- ==== Proof.R1Val3.lean ====
import proofs.«103844_j2207613190522_2_alg».proof.Proof.R1Val2

/-!
# The result array after the second call

Every point writes its block back, and the 64 blocks of 4096 rows tile the 262144 rows of the result array: row r lies
in the block of point r / 4096.  Each block written is that block of one function of the arrays the call finds — the
result rows of the feature array against the kernel-feature matrix — so the array ends holding that function.
-/

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open scoped BigOperators

/-- An index of the result array is in point t's block iff each coordinate is in the block's range on its axis. -/
theorem mem_blk1 (t : Fin cfg1.N) (i : S262144x117.Idx) :
    i ∈ ((cfg1.win 2).blk t).view.set ↔ ∀ a : Fin 2, win1_2.index t a * S4096x117.size a ≤ (i a).val ∧ (i a).val < win1_2.index t a * S4096x117.size a + S4096x117.size a := by
  show i ∈ ((View.whole main_v9).slice (win1_2.rect t)).set ↔ _
  rw [View.set_slice_whole, Rect.mem_set_unit]
  exact Iff.rfl

/-- Every index of the result array is in the block of a point that writes back: row r in that of point r / 4096. -/
theorem cover1 (i : S262144x117.Idx) :
    ∃ t : Fin cfg1.N, (cfg1.win 2).flush t = true ∧ i ∈ ((cfg1.win 2).blk t).view.set := by
  have hN : cfg1.N = 64 := N_1
  have hi0 : (i 0).val < 262144 := (i 0).isLt
  have hi1 : (i 1).val < 117 := (i 1).isLt
  have hlt : (i 0).val / 4096 < cfg1.N := by rw [hN]; omega
  obtain ⟨e0, e1⟩ := idx1_2 ⟨(i 0).val / 4096, hlt⟩
  refine ⟨⟨(i 0).val / 4096, hlt⟩, flush1_2 _, ?_⟩
  rw [mem_blk1]
  intro a
  match a with
  | ⟨0, _⟩ =>
    show win1_2.index ⟨(i 0).val / 4096, hlt⟩ (0 : Fin 2) * 4096 ≤ (i 0).val ∧ (i 0).val < win1_2.index ⟨(i 0).val / 4096, hlt⟩ (0 : Fin 2) * 4096 + 4096
    rw [e0]
    show (i 0).val / 4096 * 4096 ≤ (i 0).val ∧ (i 0).val < (i 0).val / 4096 * 4096 + 4096
    omega
  | ⟨1, _⟩ =>
    show win1_2.index ⟨(i 0).val / 4096, hlt⟩ (1 : Fin 2) * 117 ≤ (i 1).val ∧ (i 1).val < win1_2.index ⟨(i 0).val / 4096, hlt⟩ (1 : Fin 2) * 117 + 117
    rw [e1]
    omega

/-- After the second call the result array holds, row by row, the features, their products with the kernel-feature
    matrix's rows, and those products against its columns. -/
theorem arr1_eq (V : (c : Dev nD) → (b : Ref sig .tc) → Buf (Elt Ideal) ((c : Thread nD τ).loc b)) (c : Dev nD) :
    ((dat1 (F := Ideal) V c).arrAt 2 cfg1.N : S262144x117.Idx → EReal) = Cert.Spec.result (Cert.Spec.mat (V c main_v8 : S85x16.Idx → EReal)) (V c main_arg1 : S262144x16.Idx → EReal) :=
  (dat1 (F := Ideal) V c).arrAt_eq_of_cover 2
    (Cert.Spec.result (Cert.Spec.mat (V c main_v8 : S85x16.Idx → EReal)) (V c main_arg1 : S262144x16.Idx → EReal))
    (fun t _ => flushed1_eq V c t) cover1

end Cert.KernelIdeal.Hand

end
-- ==== Proof.KerValue.lean ====
import proofs.«103844_j2207613190522_2_alg».proof.Proof.RunArgs
import proofs.«103844_j2207613190522_2_alg».proof.Proof.R0Val3
import proofs.«103844_j2207613190522_2_alg».proof.Proof.R1Val3
import Idealize.ShloMosaic.Lib.StableHlo.Run
import Idealize.ShloMosaic.PureOps.Ideal.Laws

/-!
# The kernel's result array from the launch arguments

The first host stretch hands the first call the kernel points transposed, their squared norms (a sum from zero over
the three coordinates), the squared widths and the feature weights as a row; read at an index these are the
specification's ingredients, so the first call's output array holds, in row h, the specification's running total
of half h after its 32 steps, scaled by the feature weights.  The second stretch adds the two rows (a sum from zero
over the halves): the kernel's kernel-feature matrix.  The second call then leaves the result rows of the features
and that matrix: the specification's kernel-side result array.
-/

set_option maxRecDepth 16384

noncomputable section

namespace Cert.KernelIdeal.Hand

open Cert.KernelIdeal Cert.KernelIdeal.Gen
open Idealize.ShloMosaic Idealize.ShloMosaic.TcCoe Idealize.ShloMosaic.ValueIdx Idealize.ShloMosaic.StableHlo
open Idealize.SL.Sem
open Idealize.ShloMosaic.Pipeline (Dat)
open Cert.Spec
open scoped BigOperators

variable (m : (ℓ : Loc nD τ sig) → Buf (Elt Ideal) ℓ) (c : Dev nD)

theorem V1_v0 : @Eq (S3x85.Idx → EReal) (V1 m c main_v0)
    (transpose S3x85 [1, 0] (m ((c : Thread nD τ).loc main_arg2) : S85x3.Idx → EReal) transposes_S85x3_S3x85_1_0) := by
  dsimp only [V1, W1, hostOps0]; after_results; try rfl

theorem V1_v3 : @Eq (S1x85.Idx → EReal) (V1 m c main_v3)
    (shapeCast S1x85 (Host.reduceAdd (F := Ideal) (mulf (m ((c : Thread nD τ).loc main_arg2) : FVec Ideal S85x3 .f32) (m ((c : Thread nD τ).loc main_arg2) : FVec Ideal S85x3 .f32))
        (constant (F := Ideal) S_ .f32 0x00000000#32) reducesTo_S85x3_S85_d1 h_S_) shapeCasts_S85_S1x85) := by
  dsimp only [V1, W1, hostOps0]; after_results; try rfl

theorem V1_v5 : @Eq (S1x85.Idx → EReal) (V1 m c main_v5)
    (shapeCast S1x85 (mulf (F := Ideal) (m ((c : Thread nD τ).loc main_arg3) : FVec Ideal S85 .f32) (m ((c : Thread nD τ).loc main_arg3) : FVec Ideal S85 .f32) : FVec Ideal S85 .f32) shapeCasts_S85_S1x85) := by
  dsimp only [V1, W1, hostOps0]; after_results; try rfl

theorem V1_v6 : @Eq (S1x16.Idx → EReal) (V1 m c main_v6)
    (shapeCast S1x16 (m ((c : Thread nD τ).loc main_arg4) : S16.Idx → EReal) shapeCasts_S16_S1x16) := by
  dsimp only [V1, W1, hostOps0]; after_results; try rfl

/-- The five argument arrays at launch. -/
abbrev a0 : S262144x3.Idx → EReal := m ((c : Thread nD τ).loc main_arg0)
abbrev a1 : S262144x16.Idx → EReal := m ((c : Thread nD τ).loc main_arg1)
abbrev a2 : S85x3.Idx → EReal := m ((c : Thread nD τ).loc main_arg2)
abbrev a3 : S85.Idx → EReal := m ((c : Thread nD τ).loc main_arg3)
abbrev a4 : S16.Idx → EReal := m ((c : Thread nD τ).loc main_arg4)

theorem Xa_V1 : Xa (V1 m) c = mat (a0 m c) := by
  unfold Xa
  rw [show (V1 m c main_arg0 : S262144x3.Idx → EReal) = a0 m c from W1_of m c main_arg0 (by decide)]

theorem Fa_V1 : Fa (V1 m) c = mat (a1 m c) := by
  unfold Fa
  rw [show (V1 m c main_arg1 : S262144x16.Idx → EReal) = a1 m c from W1_of m c main_arg1 (by decide)]

theorem QTa_V1 : QTa (V1 m) c = fun d k => mat (a2 m c) k d := by
  funext d k
  show (V1 m c main_v0 : S3x85.Idx → EReal) (ix2 d k) = _
  rw [V1_v0]
  exact transpose_apply [1, 0] _ _ (ix2 d k) (ix2 k d) fun b => by match b with | ⟨0, _⟩ => rfl | ⟨1, _⟩ => rfl

theorem od2a_V1 : od2a (V1 m) c = fun k => vec (a3 m c) k * vec (a3 m c) k := by
  funext k
  show (V1 m c main_v5 : S1x85.Idx → EReal) (ix2 0 k) = _
  rw [V1_v5]
  refine (shapeCast_apply _ shapeCasts_S85_S1x85 (ix2 0 k) (ix1 k) ?_).trans rfl
  rw [Shape.rowMajor_val_one, Shape.rowMajor_val_two]
  show k.val = 0 * 85 + k.val
  omega

theorem oFa_V1 : oFa (V1 m) c = vec (a4 m c) := by
  funext f
  show (V1 m c main_v6 : S1x16.Idx → EReal) (ix2 0 f) = _
  rw [V1_v6]
  refine (shapeCast_apply _ shapeCasts_S16_S1x16 (ix2 0 f) (ix1 f) ?_).trans rfl
  rw [Shape.rowMajor_val_one, Shape.rowMajor_val_two]
  show f.val = 0 * 16 + f.val
  omega

theorem qna_V1 : qna (V1 m) c = fun k => ∑ d : Fin 3, mat (a2 m c) k d * mat (a2 m c) k d := by
  funext k
  show (V1 m c main_v3 : S1x85.Idx → EReal) (ix2 0 k) = _
  rw [V1_v3]
  refine (shapeCast_apply _ shapeCasts_S85_S1x85 (ix2 0 k) (ix1 k) ?_).trans ?_
  · rw [Shape.rowMajor_val_one, Shape.rowMajor_val_two]
    show k.val = 0 * 85 + k.val
    omega
  · simp only [Host.reduceAdd, Ideal.hostReduceAdd_def]
    rw [Ideal.hostReduceAdd_single reducesTo_S85x3_S85_d1 (by decide)]
    rw [show constant (F := Ideal) S_ .f32 0x00000000#32 (Shape.Idx.first h_S_) = 0 from Ideal.ofBits_zero_f32, zero_add]
    show @Eq EReal _ _
    refine Finset.sum_congr rfl fun d _ => ?_
    exact congrArg (fun j => a2 m c j * a2 m c j) (funext fun a => Fin.ext (by match a with | ⟨0, _⟩ => rfl | ⟨1, _⟩ => rfl))

/-- The first call's output array from the launch arguments: row h the specification's total of half h, scaled. -/
theorem G0_V1 (h : Fin 2) (k : Fin 85) (f : Fin 16) :
    (G0 (V1 m) c : S2x85x16.Idx → EReal) (ix3 h k f)
      = total (mat (a0 m c)) (mat (a1 m c)) (mat (a2 m c)) (vec (a3 m c)) h 31 k f * vec (a4 m c) f := by
  show totalG (Xa (V1 m) c) (Fa (V1 m) c) (QTa (V1 m) c) (qna (V1 m) c) (od2a (V1 m) c) h 31 k f * oFa (V1 m) c f = _
  rw [Xa_V1, Fa_V1, QTa_V1, qna_V1, od2a_V1, oFa_V1, totalG_eq]

/-- The second stretch adds the two halves' rows. -/
theorem V3_v8 : @Eq (S85x16.Idx → EReal) (V3 m c main_v8)
    (Host.reduceAdd (F := Ideal) (W2 m c (Proc.devRef .tc main_v7) : FVec Ideal S2x85x16 .f32)
      (constant (F := Ideal) S_ .f32 0x00000000#32) reducesTo_S2x85x16_S85x16_d0 h_S_) := by
  dsimp only [V3, W3, hostOps1]; after_results; try rfl

/-- So the second call finds the kernel's kernel-feature matrix. -/
theorem qf_V3 : mat (V3 m c main_v8 : S85x16.Idx → EReal)
    = qfKer (mat (a0 m c)) (mat (a1 m c)) (mat (a2 m c)) (vec (a3 m c)) (vec (a4 m c)) := by
  funext k f
  show (V3 m c main_v8 : S85x16.Idx → EReal) (ix2 k f) = _
  rw [V3_v8]
  simp only [Host.reduceAdd, Ideal.hostReduceAdd_def]
  rw [Ideal.hostReduceAdd_single reducesTo_S2x85x16_S85x16_d0 (by decide)]
  rw [show constant (F := Ideal) S_ .f32 0x00000000#32 (Shape.Idx.first h_S_) = 0 from Ideal.ofBits_zero_f32, zero_add]
  unfold qfKer
  show @Eq EReal _ _
  refine Finset.sum_congr rfl fun h _ => ?_
  rw [W2_arr m c 6, arr0_eq]
  refine Eq.trans (congrArg (G0 (V1 m) c) (funext fun a => Fin.ext (by match a with | ⟨0, _⟩ => rfl | ⟨1, _⟩ => rfl | ⟨2, _⟩ => rfl))) (G0_V1 m c h k f)

/-- THE KERNEL'S RESULT: the result buffer at the end holds the specification's kernel-side array of the launch arguments. -/
theorem W4_v9_eq : @Eq (S262144x117.Idx → EReal) (W4 m c (Proc.devRef .tc main_v9))
    (resKer (a0 m c) (a1 m c) (a2 m c) (a3 m c) (a4 m c)) := by
  rw [W4_main_v9, arr1_eq]
  unfold resKer
  rw [qf_V3, show (V3 m c main_arg1 : S262144x16.Idx → EReal) = a1 m c from W3_main_arg1 m c]

end Cert.KernelIdeal.Hand

end
-- ==== Proof.Bits.R0Data.lean ====
import proofs.«103844_j2207613190522_2_alg».proof.Proof.Gen.Kernel.Launch
import proofs.«103844_j2207613190522_2_alg».proof.Proof.Gen.Kernel.Skeleton
import proofs.«103844_j2207613190522_2_alg».proof.Proof.Gen.Kernel.Points
import Idealize.ShloMosaic.Lib.Pipeline.FrameBody
import Idealize.ShloMosaic.Lib.Ring
import Idealize.ShloMosaic.Lib.Tactic

/-!
# The first call's proof data: the running total it carries from point to point

The first call runs on a grid of 2 × 32 points, point t = 32·c + i being step i of half c.  At every point it
computes the weights of one block of 4096 rows from the point's blocks of the inputs, and adds their product
with the block's features to a running total kept in a scratch buffer; at a half's first step (i = 0) the total
starts again from zero, and at its last step (i = 31) the total, scaled column by column, is the half's output block.
Stated at a parameter V: the buffers' contents when the call is entered.
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The weights of the point's block of rows: from the block of points, the transposed kernel points, their squared
    norms and the squared widths. -/
def wts0 (c : Dev nD) (t : Fin cfg0.N) : FVec F S4096x85 .f32 :=
  k0_pay4 (iblk0 V c 4 t) (iblk0 V c 0 t) (iblk0 V c 1 t) (iblk0 V c 2 t)

/-- THE RUNNING TOTAL after point n: at a half's first step the step's product added to zero, afterwards added to
    what the point before left. -/
def acc0 (c : Dev nD) : (n : ℕ) → n < cfg0.N → Vec F S85x16 .f32
  | 0, hn => k0_pay1 (wts0 V c ⟨0, hn⟩) (iblk0 V c 5 ⟨0, hn⟩) (k0_pay3 (F := F))
  | n + 1, hn =>
    if (n + 1) % 32 = 0 then k0_pay1 (wts0 V c ⟨n + 1, hn⟩) (iblk0 V c 5 ⟨n + 1, hn⟩) (k0_pay3 (F := F))
    else k0_pay1 (wts0 V c ⟨n + 1, hn⟩) (iblk0 V c 5 ⟨n + 1, hn⟩) (acc0 c n (Nat.lt_of_succ_lt hn))

/-- The output block a point would store: the running total after it, scaled by the feature weights' row. (Stored,
    and written back, at a half's last step only; elsewhere nothing consults it.) -/
def out0 (c : Dev nD) (t : Fin cfg0.N) : Vec F S1x85x16 .f32 :=
  k0_pay2 (acc0 V c t.val t.isLt) (iblk0 V c 3 t)

/-- The scratch buffer that holds the running total, as the body is handed it. -/
abbrev scM0 : Memref sig .tc .vmem S85x16 .f32 := Memref.whole cc0_scratch0

/-- A scoped buffer whole at some contents. -/
abbrev heldAny (c : Dev nD) (b : Ref sig .tc) : sProp 𝕄 :=
  iprop(∃ f : Buf (Elt F) ((c : Thread nD τ).loc b), ((c : Thread nD τ).loc b) ↦{fullShare} f)

/-- The scoped buffers that are neither a staging buffer of this call nor its scratch (the second call's staging
    buffers), each at some contents: they ride along untouched. -/
def restOther0 (c : Dev nD) : sProp 𝕄 :=
  iprop(heldAny (F := F) c cc1_stg0_0 ∗ heldAny (F := F) c cc1_stg0_1 ∗ heldAny (F := F) c cc1_stg1_0 ∗ heldAny (F := F) c cc1_stg2_0 ∗ heldAny (F := F) c cc1_stg2_1)

/-- The call's invariant before position n: before the first point every scoped buffer the pipeline does not stage at
    some contents and the generator register at some state; afterwards the scratch at the running total the point
    before left, the other such buffers at some contents, the register at some state. -/
def PhiS0 (c : Dev nD) : (n : ℕ) → n ≤ cfg0.N → sProp 𝕄
  | 0, _ => Pipeline.ΦA spec0 c
  | n + 1, hn => iprop(owns (c : Thread nD τ) scM0 fullShare (acc0 V c n hn) ∗ restOther0 (F := F) c ∗ (∃ r, prngReg c r))

/-- The proof data of the first call on core c: the arrays as the call finds them; after the body at point t each
    input's buffer at its block, the output's at the scaled running total; the invariant PhiS0; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => out0 V c t
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = out0 V c t := by dsimp only [dat0]

end Cert.Kernel.Hand

end
-- ==== Proof.Bits.R0Base.lean ====
import proofs.«103844_j2207613190522_2_alg».proof.Proof.Bits.R0Data
import Idealize.ShloMosaic.Lib.Pipeline.Value

/-!
# The first call's body: what its three kinds of step share

A point t = 32·c + i of the 2 × 32 grid is step i of half c.  The body branches twice on the step: at i = 0 it
first overwrites the running total with zero, and at i = 31 it also stores the scaled total as the half's output
block.  Here: the two conditions in closed form over the grid's 64 points; where the output window is idle, live,
and not written back; each window's staging memref at a point; the call's entry invariant with the scratch
buffer singled out; each input window found at its block whether or not the point fetched it; a buffer read back after a store through
its whole rectangle; and the running total and the invariant unfolded at a point.
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The two conditions, in closed form -/

/-- "This is a half's first step", as the body computes it from the step coordinate. -/
abbrev atFirst (i : grid0.Coords) : Prop :=
  (Scalar.cmpi .ne (Scalar.extui (Scalar.cmpi .eq (BitVec.ofNat 32 (i 1).val) 0#32)) 0#32) = 1#1

/-- It holds exactly at the points 0 and 32. -/
theorem atFirst_iff : ∀ t : Fin cfg0.N, atFirst (grid0.coords t) ↔ t.val % 32 = 0 :=
  (by decide +kernel : ∀ t : Fin grid0.N, atFirst (grid0.coords t) ↔ t.val % 32 = 0)

/-- "This is a half's last step", as the body computes it from the step coordinate. -/
abbrev atLast (i : grid0.Coords) : Prop := k0_cond2 i = 1#1

/-- It holds exactly at the points 31 and 63. -/
theorem atLast_iff : ∀ t : Fin cfg0.N, atLast (grid0.coords t) ↔ t.val % 32 = 31 :=
  (by decide +kernel : ∀ t : Fin grid0.N, atLast (grid0.coords t) ↔ t.val % 32 = 31)

/-! ## Where the output window is idle -/

/-- Off a half's last step the body stores nothing into the output window: it is idle there, -/
theorem out_idle : ∀ t : Fin cfg0.N, ¬atLast (grid0.coords t) → cfg0.idle 6 (grid0.coords t) = true := by decide +kernel
/-- and its block is not written back there. -/
theorem out_kept : ∀ t : Fin cfg0.N, ¬atLast (grid0.coords t) → (cfg0.win 6).flush t = false := by decide +kernel
/-- At a half's last step the body stores the output block: the window is live. -/
theorem out_live : ∀ t : Fin cfg0.N, atLast (grid0.coords t) → cfg0.idle 6 (grid0.coords t) = false := by decide +kernel

/-! ## The staging memrefs at a point -/

/-- Each window's current staging memref at point t, spelt as the pipeline passes it to the body, and its wholeness. -/
abbrev sm0_0 (t : Fin cfg0.N) : Memref sig .tc .vmem S3x85 .f32 := win0_0.stage (cfg0.slots t 0)
abbrev sw0_0 (t : Fin cfg0.N) : (sm0_0 t).IsWhole := hstage0_0 ((cfg0.slots t 0).cast nbuf0_0)
abbrev sm0_1 (t : Fin cfg0.N) : Memref sig .tc .vmem S1x85 .f32 := win0_1.stage (cfg0.slots t 1)
abbrev sw0_1 (t : Fin cfg0.N) : (sm0_1 t).IsWhole := hstage0_1 ((cfg0.slots t 1).cast nbuf0_1)
abbrev sm0_2 (t : Fin cfg0.N) : Memref sig .tc .vmem S1x85 .f32 := win0_2.stage (cfg0.slots t 2)
abbrev sw0_2 (t : Fin cfg0.N) : (sm0_2 t).IsWhole := hstage0_2 ((cfg0.slots t 2).cast nbuf0_2)
abbrev sm0_3 (t : Fin cfg0.N) : Memref sig .tc .vmem S1x16 .f32 := win0_3.stage (cfg0.slots t 3)
abbrev sw0_3 (t : Fin cfg0.N) : (sm0_3 t).IsWhole := hstage0_3 ((cfg0.slots t 3).cast nbuf0_3)
abbrev sm0_4 (t : Fin cfg0.N) : Memref sig .tc .vmem S4096x3 .f32 := win0_4.stage (cfg0.slots t 4)
abbrev sw0_4 (t : Fin cfg0.N) : (sm0_4 t).IsWhole := hstage0_4 ((cfg0.slots t 4).cast nbuf0_4)
abbrev sm0_5 (t : Fin cfg0.N) : Memref sig .tc .vmem S4096x16 .f32 := win0_5.stage (cfg0.slots t 5)
abbrev sw0_5 (t : Fin cfg0.N) : (sm0_5 t).IsWhole := hstage0_5 ((cfg0.slots t 5).cast nbuf0_5)
abbrev sm0_6 (t : Fin cfg0.N) : Memref sig .tc .vmem S1x85x16 .f32 := win0_6.stage (cfg0.slots t 6)
abbrev sw0_6 (t : Fin cfg0.N) : (sm0_6 t).IsWhole := hstage0_6 ((cfg0.slots t 6).cast nbuf0_6)

/-! ## The entry invariant, with the scratch buffer singled out -/

/-- What the call is entered with: the scratch buffer whole at some contents, the second call's staging buffers at
    some contents, the generator register at some state. -/
theorem PhiA0_eq (c : Dev nD) :
    (Pipeline.ΦA spec0 c : sProp 𝕄)
      = iprop((∃ d, owns (c : Thread nD τ) scM0 fullShare d) ∗ restOther0 (F := F) c ∗ (∃ r, prngReg c r)) := by
  unfold Pipeline.ΦA; rw [scopedRest0_eq]; unfold restOther0
  simp only [scM0, owns_whole]
  exact BI.equiv_iff.mp ⟨Idealize.SL.BI.sep_assoc, Idealize.SL.BI.sep_assoc'⟩

/-! ## Each input window is found at its block -/

/-- An input window's current staging buffer holds the window's block at every point: fetched there, it is the block;
    not fetched, the block index has not moved since the point before, whose block the body left in place. -/
theorem found0_0 (c : Dev nD) (t : Fin cfg0.N) (d) : (dat0 V c).before 0 t d = iblk0 V c 0 t :=
  ((dat0 V c).before_in_eq_fetched 0 rfl (fun _ => rfl) (fun _ _ _ => rfl)
      (fun t => by rw [after0_0]; unfold Dat.blockOf iblk0; rw [A_eq0]; try rfl) t d).trans
    (by unfold Dat.fetched Dat.blockOf iblk0; rw [A_eq0]; try rfl)
theorem found0_1 (c : Dev nD) (t : Fin cfg0.N) (d) : (dat0 V c).before 1 t d = iblk0 V c 1 t :=
  ((dat0 V c).before_in_eq_fetched 1 rfl (fun _ => rfl) (fun _ _ _ => rfl)
      (fun t => by rw [after0_1]; unfold Dat.blockOf iblk0; rw [A_eq0]; try rfl) t d).trans
    (by unfold Dat.fetched Dat.blockOf iblk0; rw [A_eq0]; try rfl)
theorem found0_2 (c : Dev nD) (t : Fin cfg0.N) (d) : (dat0 V c).before 2 t d = iblk0 V c 2 t :=
  ((dat0 V c).before_in_eq_fetched 2 rfl (fun _ => rfl) (fun _ _ _ => rfl)
      (fun t => by rw [after0_2]; unfold Dat.blockOf iblk0; rw [A_eq0]; try rfl) t d).trans
    (by unfold Dat.fetched Dat.blockOf iblk0; rw [A_eq0]; try rfl)
theorem found0_3 (c : Dev nD) (t : Fin cfg0.N) (d) : (dat0 V c).before 3 t d = iblk0 V c 3 t :=
  ((dat0 V c).before_in_eq_fetched 3 rfl (fun _ => rfl) (fun _ _ _ => rfl)
      (fun t => by rw [after0_3]; unfold Dat.blockOf iblk0; rw [A_eq0]; try rfl) t d).trans
    (by unfold Dat.fetched Dat.blockOf iblk0; rw [A_eq0]; try rfl)
theorem found0_4 (c : Dev nD) (t : Fin cfg0.N) (d) : (dat0 V c).before 4 t d = iblk0 V c 4 t :=
  ((dat0 V c).before_in_eq_fetched 4 rfl (fun _ => rfl) (fun _ _ _ => rfl)
      (fun t => by rw [after0_4]; unfold Dat.blockOf iblk0; rw [A_eq0]; try rfl) t d).trans
    (by unfold Dat.fetched Dat.blockOf iblk0; rw [A_eq0]; try rfl)
theorem found0_5 (c : Dev nD) (t : Fin cfg0.N) (d) : (dat0 V c).before 5 t d = iblk0 V c 5 t :=
  ((dat0 V c).before_in_eq_fetched 5 rfl (fun _ => rfl) (fun _ _ _ => rfl)
      (fun t => by rw [after0_5]; unfold Dat.blockOf iblk0; rw [A_eq0]; try rfl) t d).trans
    (by unfold Dat.fetched Dat.blockOf iblk0; rw [A_eq0]; try rfl)

/-! ## Reading a buffer back after a whole-buffer store -/

/-- The zero offsets of a rank-2 and of a rank-3 whole-buffer rectangle, as the constant function. -/
theorem offs2 : (![0, 0] : Fin 2 → Nat) = fun _ => 0 := funext fun a => by fin_cases a <;> rfl
theorem offs3 : (![0, 0, 0] : Fin 3 → Nat) = fun _ => 0 := funext fun a => by fin_cases a <;> rfl

/-- Reading a buffer back after writes the last of which stored w through the whole-buffer rectangle gives w,
    whatever the buffer held and whatever was written before: that one piece covers every index. -/
theorem read_after_whole_store {sg : RefSig} {κ : Kind} {sp : Space} {S : Shape} {e : EltTy}
    (v : View sg κ sp S e) (f : v.ty.Contents (Elt F)) {off : Fin S.rank → Nat} (h : off = fun _ => 0)
    (inb : ∀ a, off a + S.size a ≤ S.size a) (w : S.Idx → Elt F e) (L : List (View.Piece (Elt F) S e)) :
    v.read (Elt F) (v.writes (Elt F) f ((⟨Rect.unit off S.size inb, w⟩ : View.Piece (Elt F) S e) :: L)) = w :=
  (View.read_writes_eq_canon v f _ (fun y => ⟨_, List.mem_cons.mpr (Or.inl rfl), View.mem_set_unit_zero h inb y⟩)).trans
    (View.canon_cons_unit_zero h inb w L)

/-! ## The running total and the invariant at a point -/

/-- At a half's first step the running total is the step's product added to zero. -/
theorem acc0_first (c : Dev nD) (t : Fin cfg0.N) (h : t.val % 32 = 0) :
    acc0 V c t.val t.isLt = k0_pay1 (wts0 V c t) (iblk0 V c 5 t) (k0_pay3 (F := F)) := by
  obtain ⟨n, hn⟩ := t
  cases n with
  | zero => rfl
  | succ n => exact (if_pos h).trans rfl

/-- At any other step it is the step's product added to the total the point before left. -/
theorem acc0_later (c : Dev nD) (t : Fin cfg0.N) (h : ¬t.val % 32 = 0) :
    acc0 V c t.val t.isLt
      = k0_pay1 (wts0 V c t) (iblk0 V c 5 t) (acc0 V c (t.val - 1) (Nat.lt_of_le_of_lt (Nat.sub_le _ _) t.isLt)) := by
  obtain ⟨n, hn⟩ := t
  cases n with
  | zero => exact absurd (Nat.zero_mod _) h
  | succ n => exact (if_neg h).trans rfl

/-- Before the first point the invariant is the entry invariant. -/
theorem PhiS0_zero (c : Dev nD) (n : ℕ) (h : n ≤ cfg0.N) (hz : n = 0) : PhiS0 V c n h = Pipeline.ΦA spec0 c := by
  subst hz; rfl

/-- After point n: the scratch at the running total after n. -/
theorem PhiS0_succ (c : Dev nD) (n : ℕ) (hn : n < cfg0.N) :
    PhiS0 V c (n + 1) hn
      = iprop(owns (c : Thread nD τ) scM0 fullShare (acc0 V c n hn) ∗ restOther0 (F := F) c ∗ (∃ r, prngReg c r)) := rfl

/-- Before a point that is not the first: the scratch at the running total the point before left. -/
theorem PhiS0_pos (c : Dev nD) (n : ℕ) (h : n ≤ cfg0.N) (hz : n ≠ 0) :
    PhiS0 V c n h
      = iprop(owns (c : Thread nD τ) scM0 fullShare (acc0 V c (n - 1) (by omega)) ∗ restOther0 (F := F) c ∗ (∃ r, prngReg c r)) := by
  cases n with
  | zero => exact absurd rfl hz
  | succ n => rfl

/-- The invariant at a point's start, restated at the point's number. -/
theorem Phi0_castSucc (c : Dev nD) (t : Fin cfg0.N) :
    (dat0 V c).Φ t.castSucc = PhiS0 V c t.val (Nat.le_of_lt t.isLt) := by
  dsimp only [dat0]; simp only [Fin.coe_castSucc]

end Cert.Kernel.Hand

end
-- ==== Proof.Bits.R0RunA.lean ====
import proofs.«103844_j2207613190522_2_alg».proof.Proof.Bits.R0Base

/-!
# The body at a half's first step

At step 0 of a half the body first overwrites the scratch buffer, whatever it held, with the zero block, then reads
it back as the total so far and stores the step's product added to it: so the scratch ends at the product of the
block's weights with the block's features added to zero.  The output window's buffer is not touched.
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- On whole memrefs — the six inputs' at contents x0 … x5, the output's at xo, the scratch at anything — the body at a
    half's first step (not its last) runs to a continuation that holds the inputs' and the output's as they were and the
    scratch at the step's product added to zero.  The zero block read back after its store is the block stored: one
    whole-buffer piece. -/
theorem stepFirst (c : Dev nD) (i : grid0.Coords) (arg2 : Memref sig .tc .vmem S3x85 .f32) (harg2 : arg2.IsWhole) (arg3 : Memref sig .tc .vmem S1x85 .f32) (harg3 : arg3.IsWhole) (arg4 : Memref sig .tc .vmem S1x85 .f32) (harg4 : arg4.IsWhole) (arg5 : Memref sig .tc .vmem S1x16 .f32) (harg5 : arg5.IsWhole) (arg6 : Memref sig .tc .vmem S4096x3 .f32) (harg6 : arg6.IsWhole) (arg7 : Memref sig .tc .vmem S4096x16 .f32) (harg7 : arg7.IsWhole) (arg8 : Memref sig .tc .vmem S1x85x16 .f32) (harg8 : arg8.IsWhole) (arg9 : Memref sig .tc .vmem S85x16 .f32) (harg9 : arg9.IsWhole)
    (hF : atFirst i) (hL : ¬atLast i)
    (x0 : Vec F S3x85 .f32) (x1 : Vec F S1x85 .f32) (x2 : Vec F S1x85 .f32) (x3 : Vec F S1x16 .f32) (x4 : Vec F S4096x3 .f32) (x5 : Vec F S4096x16 .f32)
    (xo : Vec F S1x85x16 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5
        ∗ owns (c : Thread nD τ) arg8 fullShare xo ∗ (∃ d, owns (c : Thread nD τ) arg9 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5
            ∗ owns (c : Thread nD τ) arg8 fullShare xo
            ∗ owns (c : Thread nD τ) arg9 fullShare (k0_pay1 (k0_pay4 x4 x0 x1 x2) x5 (k0_pay3 (F := F)))) -∗ K ⟨⟩))
      ⊢ wp frame (wpE (defs₀ (F := F)) Variants.none c none) E (cc0__qf_reduce_kernel i arg2 harg2 arg3 harg3 arg4 harg4 arg5 harg5 arg6 harg6 arg7 harg7 arg8 harg8 arg9 harg9) K := by
  simp only [cc0__qf_reduce_kernel_eq_skeleton]; unfold cc0__qf_reduce_kernel_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%ds, %fs, -, HS⟩, Hk⟩
  obtain rfl := harg2.eq_unread hf0; obtain rfl := harg3.eq_unread hf1; obtain rfl := harg4.eq_unread hf2
  obtain rfl := harg5.eq_unread hf3; obtain rfl := harg6.eq_unread hf4; obtain rfl := harg7.eq_unread hf5
  obtain rfl := harg8.eq_unread hf6
  sl_exec (disch := first | exact hF | exact hL)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  iexists _; isplitr
  swap; · iexact HS
  ipureintro
  sl_unfold_run_names
  rw [read_after_whole_store _ _ offs2]
  simp only [View.readAt_eq_ld, harg2.read_unread, harg3.read_unread, harg4.read_unread, harg5.read_unread,
    harg6.read_unread, harg7.read_unread, harg9.read_unread,
    View.ld_unit_zero (S := S3x85) offs2, View.ld_unit_zero (S := S1x85) offs2, View.ld_unit_zero (S := S1x16) offs2,
    View.ld_unit_zero (S := S4096x3) offs2, View.ld_unit_zero (S := S4096x16) offs2, View.ld_unit_zero (S := S85x16) offs2,
    View.readCov_unit_zero (S := S85x16) _ offs2]

end Cert.Kernel.Hand

end
-- ==== Proof.Bits.R0RunB.lean ====
import proofs.«103844_j2207613190522_2_alg».proof.Proof.Bits.R0RunA

/-!
# The body at a step between a half's first and last

At a step that is neither first nor last the body reads the total so far from the scratch buffer and stores the
step's product added to it.  The output window's buffer is not touched.
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- On whole memrefs — the six inputs' at contents x0 … x5, the output's at xo, the scratch at the total so far xs — the
    body at a step that is neither a half's first nor its last runs to a continuation that holds the inputs' and the
    output's as they were and the scratch at the step's product added to xs. -/
theorem stepMiddle (c : Dev nD) (i : grid0.Coords) (arg2 : Memref sig .tc .vmem S3x85 .f32) (harg2 : arg2.IsWhole) (arg3 : Memref sig .tc .vmem S1x85 .f32) (harg3 : arg3.IsWhole) (arg4 : Memref sig .tc .vmem S1x85 .f32) (harg4 : arg4.IsWhole) (arg5 : Memref sig .tc .vmem S1x16 .f32) (harg5 : arg5.IsWhole) (arg6 : Memref sig .tc .vmem S4096x3 .f32) (harg6 : arg6.IsWhole) (arg7 : Memref sig .tc .vmem S4096x16 .f32) (harg7 : arg7.IsWhole) (arg8 : Memref sig .tc .vmem S1x85x16 .f32) (harg8 : arg8.IsWhole) (arg9 : Memref sig .tc .vmem S85x16 .f32) (harg9 : arg9.IsWhole)
    (hF : ¬atFirst i) (hL : ¬atLast i)
    (x0 : Vec F S3x85 .f32) (x1 : Vec F S1x85 .f32) (x2 : Vec F S1x85 .f32) (x3 : Vec F S1x16 .f32) (x4 : Vec F S4096x3 .f32) (x5 : Vec F S4096x16 .f32)
    (xo : Vec F S1x85x16 .f32) (xs : Vec F S85x16 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5
        ∗ owns (c : Thread nD τ) arg8 fullShare xo ∗ owns (c : Thread nD τ) arg9 fullShare xs
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5
            ∗ owns (c : Thread nD τ) arg8 fullShare xo
            ∗ owns (c : Thread nD τ) arg9 fullShare (k0_pay1 (k0_pay4 x4 x0 x1 x2) x5 xs)) -∗ K ⟨⟩))
      ⊢ wp frame (wpE (defs₀ (F := F)) Variants.none c none) E (cc0__qf_reduce_kernel i arg2 harg2 arg3 harg3 arg4 harg4 arg5 harg5 arg6 harg6 arg7 harg7 arg8 harg8 arg9 harg9) K := by
  simp only [cc0__qf_reduce_kernel_eq_skeleton]; unfold cc0__qf_reduce_kernel_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs, %hfs, HS⟩, Hk⟩
  obtain rfl := harg2.eq_unread hf0; obtain rfl := harg3.eq_unread hf1; obtain rfl := harg4.eq_unread hf2
  obtain rfl := harg5.eq_unread hf3; obtain rfl := harg6.eq_unread hf4; obtain rfl := harg7.eq_unread hf5
  obtain rfl := harg8.eq_unread hf6; obtain rfl := harg9.eq_unread hfs
  sl_exec (disch := first | exact hF | exact hL)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  iexists _; isplitr
  swap; · iexact HS
  ipureintro
  sl_unfold_run_names
  rw [read_after_whole_store _ _ offs2]
  simp only [View.readAt_eq_ld, harg2.read_unread, harg3.read_unread, harg4.read_unread, harg5.read_unread,
    harg6.read_unread, harg7.read_unread, harg9.read_unread,
    View.ld_unit_zero (S := S3x85) offs2, View.ld_unit_zero (S := S1x85) offs2, View.ld_unit_zero (S := S1x16) offs2,
    View.ld_unit_zero (S := S4096x3) offs2, View.ld_unit_zero (S := S4096x16) offs2, View.ld_unit_zero (S := S85x16) offs2,
    View.readCov_unit_zero (S := S85x16) _ offs2]

end Cert.Kernel.Hand

end
-- ==== Proof.Bits.R0RunC.lean ====
import proofs.«103844_j2207613190522_2_alg».proof.Proof.Bits.R0RunB

/-!
# The body at a half's last step

At step 31 of a half the body adds the step's product to the total so far as at any later step, then reads the new
total back from the scratch buffer and stores it, scaled column by column by the feature weights' row, as the
output block.
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- On whole memrefs — the six inputs' at contents x0 … x5, the output's at anything, the scratch at the total so far xs —
    the body at a half's last step (not its first) runs to a continuation that holds the inputs' as they were, the scratch
    at the new total, the step's product added to xs, and the output's at the new total scaled by x3.  The total read back
    after its store is the total stored. -/
theorem stepLast (c : Dev nD) (i : grid0.Coords) (arg2 : Memref sig .tc .vmem S3x85 .f32) (harg2 : arg2.IsWhole) (arg3 : Memref sig .tc .vmem S1x85 .f32) (harg3 : arg3.IsWhole) (arg4 : Memref sig .tc .vmem S1x85 .f32) (harg4 : arg4.IsWhole) (arg5 : Memref sig .tc .vmem S1x16 .f32) (harg5 : arg5.IsWhole) (arg6 : Memref sig .tc .vmem S4096x3 .f32) (harg6 : arg6.IsWhole) (arg7 : Memref sig .tc .vmem S4096x16 .f32) (harg7 : arg7.IsWhole) (arg8 : Memref sig .tc .vmem S1x85x16 .f32) (harg8 : arg8.IsWhole) (arg9 : Memref sig .tc .vmem S85x16 .f32) (harg9 : arg9.IsWhole)
    (hF : ¬atFirst i) (hL : atLast i)
    (x0 : Vec F S3x85 .f32) (x1 : Vec F S1x85 .f32) (x2 : Vec F S1x85 .f32) (x3 : Vec F S1x16 .f32) (x4 : Vec F S4096x3 .f32) (x5 : Vec F S4096x16 .f32)
    (xs : Vec F S85x16 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5
        ∗ (∃ d, owns (c : Thread nD τ) arg8 fullShare d) ∗ owns (c : Thread nD τ) arg9 fullShare xs
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5
            ∗ owns (c : Thread nD τ) arg8 fullShare (k0_pay2 (k0_pay1 (k0_pay4 x4 x0 x1 x2) x5 xs) x3)
            ∗ owns (c : Thread nD τ) arg9 fullShare (k0_pay1 (k0_pay4 x4 x0 x1 x2) x5 xs)) -∗ K ⟨⟩))
      ⊢ wp frame (wpE (defs₀ (F := F)) Variants.none c none) E (cc0__qf_reduce_kernel i arg2 harg2 arg3 harg3 arg4 harg4 arg5 harg5 arg6 harg6 arg7 harg7 arg8 harg8 arg9 harg9) K := by
  simp only [cc0__qf_reduce_kernel_eq_skeleton]; unfold cc0__qf_reduce_kernel_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs, %hfs, HS⟩, Hk⟩
  obtain rfl := harg2.eq_unread hf0; obtain rfl := harg3.eq_unread hf1; obtain rfl := harg4.eq_unread hf2
  obtain rfl := harg5.eq_unread hf3; obtain rfl := harg6.eq_unread hf4; obtain rfl := harg7.eq_unread hf5
  obtain rfl := harg9.eq_unread hfs
  sl_exec (disch := first | exact hF | exact hL)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr
    swap; · iexact H6
    ipureintro
    sl_unfold_run_names
    rw [read_after_whole_store _ _ offs3]
    simp only [View.readAt_eq_ld, harg2.read_unread, harg3.read_unread, harg4.read_unread, harg5.read_unread,
      harg6.read_unread, harg7.read_unread, harg9.read_unread,
      View.ld_unit_zero (S := S3x85) offs2, View.ld_unit_zero (S := S1x85) offs2, View.ld_unit_zero (S := S1x16) offs2,
      View.ld_unit_zero (S := S4096x3) offs2, View.ld_unit_zero (S := S4096x16) offs2, View.ld_unit_zero (S := S85x16) offs2,
      View.readCov_unit_zero (S := S85x16) _ offs2]
  iexists _; isplitr
  swap; · iexact HS
  ipureintro
  sl_unfold_run_names
  rw [read_after_whole_store _ _ offs2]
  simp only [View.readAt_eq_ld, harg2.read_unread, harg3.read_unread, harg4.read_unread, harg5.read_unread,
    harg6.read_unread, harg7.read_unread, harg9.read_unread,
    View.ld_unit_zero (S := S3x85) offs2, View.ld_unit_zero (S := S1x85) offs2, View.ld_unit_zero (S := S1x16) offs2,
    View.ld_unit_zero (S := S4096x3) offs2, View.ld_unit_zero (S := S4096x16) offs2, View.ld_unit_zero (S := S85x16) offs2,
    View.readCov_unit_zero (S := S85x16) _ offs2]

end Cert.Kernel.Hand

end
-- ==== Proof.Bits.R0Frame.lean ====
import proofs.«103844_j2207613190522_2_alg».proof.Proof.Bits.R0RunC

/-!
# The first call's body obligation

At any point of the 2 × 32 grid the body, handed each input window's staging buffer at the window's block, the
output window's at whatever it holds, and the scratch buffer at the running total the point before left (at
anything before a half's first step), returns the inputs as they were, the scratch at the running total after
the point, and the output window's buffer untouched — except at a half's last step, where it holds the scaled
total.  The point's number decides which of the three kinds of step it is; the arithmetic of t mod 32 excludes a
step that is both first and last.  The invariant before the first point is the call's entry invariant, and after
the last point it gives the entry invariant back, forgetting what the scratch holds.
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- What the body is called with at point t: the invariant, what the core owes, and the seven windows' current
    staging buffers one by one. -/
def bodyPre0 (c : Dev nD) (t : Fin cfg0.N) : sProp 𝕄 :=
  iprop((dat0 V c).Φ t.castSucc ∗ (dat0 V c).owesAt () t.castSucc
    ∗ (∃ d, owns (c : Thread nD τ) (sm0_0 t) fullShare ((dat0 V c).before 0 t d))
    ∗ (∃ d, owns (c : Thread nD τ) (sm0_1 t) fullShare ((dat0 V c).before 1 t d))
    ∗ (∃ d, owns (c : Thread nD τ) (sm0_2 t) fullShare ((dat0 V c).before 2 t d))
    ∗ (∃ d, owns (c : Thread nD τ) (sm0_3 t) fullShare ((dat0 V c).before 3 t d))
    ∗ (∃ d, owns (c : Thread nD τ) (sm0_4 t) fullShare ((dat0 V c).before 4 t d))
    ∗ (∃ d, owns (c : Thread nD τ) (sm0_5 t) fullShare ((dat0 V c).before 5 t d))
    ∗ (∃ d, owns (c : Thread nD τ) (sm0_6 t) fullShare ((dat0 V c).before 6 t d)))

/-- What it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t)

set_option maxHeartbeats 4800000 in
/-- The body at any point.  Each input's buffer holds its block; the point's number modulo 32 says which kind of step
    it is, and that step's run applies: the invariant hands it the scratch at the running total the point before
    left (at anything before a half's first step, where the body overwrites it) and takes it back at the running
    total after this point; the other scoped buffers and the generator register ride along; nothing is owed. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [found0_0, found0_1, found0_2, found0_3, found0_4, found0_5]
  rw [show (dat0 V c).owesAt () t.succ = (dat0 V c).owesAt () t.castSucc from rfl]
  rw [show (dat0 V c).Φ t.succ = PhiS0 V c (t.val + 1) t.isLt from rfl, PhiS0_succ]
  have hN : t.val < 64 := lt_of_lt_of_eq t.isLt (show cfg0.N = 64 from N_0)
  rw [show (dat0 V c).leavesExact 0 t = owns (c : Thread nD τ) (sm0_0 t) fullShare (iblk0 V c 0 t) from by
    unfold Dat.leavesExact; rw [show cfg0.idle 0 (grid0.coords t) = false from rfl, after0_0]]
  rw [show (dat0 V c).leavesExact 1 t = owns (c : Thread nD τ) (sm0_1 t) fullShare (iblk0 V c 1 t) from by
    unfold Dat.leavesExact; rw [show cfg0.idle 1 (grid0.coords t) = false from rfl, after0_1]]
  rw [show (dat0 V c).leavesExact 2 t = owns (c : Thread nD τ) (sm0_2 t) fullShare (iblk0 V c 2 t) from by
    unfold Dat.leavesExact; rw [show cfg0.idle 2 (grid0.coords t) = false from rfl, after0_2]]
  rw [show (dat0 V c).leavesExact 3 t = owns (c : Thread nD τ) (sm0_3 t) fullShare (iblk0 V c 3 t) from by
    unfold Dat.leavesExact; rw [show cfg0.idle 3 (grid0.coords t) = false from rfl, after0_3]]
  rw [show (dat0 V c).leavesExact 4 t = owns (c : Thread nD τ) (sm0_4 t) fullShare (iblk0 V c 4 t) from by
    unfold Dat.leavesExact; rw [show cfg0.idle 4 (grid0.coords t) = false from rfl, after0_4]]
  rw [show (dat0 V c).leavesExact 5 t = owns (c : Thread nD τ) (sm0_5 t) fullShare (iblk0 V c 5 t) from by
    unfold Dat.leavesExact; rw [show cfg0.idle 5 (grid0.coords t) = false from rfl, after0_5]]
  by_cases h0 : t.val % 32 = 0
  · by_cases h1 : t.val % 32 = 31
    · exfalso; omega
    · -- a half's first step
      have hF : atFirst (grid0.coords t) := (atFirst_iff t).mpr h0
      have hL : ¬atLast (grid0.coords t) := fun h => h1 ((atLast_iff t).mp h)
      rw [Dat.leavesExact_idle (dat0 V c) 6 t (out_idle t hL) (out_kept t hL)]
      rw [acc0_first V c t h0]; unfold wts0
      by_cases hz : t.val = 0
      · rw [Phi0_castSucc V c t, PhiS0_zero V c _ _ hz, PhiA0_eq]
        iintro ⟨⟨HS, Hr, Hg⟩, Ho, ⟨%d0, H0⟩, ⟨%d1, H1⟩, ⟨%d2, H2⟩, ⟨%d3, H3⟩, ⟨%d4, H4⟩, ⟨%d5, H5⟩, ⟨%d6, H6⟩⟩
        iapply (stepFirst c (grid0.coords t) (sm0_0 t) (sw0_0 t) (sm0_1 t) (sw0_1 t) (sm0_2 t) (sw0_2 t) (sm0_3 t) (sw0_3 t) (sm0_4 t) (sw0_4 t) (sm0_5 t) (sw0_5 t) (sm0_6 t) (sw0_6 t) scM0 (Memref.isWhole_whole _) hF hL
          (iblk0 V c 0 t) (iblk0 V c 1 t) (iblk0 V c 2 t) (iblk0 V c 3 t) (iblk0 V c 4 t) (iblk0 V c 5 t) ((dat0 V c).before 6 t d6) Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HS]; · iexact HS
        iintro ⟨H0, H1, H2, H3, H4, H5, H6, HS⟩
        isplitl [HS Hr Hg]
        · isplitl [HS]; · iexact HS
          isplitl [Hr]; · iexact Hr
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        iexists _; iexact H6
      · rw [Phi0_castSucc V c t, PhiS0_pos V c _ _ hz]
        iintro ⟨⟨HS, Hr, Hg⟩, Ho, ⟨%d0, H0⟩, ⟨%d1, H1⟩, ⟨%d2, H2⟩, ⟨%d3, H3⟩, ⟨%d4, H4⟩, ⟨%d5, H5⟩, ⟨%d6, H6⟩⟩
        iapply (stepFirst c (grid0.coords t) (sm0_0 t) (sw0_0 t) (sm0_1 t) (sw0_1 t) (sm0_2 t) (sw0_2 t) (sm0_3 t) (sw0_3 t) (sm0_4 t) (sw0_4 t) (sm0_5 t) (sw0_5 t) (sm0_6 t) (sw0_6 t) scM0 (Memref.isWhole_whole _) hF hL
          (iblk0 V c 0 t) (iblk0 V c 1 t) (iblk0 V c 2 t) (iblk0 V c 3 t) (iblk0 V c 4 t) (iblk0 V c 5 t) ((dat0 V c).before 6 t d6) Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HS]; · iexists _; iexact HS
        iintro ⟨H0, H1, H2, H3, H4, H5, H6, HS⟩
        isplitl [HS Hr Hg]
        · isplitl [HS]; · iexact HS
          isplitl [Hr]; · iexact Hr
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        iexists _; iexact H6
  · have hz : t.val ≠ 0 := fun h => h0 (by rw [h])
    have hF : ¬atFirst (grid0.coords t) := fun h => h0 ((atFirst_iff t).mp h)
    by_cases h1 : t.val % 32 = 31
    · -- a half's last step
      have hL : atLast (grid0.coords t) := (atLast_iff t).mpr h1
      rw [show (dat0 V c).leavesExact 6 t = owns (c : Thread nD τ) (sm0_6 t) fullShare (out0 V c t) from by
        unfold Dat.leavesExact; rw [out_live t hL, after0_6]]
      unfold out0; rw [acc0_later V c t h0]; unfold wts0
      rw [Phi0_castSucc V c t, PhiS0_pos V c _ _ hz]
      iintro ⟨⟨HS, Hr, Hg⟩, Ho, ⟨%d0, H0⟩, ⟨%d1, H1⟩, ⟨%d2, H2⟩, ⟨%d3, H3⟩, ⟨%d4, H4⟩, ⟨%d5, H5⟩, ⟨%d6, H6⟩⟩
      iapply (stepLast c (grid0.coords t) (sm0_0 t) (sw0_0 t) (sm0_1 t) (sw0_1 t) (sm0_2 t) (sw0_2 t) (sm0_3 t) (sw0_3 t) (sm0_4 t) (sw0_4 t) (sm0_5 t) (sw0_5 t) (sm0_6 t) (sw0_6 t) scM0 (Memref.isWhole_whole _) hF hL
        (iblk0 V c 0 t) (iblk0 V c 1 t) (iblk0 V c 2 t) (iblk0 V c 3 t) (iblk0 V c 4 t) (iblk0 V c 5 t) (acc0 V c (t.val - 1) (Nat.lt_of_le_of_lt (Nat.sub_le _ _) t.isLt)) Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS]; · iexact HS
      iintro ⟨H0, H1, H2, H3, H4, H5, H6, HS⟩
      isplitl [HS Hr Hg]
      · isplitl [HS]; · iexact HS
        isplitl [Hr]; · iexact Hr
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
    · -- a step in between
      have hL : ¬atLast (grid0.coords t) := fun h => h1 ((atLast_iff t).mp h)
      rw [Dat.leavesExact_idle (dat0 V c) 6 t (out_idle t hL) (out_kept t hL)]
      rw [acc0_later V c t h0]; unfold wts0
      rw [Phi0_castSucc V c t, PhiS0_pos V c _ _ hz]
      iintro ⟨⟨HS, Hr, Hg⟩, Ho, ⟨%d0, H0⟩, ⟨%d1, H1⟩, ⟨%d2, H2⟩, ⟨%d3, H3⟩, ⟨%d4, H4⟩, ⟨%d5, H5⟩, ⟨%d6, H6⟩⟩
      iapply (stepMiddle c (grid0.coords t) (sm0_0 t) (sw0_0 t) (sm0_1 t) (sw0_1 t) (sm0_2 t) (sw0_2 t) (sm0_3 t) (sw0_3 t) (sm0_4 t) (sw0_4 t) (sm0_5 t) (sw0_5 t) (sm0_6 t) (sw0_6 t) scM0 (Memref.isWhole_whole _) hF hL
        (iblk0 V c 0 t) (iblk0 V c 1 t) (iblk0 V c 2 t) (iblk0 V c 3 t) (iblk0 V c 4 t) (iblk0 V c 5 t) ((dat0 V c).before 6 t d6) (acc0 V c (t.val - 1) (Nat.lt_of_le_of_lt (Nat.sub_le _ _) t.isLt)) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS]; · iexact HS
      iintro ⟨H0, H1, H2, H3, H4, H5, H6, HS⟩
      isplitl [HS Hr Hg]
      · isplitl [HS]; · iexact HS
        isplitl [Hr]; · iexact Hr
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the call is the invariant before the first point. -/
theorem hin0 (c : Dev nD) : (Pipeline.ΦA spec0 c : sProp 𝕄) ⊢ (dat0 V c).Φ 0 := by
  rw [show (dat0 V c).Φ 0 = PhiS0 V c 0 (Nat.zero_le _) from rfl, PhiS0_zero V c 0 _ rfl]
  first | done | exact Idealize.SL.BI.Entails.refl _

/-- After any point the invariant gives the entry invariant back: what the scratch holds is forgotten. -/
theorem Phi0_out (c : Dev nD) (t : Fin (cfg0.N + 1)) (ht : t.val ≠ 0) : (dat0 V c).Φ t ⊢ (Pipeline.ΦA spec0 c : sProp 𝕄) := by
  rw [show (dat0 V c).Φ t = PhiS0 V c t.val (Nat.le_of_lt_succ t.isLt) from rfl, PhiS0_pos V c _ _ ht, PhiA0_eq]
  iintro ⟨HS, Hr, Hg⟩
  isplitl [HS]
  · iexists _; iexact HS
  isplitl [Hr]; · iexact Hr
  iexact Hg

/-- In particular after the last point. -/
theorem hout0 (c : Dev nD) : (dat0 V c).Φ (Fin.last cfg0.N) ⊢ (Pipeline.ΦA spec0 c : sProp 𝕄) :=
  Phi0_out V c _ (by rw [Fin.val_last]; have : cfg0.N = 64 := N_0; omega)

end Cert.Kernel.Hand

end
-- ==== Proof.Bits.R1Data.lean ====
import proofs.«103844_j2207613190522_2_alg».proof.Proof.Gen.Kernel.Launch
import proofs.«103844_j2207613190522_2_alg».proof.Proof.Gen.Kernel.Skeleton
import proofs.«103844_j2207613190522_2_alg».proof.Proof.Gen.Kernel.Points
import Idealize.ShloMosaic.Lib.Pipeline.FrameBody
import Idealize.ShloMosaic.Lib.Ring
import Idealize.ShloMosaic.Lib.Tactic

/-!
# The second call's proof data

The second call runs on a grid of 64 points, point t handling rows 4096·t … 4096·t + 4095: from the point's block
of features and the whole kernel-feature matrix it stores the block of result rows — the features, their products
with the matrix's rows, and those products against the matrix's columns, side by side.  Nothing is carried between
points.  Stated at a parameter V: the buffers' contents when the call is entered.
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the call finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The block of result rows point t stores: from its block of features and the kernel-feature matrix. -/
def out1 (c : Dev nD) (t : Fin cfg1.N) : Vec F S4096x117 .f32 :=
  k1_pay1 (iblk1 V c 0 t) (iblk1 V c 1 t)

/-- The proof data of the second call on core c: the arrays as the call finds them; after the body at point t each
    input's buffer at its block and the output's at the stored block; the invariant the scoped buffers the pipeline
    does not stage and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1 V c t
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1 V c t := by dsimp only [dat1]

end Cert.Kernel.Hand

end
-- ==== Proof.Bits.RunData.lean ====
import proofs.«103844_j2207613190522_2_alg».proof.Proof.Bits.R0Data
import proofs.«103844_j2207613190522_2_alg».proof.Proof.Bits.R1Data
import Idealize.ShloMosaic.Lib.Pipeline.RegionsLoop
import Idealize.ShloMosaic.Lib.Pipeline.FrameSuffix

/-!
# The buffers' contents between the program's four segments

The program is: a stretch of host operations (the kernel points transposed, their squared norms, the squared
widths, the feature weights as a row), the first call, a second stretch (the two halves' output blocks added),
the second call.  The contents of every buffer at each boundary are a fold from the launch memory: a stretch
applies its operations; a call leaves its arrays at what its write-backs leave and every other buffer as entered.
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- Core c's buffers at launch. -/
abbrev W0 : Dev nD → Valuation τ sig (Elt F) := fun c b => m ((c : Dev nD), b)
/-- After the first stretch (the first call's entry). -/
abbrev W1 : Dev nD → Valuation τ sig (Elt F) := fun c => StableHlo.after hostOps0 (W0 m c)
/-- The same read at the core's references. -/
abbrev V1 : (c : Dev nD) → (b : Ref sig .tc) → Buf (Elt F) ((c : Thread nD τ).loc b) := fun c b => W1 m c b
/-- At the first call's exit: its arrays at what the pipeline leaves, every other buffer as entered. -/
def W2 (c : Dev nD) : Valuation τ sig (Elt F) :=
  Pipeline.withArrays spec0 c (W1 m c) fun w => (dat0 (V1 m) c).arrAt w cfg0.N
/-- The same read at the core's references. -/
abbrev V2 : (c : Dev nD) → (b : Ref sig .tc) → Buf (Elt F) ((c : Thread nD τ).loc b) := fun c b => W2 m c b
/-- After the second stretch (the second call's entry). -/
abbrev W3 : Dev nD → Valuation τ sig (Elt F) := fun c => StableHlo.after hostOps1 (W2 m c)
/-- The same read at the core's references. -/
abbrev V3 : (c : Dev nD) → (b : Ref sig .tc) → Buf (Elt F) ((c : Thread nD τ).loc b) := fun c b => W3 m c b
/-- At the second call's exit: its arrays at what the pipeline leaves, every other buffer as entered. -/
def W4 (c : Dev nD) : Valuation τ sig (Elt F) :=
  Pipeline.withArrays spec1 c (W3 m c) fun w => (dat1 (V3 m) c).arrAt w cfg1.N
/-- The same read at the core's references. -/
abbrev V4 : (c : Dev nD) → (b : Ref sig .tc) → Buf (Elt F) ((c : Thread nD τ).loc b) := fun c b => W4 m c b

theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
theorem W4_arr (c : Dev nD) (w : Fin cfg1.W) :
    W4 m c (Proc.devRef .tc (Pipeline.arrRef spec1 w)) = (dat1 (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb

/-- No pipeline has a prefetched table. -/
abbrev adm : (p : Fin 2) → (pcfgs (F := F) p).Adm := fun p => (cfgs p).toPCfg_adm

/-- Every pipeline's proof data, each at its call's entry contents. -/
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V3 m) c

end Cert.Kernel.Hand

end
-- ==== Proof.Bits.R1Frame.lean ====
import proofs.«103844_j2207613190522_2_alg».proof.Proof.Bits.R1Data
import Idealize.ShloMosaic.Lib.Pipeline.Value

/-!
# The second call's body at a point

At every point the body reads the point's block of features and the kernel-feature matrix, reads its output buffer
once without using what it read, and overwrites that buffer whole with the block of result rows.  So after the body
the two input buffers hold what they held and the output buffer holds the result block of the two inputs — whatever
it held before.  The input buffers hold the windows' blocks at every point, fetched there or not: the matrix's window
is fetched at the first point only, and its block never moves.
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body's accesses all start at the origin of their buffer; the origin, as a function. -/
theorem origin2 : (![0, 0] : Fin 2 → Nat) = fun _ => 0 := funext fun a => by fin_cases a <;> rfl

/-! ## The body on three whole buffers -/

set_option maxHeartbeats 1000000 in
/-- On whole buffers, the first reading x0, the second reading x1, the third holding anything, the body runs to
    its continuation with the first two as they were and the third reading the result block of x0 and x1: the third
    buffer is read once (the value is dropped) and then stored over whole, and a whole store read back is what was
    stored. -/
theorem kernel1_triple (c : Dev nD) (E : Set ℕ) (i : grid1.Coords)
    (a1 : Memref sig .tc .vmem S4096x16 .f32) (h1 : a1.IsWhole)
    (a2 : Memref sig .tc .vmem S85x16 .f32) (h2 : a2.IsWhole)
    (a3 : Memref sig .tc .vmem S4096x117 .f32) (h3 : a3.IsWhole)
    (x0 : Vec F S4096x16 .f32) (x1 : Vec F S85x16 .f32) (K : PUnit → sProp 𝕄) :
    iprop(owns (c : Thread nD τ) a1 fullShare x0 ∗ owns (c : Thread nD τ) a2 fullShare x1
        ∗ (∃ d, owns (c : Thread nD τ) a3 fullShare d)
        ∗ (iprop(owns (c : Thread nD τ) a1 fullShare x0 ∗ owns (c : Thread nD τ) a2 fullShare x1
            ∗ owns (c : Thread nD τ) a3 fullShare (k1_pay1 x0 x1)) -∗ K ⟨⟩))
      ⊢ wp frame (wpE (defs₀ (F := F)) Variants.none c none) E (cc1__output_kernel i a1 h1 a2 h2 a3 h3) K := by
  simp only [cc1__output_kernel_eq_skeleton]; unfold cc1__output_kernel_skel
  unfold owns
  iintro ⟨⟨%f1, %e1, H1⟩, ⟨%f2, %e2, H2⟩, ⟨%d3, %f3, -, H3⟩, Hk⟩
  subst e1; subst e2
  sl_exec
  sl_step
  iapply Hk
  isplitl [H1]
  · iexists f1; isplitr; · ipureintro; rfl
    iexact H1
  isplitl [H2]
  · iexists f2; isplitr; · ipureintro; rfl
    iexact H2
  iexists _; isplitr
  swap; · iexact H3
  ipureintro
  refine (View.read_writes_eq_canon _ _ _ fun y => ⟨_, List.mem_singleton_self _, View.mem_set_unit_zero origin2 inb_S4096x117_S4096x117_0_0 y⟩).trans ?_
  rw [View.canon_unit_zero origin2]
  simp only [View.readAt_eq_ld, View.ld_unit_zero (S := S4096x16) origin2, View.ld_unit_zero (S := S85x16) origin2]

/-! ## What the input buffers hold when the body runs -/

variable (V : (c : Dev nD) → (b : Ref sig .tc) → Buf (Elt F) ((c : Thread nD τ).loc b))

/-- What a fetch of a window reads off its array is the window's block off the entry contents. -/
theorem blockOf1 (c : Dev nD) (w : Fin cfg1.W) (t : Fin cfg1.N) : (dat1 V c).blockOf w t = iblk1 V c w t := by
  unfold Dat.blockOf iblk1; rw [A_eq1]

/-- The features' buffer holds the point's block of features at every point (it is fetched at every point). -/
theorem holds1_0 (c : Dev nD) (t : Fin cfg1.N) (d) : (dat1 V c).before 0 t d = iblk1 V c 0 t := by
  have hkeep : ∀ t, (cfg1.win 0).cut (cfg1.grid.coords t) ((dat1 V c).after 0 t) = (dat1 V c).blockOf 0 t := fun t => by
    rw [after1_0, blockOf1]
  rw [(dat1 V c).before_in_eq_fetched 0 rfl (fun _ => rfl) (fun _ _ _ => rfl) hkeep t d]
  unfold Dat.fetched; rw [blockOf1]; rfl

/-- The matrix's buffer holds the whole matrix at every point: fetched at the first point, and at a later point the
    body before left it in place and the window's block index has not moved. -/
theorem holds1_1 (c : Dev nD) (t : Fin cfg1.N) (d) : (dat1 V c).before 1 t d = iblk1 V c 1 t := by
  have hkeep : ∀ t, (cfg1.win 1).cut (cfg1.grid.coords t) ((dat1 V c).after 1 t) = (dat1 V c).blockOf 1 t := fun t => by
    rw [after1_1, blockOf1]
  rw [(dat1 V c).before_in_eq_fetched 1 rfl (fun _ => rfl) (fun _ _ _ => rfl) hkeep t d]
  unfold Dat.fetched; rw [blockOf1]; rfl

/-! ## The body at a point of the grid -/

/-- What the pipeline hands the body at point t: the invariant, the core's dues, each window's current buffer at
    what it then holds. -/
def pointPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- What the body hands back: the same, each buffer at what the body leaves. -/
def pointPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the two input buffers hold their blocks, the output buffer something, so the body's
    triple applies at those blocks; the invariant and the dues are the same at the next point and pass through. -/
theorem point_sound1 (c : Dev nD) (t : Fin cfg1.N) :
    pointPre1 V c t ⊢ wp frame (wpE (defs₀ (F := F)) Variants.none c none) Set.univ (bodyAt1 t) (fun _ => pointPost1 V c t) := by
  unfold pointPre1 pointPost1 bodyAt1
  simp only [holds1_0, holds1_1]
  rw [show (dat1 V c).Φ t.succ = (dat1 V c).Φ t.castSucc from rfl,
    show (dat1 V c).owesAt () t.succ = (dat1 V c).owesAt () t.castSucc from rfl,
    after1_0, after1_1, after1_2]
  unfold out1
  iintro ⟨HΦ, Ho, ⟨%d0, H0⟩, ⟨%d1, H1⟩, ⟨%d2, H2⟩⟩
  iapply (kernel1_triple c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The second call's body obligation: the body at every point, the windows taken one by one. -/
theorem body_obligation1 (V : (c : Dev nD) → (b : Ref sig .tc) → Buf (Elt F) ((c : Thread nD τ).loc b)) (c : Dev nD) : BodyObligation (dat1 (F := F) V c) (defs₀ (F := F)) Variants.none () Set.univ := fun t => by
  rw [bigSep_W1, bigSep_W1]
  exact point_sound1 V c t

end Cert.Kernel.Hand

end
-- ==== Proof.Bits.Run.lean ====
import proofs.«103844_j2207613190522_2_alg».proof.Proof.Bits.RunData
import proofs.«103844_j2207613190522_2_alg».proof.Proof.Bits.R1Frame
import proofs.«103844_j2207613190522_2_alg».proof.Proof.Gen.Kernel.Regions

/-!
# The run: the program's four segments from the launch to the return

Between two segments a core holds every unscoped buffer whole, at the contents the fold names for that boundary,
beside its generator register at some state and its dues, which are none.  A stretch of host operations moves the
buffers from one boundary's contents to the next by applying its operations.  A call takes its windows' arrays out of
the buffers, hands the generator register and the scoped buffers it does not stage to its invariant, runs its grid,
and puts the arrays back at what its write-backs left, every other buffer as it was.  At the end every unscoped
buffer is read against the final memory.

The first call's invariant is the running total's, not the plain one; what is used of it is stated as three
hypotheses: its body obligation, that the plain invariant opens it, and that at the last point it closes to the
plain invariant again.
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## A call's exit contents, as the library's two conditions -/

/-- At the first call's exit each of its arrays holds what the pipeline leaves there, -/
theorem leaves0 (c : Dev nD) (w : Fin cfg0.W) : (dat0 (V1 m) c).arrAt w cfg0.N = V2 m c (Pipeline.arrRef spec0 w) :=
  (W2_arr m c w).symm
/-- and every buffer that is no array of it what it held at entry. -/
theorem keeps0 (c : Dev nD) (b : Ref sig .tc) (hb : b ∉ Finset.univ.image (Pipeline.arrRef spec0)) : V2 m c b = V1 m c b :=
  W2_of_ne m c b fun w e => hb (Finset.mem_image.mpr ⟨w, Finset.mem_univ w, e⟩)
/-- The same of the second call. -/
theorem leaves1 (c : Dev nD) (w : Fin cfg1.W) : (dat1 (V3 m) c).arrAt w cfg1.N = V4 m c (Pipeline.arrRef spec1 w) :=
  (W4_arr m c w).symm
theorem keeps1 (c : Dev nD) (b : Ref sig .tc) (hb : b ∉ Finset.univ.image (Pipeline.arrRef spec1)) : V4 m c b = V3 m c b :=
  W4_of_ne m c b fun w e => hb (Finset.mem_image.mpr ⟨w, Finset.mem_univ w, e⟩)

/-! ## What a core holds between segments -/

/-- No core owes another anything: no pair has a level. -/
abbrev noPairs : GSem nD τ sig → Finset Unit := fun _ => ∅
abbrev level0 : GSem nD τ sig → Unit → ℕ := fun _ _ => 0

/-- Beside the buffers: the generator register at some state and the core's dues, none. -/
abbrev beside (c : Dev nD) : sProp 𝕄 :=
  iprop((∃ r, prngReg c r) ∗ ∃ W, owes (c : Thread nD τ) (0 : CellTallies nD τ sig Unit) W)

/-- The state at a boundary whose contents are W. -/
abbrev at_ (W : Dev nD → Valuation τ sig (Elt F)) (c : Dev nD) : sProp 𝕄 :=
  iprop(StableHlo.held (c : Thread nD τ) (Pipeline.ucRefs τ sig) (W c) ∗ beside (F := F) c)

/-- A stretch of host operations from the contents W: it touches unscoped buffers only and allocates none, so it
    runs over the held buffers to the operations' results, the rest riding along. -/
abbrev stretch (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ Variants.none noPairs level0 :=
  Pipeline.HostSeg.ofOps _ _ _ _ _ (Pipeline.ucRefs τ sig) ops
    (fun op h => Pipeline.sub_ucRefs op (List.forall_iff_forall_mem.mp hsub op h))
    (fun op h => List.forall_iff_forall_mem.mp hfresh op h) W (beside (F := F))

/-- An unscoped reference of the core is among the held ones. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The last state, the dues apart: every unscoped buffer at the last contents, the generator register at some state. -/
abbrev atEnd (c : Dev nD) : sProp 𝕄 :=
  iprop(StableHlo.held (c : Thread nD τ) (Pipeline.ucRefs τ sig) (W4 m c) ∗ ∃ r, prngReg c r)

/-! ## The two calls -/

set_option backward.isDefEq.respectTransparency.types false in
/-- THE FIRST CALL, entered at the contents after the first stretch and left at its exit contents.  Its invariant is
    entered through the plain one (hi0) and left through it (ho0); its body obligation is hb0. -/
def call0 (hb0 : ∀ (V : (c : Dev nD) → (b : Ref sig .tc) → Buf (Elt F) ((c : Thread nD τ).loc b)) (c : Dev nD), BodyObligation (dat0 (F := F) V c) (defs₀ (F := F)) Variants.none () Set.univ)
    (hi0 : ∀ (V : (c : Dev nD) → (b : Ref sig .tc) → Buf (Elt F) ((c : Thread nD τ).loc b)) (c : Dev nD), (Pipeline.ΦA spec0 c : sProp 𝕄) ⊢ (dat0 V c).Φ 0)
    (ho0 : ∀ (V : (c : Dev nD) → (b : Ref sig .tc) → Buf (Elt F) ((c : Thread nD τ).loc b)) (c : Dev nD), (dat0 V c).Φ (Fin.last cfg0.N) ⊢ (Pipeline.ΦA spec0 c : sProp 𝕄)) :
    Pipeline.RegionSeg (pcfgs (F := F)) adm (pdats m) () defs₀ Variants.none noPairs level0 0 where
  win := launch0.win.to₀
  block_pos := launch0.block_pos
  stage_whole := launch0.stage_whole
  K := PEmpty
  osem k := k.elim
  ho := Pipeline.OwnSemFacts.none _
  hbody c := (hb0 (V1 m) c).loose
  hwaits := Pipeline.hwaits_of_owed_zero _ _ _ _ noPairs level0 0 fun _ _ => rfl
  pre := at_ (W1 m)
  post := at_ (W2 m)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    have hout := Pipeline.arrays_of_unscopedBufs (p := 0) (pcfgs (F := F)) adm (pdats m) launch0.win launch0.arr_whole c
      ((pdats m 0 c).share_full fun _ => rfl) (V1 m c) fun _ => rfl
    rw [Pipeline.unscopedBufs_held] at hout
    rw [Pipeline.ownSems0_none]
    iintro ⟨⟨Hbufs, Hreg, Hdue⟩, -, -⟩
    ihave Hsplit := hout $$ Hbufs
    icases Hsplit with ⟨Harr, Hother⟩
    imodintro
    isplitl [Harr]; · iexact Harr
    isplitr
    · unfold Pipeline.prefHeld
      rw [show (Finset.univ : Finset (Fin 0)) = ∅ from rfl, BI.bigSep_empty]; iempintro
    isplitl [Hdue]
    · unfold Pipeline.Dat.owesAt Pipeline.owesWithin
      icases Hdue with ⟨%W, Hdue⟩
      iexists W; isplitr
      · ipureintro; exact fun _ _ => Or.inl trivial
      iexact Hdue
    isplitl [Hreg]; · iexact Hreg
    iexact Hother
  hin c := by
    refine BIBase.Entails.trans ?_ (hi0 (V1 m) c)
    unfold Pipeline.ΦA
    iintro ⟨Hreg, -, Hsc⟩
    isplitl [Hsc]; · iexact Hsc
    iexact Hreg
  hout c := by
    refine BIBase.Entails.trans (ho0 (V1 m) c) ?_
    rw [Pipeline.ownSems0_none]; unfold Pipeline.ΦA
    iintro ⟨Hsc, Hreg⟩
    isplitl [Hreg]; · iexact Hreg
    isplitr; · iempintro
    iexact Hsc
  hexit c := by
    have hback := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (leaves0 m c) (keeps0 m c)
    rw [Pipeline.unscopedBufs_held] at hback
    iintro ⟨Harr, Hdue, Hreg, Hother⟩
    imodintro
    isplitl [Harr Hother]
    · iapply hback; isplitl [Harr]; · iexact Harr
      iexact Hother
    isplitl [Hreg]; · iexact Hreg
    unfold Pipeline.Dat.owesAt Pipeline.owesWithin
    icases Hdue with ⟨%W, -, Hdue⟩
    iexists W; iexact Hdue

set_option backward.isDefEq.respectTransparency.types false in
/-- THE SECOND CALL, entered at the contents after the second stretch and left at the last contents.  Its invariant
    is the plain one: the scoped buffers it does not stage and the generator register, untouched. -/
def call1 : Pipeline.RegionSeg (pcfgs (F := F)) adm (pdats m) () defs₀ Variants.none noPairs level0 1 where
  win := launch1.win.to₀
  block_pos := launch1.block_pos
  stage_whole := launch1.stage_whole
  K := PEmpty
  osem k := k.elim
  ho := Pipeline.OwnSemFacts.none _
  hbody c := (body_obligation1 (V3 m) c).loose
  hwaits := Pipeline.hwaits_of_owed_zero _ _ _ _ noPairs level0 1 fun _ _ => rfl
  pre := at_ (W3 m)
  post c := iprop(atEnd m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    have hout := Pipeline.arrays_of_unscopedBufs (p := 1) (pcfgs (F := F)) adm (pdats m) launch1.win launch1.arr_whole c
      ((pdats m 1 c).share_full fun _ => rfl) (V3 m c) fun _ => rfl
    rw [Pipeline.unscopedBufs_held] at hout
    rw [Pipeline.ownSems0_none]
    iintro ⟨⟨Hbufs, Hreg, Hdue⟩, -, -⟩
    ihave Hsplit := hout $$ Hbufs
    icases Hsplit with ⟨Harr, Hother⟩
    imodintro
    isplitl [Harr]; · iexact Harr
    isplitr
    · unfold Pipeline.prefHeld
      rw [show (Finset.univ : Finset (Fin 0)) = ∅ from rfl, BI.bigSep_empty]; iempintro
    isplitl [Hdue]
    · unfold Pipeline.Dat.owesAt Pipeline.owesWithin
      icases Hdue with ⟨%W, Hdue⟩
      iexists W; isplitr
      · ipureintro; exact fun _ _ => Or.inl trivial
      iexact Hdue
    isplitl [Hreg]; · iexact Hreg
    iexact Hother
  hin c := by
    rw [show (pdats m 1 c).Φ 0 = Pipeline.ΦA spec1 c from rfl]; unfold Pipeline.ΦA
    iintro ⟨Hreg, -, Hsc⟩
    isplitl [Hsc]; · iexact Hsc
    iexact Hreg
  hout c := by
    rw [Pipeline.ownSems0_none, show (pdats m 1 c).Φ (Fin.last _) = Pipeline.ΦA spec1 c from rfl]; unfold Pipeline.ΦA
    iintro ⟨Hsc, Hreg⟩
    isplitl [Hreg]; · iexact Hreg
    isplitr; · iempintro
    iexact Hsc
  hexit c := by
    have hback := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V3 m c) (V4 m c) ((pdats m 1 c).arrAt · cfg1.N) (leaves1 m c) (keeps1 m c)
    rw [Pipeline.unscopedBufs_held] at hback
    iintro ⟨Harr, Hdue, Hreg, Hother⟩
    imodintro
    isplitr [Hdue]
    · isplitl [Harr Hother]
      · iapply hback; isplitl [Harr]; · iexact Harr
        iexact Hother
      iexact Hreg
    unfold Pipeline.Dat.owesAt Pipeline.owesWithin
    icases Hdue with ⟨%W, -, Hdue⟩
    iexists W; iexact Hdue

/-! ## The program as its segments, and the launch -/

/-- The four segments in the program's order. -/
abbrev parts (hb0 : ∀ (V : (c : Dev nD) → (b : Ref sig .tc) → Buf (Elt F) ((c : Thread nD τ).loc b)) (c : Dev nD), BodyObligation (dat0 (F := F) V c) (defs₀ (F := F)) Variants.none () Set.univ)
    (hi0 : ∀ (V : (c : Dev nD) → (b : Ref sig .tc) → Buf (Elt F) ((c : Thread nD τ).loc b)) (c : Dev nD), (Pipeline.ΦA spec0 c : sProp 𝕄) ⊢ (dat0 V c).Φ 0)
    (ho0 : ∀ (V : (c : Dev nD) → (b : Ref sig .tc) → Buf (Elt F) ((c : Thread nD τ).loc b)) (c : Dev nD), (dat0 V c).Φ (Fin.last cfg0.N) ⊢ (Pipeline.ΦA spec0 c : sProp 𝕄)) :
    List (Pipeline.Seg (pcfgs (F := F)) adm (pdats m) () defs₀ Variants.none noPairs level0) :=
  [ .host (stretch hostOps0 hostOps0_sub hostOps0_fresh (W0 m)),
    .region (call0 m hb0 hi0 ho0),
    .host (stretch hostOps1 hostOps1_sub hostOps1_fresh (W2 m)),
    .region (call1 m) ]

/-- The program is the run of its segments: it is the chain of their fragments, item by item. -/
theorem main_parts (hb0 : ∀ (V : (c : Dev nD) → (b : Ref sig .tc) → Buf (Elt F) ((c : Thread nD τ).loc b)) (c : Dev nD), BodyObligation (dat0 (F := F) V c) (defs₀ (F := F)) Variants.none () Set.univ)
    (hi0 : ∀ (V : (c : Dev nD) → (b : Ref sig .tc) → Buf (Elt F) ((c : Thread nD τ).loc b)) (c : Dev nD), (Pipeline.ΦA spec0 c : sProp 𝕄) ⊢ (dat0 V c).Φ 0)
    (ho0 : ∀ (V : (c : Dev nD) → (b : Ref sig .tc) → Buf (Elt F) ((c : Thread nD τ).loc b)) (c : Dev nD), (dat0 V c).Φ (Fin.last cfg0.N) ⊢ (Pipeline.ΦA spec0 c : sProp 𝕄)) (c : Dev nD) :
    main (F := F) c = Pipeline.Seg.run (parts m hb0 hi0 ho0) := (main_chain c).trans (by chain_rfl)

set_option backward.isDefEq.respectTransparency.types false in
/-- THE RUN.  From any memory with zero counters every weakly fair execution of the program terminates, and in every
    final memory every unscoped buffer of every core holds the last contents of the fold. -/
theorem run_all (hb0 : ∀ (V : (c : Dev nD) → (b : Ref sig .tc) → Buf (Elt F) ((c : Thread nD τ).loc b)) (c : Dev nD), BodyObligation (dat0 (F := F) V c) (defs₀ (F := F)) Variants.none () Set.univ)
    (hi0 : ∀ (V : (c : Dev nD) → (b : Ref sig .tc) → Buf (Elt F) ((c : Thread nD τ).loc b)) (c : Dev nD), (Pipeline.ΦA spec0 c : sProp 𝕄) ⊢ (dat0 V c).Φ 0)
    (ho0 : ∀ (V : (c : Dev nD) → (b : Ref sig .tc) → Buf (Elt F) ((c : Thread nD τ).loc b)) (c : Dev nD), (dat0 V c).Φ (Fin.last cfg0.N) ⊢ (Pipeline.ΦA spec0 c : sProp 𝕄)) (m : (ℓ : Loc nD τ sig) → Buf (Elt F) ℓ) (ρ : Dev nD → PrngReg) : θ_run defs (onTc (τ := τ) (main (F := F))) ⟨m, fun _ => 0, ρ⟩ (fun r => ∀ c : Dev nD, ∀ b ∈ Pipeline.ucRefs τ sig, r.2.mem (((c : Thread nD τ)).1, b) = W4 m c b) :=
  Pipeline.θ_run_regions_kit (pcfgs (F := F)) adm (pdats m) () cellOf_inj emb₁ defs₀ Variants.none noPairs level0 m ρ main
    (parts m hb0 hi0 ho0)
    (fun c Q => by rw [main_parts m hb0 hi0 ho0 c])
    (by simp only [parts, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := at_ (W0 m)) (Tₙ := atEnd m)
    (hch := ⟨fun _ => .rfl, fun _ => .rfl, fun _ => .rfl, fun _ => .rfl, fun _ => .rfl⟩)
    (hinit := by
      refine Pipeline.initEach noPairs level0 fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hbufs, -, Hdue, -, Hreg, -⟩, -⟩
      imodintro
      isplitl [Hbufs]; · iexact Hbufs
      isplitl [Hreg]; · iexists _; iexact Hreg
      iexists ∅; iexact Hdue)
    (QY := fun c s => ∀ b ∈ Pipeline.ucRefs τ sig, s.mem (((c : Thread nD τ)).1, b) = W4 m c b)
    (hfin := fun c s' => by
      iintro ⟨⟨Hbufs, -⟩, HSI⟩
      unfold StableHlo.held
      imodintro
      iapply (pointsTo_read_all (Pipeline.ucRefs τ sig) (fun b => (((c : Thread nD τ)).1, b)) (W4 m c) s')
      isplitl [Hbufs]; · iexact Hbufs
      iexact HSI)
    (hQ := fun s h => h)

end Cert.Kernel.Hand

end
-- ==== Proof.Bits.RunArgs.lean ====
import proofs.«103844_j2207613190522_2_alg».proof.Proof.Bits.RunData
import proofs.«103844_j2207613190522_2_alg».proof.Proof.Gen.Kernel.Regions
import Idealize.ShloMosaic.Lib.Pipeline.Value

/-!
# The arguments reach the end as launched

No host operation writes an argument array and no call changes one: a call reads the points and the features through
input windows, whose arrays it leaves as entered, and bypasses the kernel points, the widths and the feature weights.
So the contents at the last boundary, read at an argument, walk back to the launch memory.
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- The first stretch leaves every buffer it does not write as launched. -/
theorem W1_of (c : Dev nD) (r : Ref sig .tc) (h : r ∉ hostOps0_W) : W1 m c r = W0 m c r :=
  StableHlo.after_of_writes_sub hostOps0 _ hostOps0_writes h

/-- The second stretch leaves every buffer it does not write as the first call left it. -/
theorem W3_of (c : Dev nD) (r : Ref sig .tc) (h : r ∉ hostOps1_W) : W3 m c r = W2 m c r :=
  StableHlo.after_of_writes_sub hostOps1 _ hostOps1_writes h

theorem W4_main_arg0 (c : Dev nD) : W4 m c (Proc.devRef .tc main_arg0) = m ((c : Thread nD τ).loc main_arg0) :=
  calc W4 m c (Proc.devRef .tc main_arg0)
    _ = W3 m c (Proc.devRef .tc main_arg0) := W4_of_ne m c main_arg0 (by decide)
    _ = W2 m c (Proc.devRef .tc main_arg0) := W3_of m c main_arg0 (by decide)
    _ = W1 m c (Proc.devRef .tc main_arg0) := (W2_arr m c 4).trans (((dat0 (V1 m) c).arrAt_in 4 rfl _).trans (A_eq0 (V1 m) c 4))
    _ = W0 m c (Proc.devRef .tc main_arg0) := W1_of m c main_arg0 (by decide)
    _ = m ((c : Thread nD τ).loc main_arg0) := rfl

theorem W3_main_arg1 (c : Dev nD) : W3 m c (Proc.devRef .tc main_arg1) = m ((c : Thread nD τ).loc main_arg1) :=
  calc W3 m c (Proc.devRef .tc main_arg1)
    _ = W2 m c (Proc.devRef .tc main_arg1) := W3_of m c main_arg1 (by decide)
    _ = W1 m c (Proc.devRef .tc main_arg1) := (W2_arr m c 5).trans (((dat0 (V1 m) c).arrAt_in 5 rfl _).trans (A_eq0 (V1 m) c 5))
    _ = W0 m c (Proc.devRef .tc main_arg1) := W1_of m c main_arg1 (by decide)
    _ = m ((c : Thread nD τ).loc main_arg1) := rfl

theorem W4_main_arg1 (c : Dev nD) : W4 m c (Proc.devRef .tc main_arg1) = m ((c : Thread nD τ).loc main_arg1) :=
  ((W4_arr m c 0).trans (((dat1 (V3 m) c).arrAt_in 0 rfl _).trans (A_eq1 (V3 m) c 0))).trans (W3_main_arg1 m c)

theorem W4_main_arg2 (c : Dev nD) : W4 m c (Proc.devRef .tc main_arg2) = m ((c : Thread nD τ).loc main_arg2) :=
  calc W4 m c (Proc.devRef .tc main_arg2)
    _ = W3 m c (Proc.devRef .tc main_arg2) := W4_of_ne m c main_arg2 (by decide)
    _ = W2 m c (Proc.devRef .tc main_arg2) := W3_of m c main_arg2 (by decide)
    _ = W1 m c (Proc.devRef .tc main_arg2) := W2_of_ne m c main_arg2 (by decide)
    _ = W0 m c (Proc.devRef .tc main_arg2) := W1_of m c main_arg2 (by decide)
    _ = m ((c : Thread nD τ).loc main_arg2) := rfl

theorem W4_main_arg3 (c : Dev nD) : W4 m c (Proc.devRef .tc main_arg3) = m ((c : Thread nD τ).loc main_arg3) :=
  calc W4 m c (Proc.devRef .tc main_arg3)
    _ = W3 m c (Proc.devRef .tc main_arg3) := W4_of_ne m c main_arg3 (by decide)
    _ = W2 m c (Proc.devRef .tc main_arg3) := W3_of m c main_arg3 (by decide)
    _ = W1 m c (Proc.devRef .tc main_arg3) := W2_of_ne m c main_arg3 (by decide)
    _ = W0 m c (Proc.devRef .tc main_arg3) := W1_of m c main_arg3 (by decide)
    _ = m ((c : Thread nD τ).loc main_arg3) := rfl

theorem W4_main_arg4 (c : Dev nD) : W4 m c (Proc.devRef .tc main_arg4) = m ((c : Thread nD τ).loc main_arg4) :=
  calc W4 m c (Proc.devRef .tc main_arg4)
    _ = W3 m c (Proc.devRef .tc main_arg4) := W4_of_ne m c main_arg4 (by decide)
    _ = W2 m c (Proc.devRef .tc main_arg4) := W3_of m c main_arg4 (by decide)
    _ = W1 m c (Proc.devRef .tc main_arg4) := W2_of_ne m c main_arg4 (by decide)
    _ = W0 m c (Proc.devRef .tc main_arg4) := W1_of m c main_arg4 (by decide)
    _ = m ((c : Thread nD τ).loc main_arg4) := rfl

/-- The result buffer at the end holds what the second call's write-backs leave. -/
theorem W4_main_v9 (c : Dev nD) : W4 m c (Proc.devRef .tc main_v9) = (dat1 (V3 m) c).arrAt 2 cfg1.N :=
  W4_arr m c 2

end Cert.Kernel.Hand

end
-- ==== Proof.RefValue1.lean ====
import proofs.«103844_j2207613190522_2_alg».proof.Proof.Gen.ReferenceIdeal.Read
import proofs.«103844_j2207613190522_2_alg».proof.Proof.Args

/-!
# The reference's kernel-feature matrix, entry by entry

The reference's stages up to the scaled product are read at an index: the squared distance of a point and a
kernel point as the sum over the three coordinates of the squared differences (the sum's zero initial value
dropped), the quotient by the squared width, the exponential — the specification's weight — and then the sum
over all points of weight times feature, scaled by the feature weight: the specification's matrix QF.
-/

noncomputable section

namespace Cert.ReferenceIdeal.RefValue

open Cert.ReferenceIdeal Cert.ReferenceIdeal.Read Cert.Spec
open Idealize.ShloMosaic Idealize.ShloMosaic.ValueIdx
open scoped BigOperators

/-! ## Where the broadcasts read their operands -/

/-- The point array under its two broadcasts is read at (point, coordinate). -/
theorem idx_point (k : Fin 85) (r : Fin 262144) (d : Fin 3) :
    idx_main_v0 (idx_main_v2 (idx_main_v6 (ix2 k r) d)) = ix2 r d :=
  funext fun a => Fin.ext (by match a with | ⟨0, _⟩ => rfl | ⟨1, _⟩ => rfl)

/-- The kernel-point array under its two broadcasts is read at (kernel point, coordinate). -/
theorem idx_kpoint (k : Fin 85) (r : Fin 262144) (d : Fin 3) :
    idx_main_v1 (idx_main_v3 (idx_main_v6 (ix2 k r) d)) = ix2 k d :=
  funext fun a => Fin.ext (by match a with | ⟨0, _⟩ => rfl | ⟨1, _⟩ => rfl)

/-- The squared widths under their two broadcasts are read at the kernel point. -/
theorem idx_width (k : Fin 85) (r : Fin 262144) :
    idx_main_v8 (idx_main_v9 (ix2 k r)) = ix1 k :=
  funext fun a => Fin.ext (by match a with | ⟨0, _⟩ => rfl)

/-- The weight matrix's row and the feature array's column met by the sum over the points. -/
theorem idx_wl (k : Fin 85) (f : Fin 16) (r : Fin 262144) : lidx_main_v12 (ix2 k f) r = ix2 k r :=
  funext fun a => Fin.ext (by match a with | ⟨0, _⟩ => rfl | ⟨1, _⟩ => rfl)
theorem idx_wr (k : Fin 85) (f : Fin 16) (r : Fin 262144) : ridx_main_v12 (ix2 k f) r = ix2 r f :=
  funext fun a => Fin.ext (by match a with | ⟨0, _⟩ => rfl | ⟨1, _⟩ => rfl)

/-- The feature weights under their two broadcasts are read at the feature. -/
theorem idx_fw (k : Fin 85) (f : Fin 16) : idx_main_v13 (idx_main_v14 (ix2 k f)) = ix1 f :=
  funext fun a => Fin.ext (by match a with | ⟨0, _⟩ => rfl)

/-! ## The weight and the kernel-feature matrix -/

/-- The exponential stage at (kernel point, point) is the specification's weight. -/
theorem weight_eq (a0 : FVec Ideal S262144x3 .f32) (a2 : FVec Ideal S85x3 .f32) (a3 : FVec Ideal S85 .f32)
    (k : Fin 85) (r : Fin 262144) :
    val_main_v11 (F := Ideal) a0 a2 a3 (ix2 k r) = wRef (mat a0) (mat a2) (vec a3) k r := by
  rw [val_main_v11_apply, val_main_v10_apply, val_main_v6_apply, val_main_v9_apply, val_main_v8_apply,
    val_main_v7_apply, idx_width]
  simp only [val_main_v5_apply, val_main_v4_apply, val_main_v2_apply, val_main_v0_apply, val_main_v3_apply,
    val_main_v1_apply, val_main_cst_apply, idx_point, idx_kpoint, Ideal.hostUnary_exp_def, Ideal.hostDivf_def,
    Ideal.mulf_def, Ideal.subf_def, Ideal.ofBits_def, Ideal.ofBits_zero_f32, zero_add]
  rfl

/-- The scaled product stage at (kernel point, feature) is the specification's kernel-feature matrix. -/
theorem qf_eq (a0 : FVec Ideal S262144x3 .f32) (a1 : FVec Ideal S262144x16 .f32) (a2 : FVec Ideal S85x3 .f32)
    (a3 : FVec Ideal S85 .f32) (a4 : FVec Ideal S16 .f32) (k : Fin 85) (f : Fin 16) :
    val_main_v15 (F := Ideal) a0 a1 a2 a3 a4 (ix2 k f)
      = qfRef (mat a0) (mat a1) (mat a2) (vec a3) (vec a4) k f := by
  rw [val_main_v15_apply, val_main_v14_apply, val_main_v13_apply, idx_fw, val_main_v12_apply]
  simp only [idx_wl, idx_wr, weight_eq, Ideal.mulf_def]
  rfl

end Cert.ReferenceIdeal.RefValue

end
-- ==== Proof.RefValue2.lean ====
import proofs.«103844_j2207613190522_2_alg».proof.Proof.RefValue1

/-!
# The reference's two products with the kernel-feature matrix, entry by entry

The features against the rows of the kernel-feature matrix QF (through its transpose), and those products
against QF's columns: each a sum over the one contracted coordinate, QF's entries the specification's.
-/

noncomputable section

namespace Cert.ReferenceIdeal.RefValue

open Cert.ReferenceIdeal Cert.ReferenceIdeal.Read Cert.Spec
open Idealize.ShloMosaic Idealize.ShloMosaic.ValueIdx
open scoped BigOperators

/-- The feature array's row met by the sum over the features. -/
theorem idx_fl (r : Fin 262144) (k : Fin 85) (f : Fin 16) : lidx_main_v17 (ix2 r k) f = ix2 r f :=
  funext fun a => Fin.ext (by match a with | ⟨0, _⟩ => rfl | ⟨1, _⟩ => rfl)

/-- The transposed matrix at (feature, kernel point) is the matrix at (kernel point, feature). -/
theorem idx_ft (r : Fin 262144) (k : Fin 85) (f : Fin 16) :
    idx_main_v16 (ridx_main_v17 (ix2 r k) f) = ix2 k f :=
  funext fun a => Fin.ext (by match a with | ⟨0, _⟩ => rfl | ⟨1, _⟩ => rfl)

/-- The first product's row and the matrix's column met by the sum over the kernel points. -/
theorem idx_pl (r : Fin 262144) (f : Fin 16) (k : Fin 85) : lidx_main_v18 (ix2 r f) k = ix2 r k :=
  funext fun a => Fin.ext (by match a with | ⟨0, _⟩ => rfl | ⟨1, _⟩ => rfl)
theorem idx_pr (r : Fin 262144) (f : Fin 16) (k : Fin 85) : ridx_main_v18 (ix2 r f) k = ix2 k f :=
  funext fun a => Fin.ext (by match a with | ⟨0, _⟩ => rfl | ⟨1, _⟩ => rfl)

/-- The first product at (point, kernel point): the point's features against row k of QF. -/
theorem prod1_eq (a0 : FVec Ideal S262144x3 .f32) (a1 : FVec Ideal S262144x16 .f32) (a2 : FVec Ideal S85x3 .f32)
    (a3 : FVec Ideal S85 .f32) (a4 : FVec Ideal S16 .f32) (r : Fin 262144) (k : Fin 85) :
    val_main_v17 (F := Ideal) a0 a1 a2 a3 a4 (ix2 r k)
      = ∑ f : Fin 16, mat a1 r f * qfRef (mat a0) (mat a1) (mat a2) (vec a3) (vec a4) k f := by
  rw [val_main_v17_apply]
  simp only [val_main_v16_apply, idx_fl, idx_ft, qf_eq]
  rfl

/-- The second product at (point, feature): the first products against column f of QF. -/
theorem prod2_eq (a0 : FVec Ideal S262144x3 .f32) (a1 : FVec Ideal S262144x16 .f32) (a2 : FVec Ideal S85x3 .f32)
    (a3 : FVec Ideal S85 .f32) (a4 : FVec Ideal S16 .f32) (r : Fin 262144) (f : Fin 16) :
    val_main_v18 (F := Ideal) a0 a1 a2 a3 a4 (ix2 r f)
      = ∑ k : Fin 85, (∑ f' : Fin 16, mat a1 r f' * qfRef (mat a0) (mat a1) (mat a2) (vec a3) (vec a4) k f')
          * qfRef (mat a0) (mat a1) (mat a2) (vec a3) (vec a4) k f := by
  rw [val_main_v18_apply]
  simp only [idx_pl, idx_pr, prod1_eq, qf_eq]

end Cert.ReferenceIdeal.RefValue

end
-- ==== Proof.RefValue.lean ====
import proofs.«103844_j2207613190522_2_alg».proof.Proof.RefValue2

/-!
# The reference's result array is the specification's

The result joins, along the columns, the features (16 columns), their products with the rows of the
kernel-feature matrix QF (85 columns) and those products against QF's columns (16 columns). A column below 16
reads the first piece, one from 16 and below 101 the second at the column less 16, one from 101 the third at the
column less 101: the three cases of the specification's row function. With the pieces read entry by entry, the
reference's composed term is the specification's result of the argument arrays, and its run ends there.
-/

noncomputable section

namespace Cert.ReferenceIdeal.RefValue

open Cert.ReferenceIdeal Cert.ReferenceIdeal.Gen Cert.ReferenceIdeal.Read Cert.Spec
open Idealize.ShloMosaic Idealize.ShloMosaic.ValueIdx Idealize.ShloMosaic.TcCoe Idealize.SL.Sem
open scoped BigOperators

/-! ## The three pieces along the columns -/

section Pieces
variable {α : Type} (x : S262144x16.Idx → α) (y : S262144x85.Idx → α) (z : S262144x16.Idx → α)
  (hc : Shape.Concatenates [S262144x16, S262144x85, S262144x16] S262144x117 1) (r : Fin 262144) (col : Fin 117)

/-- A column below 16 reads the first piece. -/
theorem cat_fst (h : col.val < 16) :
    concatenate S262144x117 1 [⟨S262144x16, x⟩, ⟨S262144x85, y⟩, ⟨S262144x16, z⟩] hc (ix2 r col)
      = x (ix2 r ⟨col.val, h⟩) :=
  concatenate_apply_piece (t := S262144x117) 1 [⟨S262144x16, x⟩, ⟨S262144x85, y⟩, ⟨S262144x16, z⟩] hc (ix2 r col) 0
    (by show 0 < 3; omega) S262144x16 x rfl rfl 0 rfl (ix2 r ⟨col.val, h⟩)
    (fun b hb => by
      match b with
      | ⟨0, _⟩ => rfl
      | ⟨1, _⟩ => exact absurd rfl hb)
    (Nat.zero_add _)

/-- A column from 16 and below 101 reads the second piece, 16 less. -/
theorem cat_snd (h1 : 16 ≤ col.val) (h2 : col.val < 101) :
    concatenate S262144x117 1 [⟨S262144x16, x⟩, ⟨S262144x85, y⟩, ⟨S262144x16, z⟩] hc (ix2 r col)
      = y (ix2 r ⟨col.val - 16, by omega⟩) :=
  concatenate_apply_piece (t := S262144x117) 1 [⟨S262144x16, x⟩, ⟨S262144x85, y⟩, ⟨S262144x16, z⟩] hc (ix2 r col) 1
    (by show 1 < 3; omega) S262144x85 y rfl rfl 16 rfl (ix2 r ⟨col.val - 16, by omega⟩)
    (fun b hb => by
      match b with
      | ⟨0, _⟩ => rfl
      | ⟨1, _⟩ => exact absurd rfl hb)
    (by show 16 + (col.val - 16) = col.val; omega)

/-- A column from 101 reads the third piece, 101 less. -/
theorem cat_trd (h2 : 101 ≤ col.val) :
    concatenate S262144x117 1 [⟨S262144x16, x⟩, ⟨S262144x85, y⟩, ⟨S262144x16, z⟩] hc (ix2 r col)
      = z (ix2 r ⟨col.val - 101, by have := col.isLt; omega⟩) :=
  concatenate_apply_piece (t := S262144x117) 1 [⟨S262144x16, x⟩, ⟨S262144x85, y⟩, ⟨S262144x16, z⟩] hc (ix2 r col) 2
    (by show 2 < 3; omega) S262144x16 z rfl rfl 101 rfl (ix2 r ⟨col.val - 101, by have := col.isLt; omega⟩)
    (fun b hb => by
      match b with
      | ⟨0, _⟩ => rfl
      | ⟨1, _⟩ => exact absurd rfl hb)
    (by show 101 + (col.val - 101) = col.val; omega)

end Pieces

/-! ## The result -/

/-- The reference's composed term of the five argument arrays is the specification's result array. -/
theorem result_eq (a0 : FVec Ideal S262144x3 .f32) (a1 : FVec Ideal S262144x16 .f32) (a2 : FVec Ideal S85x3 .f32)
    (a3 : FVec Ideal S85 .f32) (a4 : FVec Ideal S16 .f32) :
    val_main_v19 (F := Ideal) a0 a1 a2 a3 a4 = resRef a0 a1 a2 a3 a4 := by
  funext j
  obtain ⟨r, col, rfl⟩ : ∃ (r : Fin 262144) (col : Fin 117), j = ix2 r col := ⟨j 0, j 1, eq_ix2 j⟩
  unfold val_main_v19
  show _ = outOf (mat a1) (qfRef (mat a0) (mat a1) (mat a2) (vec a3) (vec a4)) r col
  unfold outOf
  by_cases h : col.val < 16
  · rw [dif_pos h, cat_fst _ _ _ _ r col h]
    rfl
  · rw [dif_neg h]
    by_cases h2 : col.val < 101
    · rw [dif_pos h2, cat_snd _ _ _ _ r col (by omega) h2, prod1_eq]
    · rw [dif_neg h2, cat_trd _ _ _ _ r col (by omega), prod2_eq]

/-- Every weakly fair execution of the reference terminates with its result array at the specification's
    result of the argument arrays, and the arguments unchanged. -/
theorem run_spec (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩ (fun r => ∀ c : Dev Cert.ReferenceIdeal.nD,
      r.2.mem ((c.tc : Thread Cert.ReferenceIdeal.nD Cert.ReferenceIdeal.τ).loc Cert.ReferenceIdeal.main_v19)
        = Cert.Spec.resRef (m ((c.tc : Thread Cert.ReferenceIdeal.nD Cert.ReferenceIdeal.τ).loc Cert.ReferenceIdeal.main_arg0))
            (m ((c.tc : Thread Cert.ReferenceIdeal.nD Cert.ReferenceIdeal.τ).loc Cert.ReferenceIdeal.main_arg1))
            (m ((c.tc : Thread Cert.ReferenceIdeal.nD Cert.ReferenceIdeal.τ).loc Cert.ReferenceIdeal.main_arg2))
            (m ((c.tc : Thread Cert.ReferenceIdeal.nD Cert.ReferenceIdeal.τ).loc Cert.ReferenceIdeal.main_arg3))
            (m ((c.tc : Thread Cert.ReferenceIdeal.nD Cert.ReferenceIdeal.τ).loc Cert.ReferenceIdeal.main_arg4))
      ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)) :=
  (θ_run Cert.ReferenceIdeal.defs _ _).mono
    (fun _ h c => ⟨(h c).1.trans ((val_main_v19_eq m c).trans (result_eq _ _ _ _ _)), (h c).2⟩)
    (Cert.ReferenceIdeal.Value.run (F := Ideal) m ρ)

end Cert.ReferenceIdeal.RefValue

end
-- ==== Proof.PreDecode.lean ====
/-
  The precondition `finite_inputs`, read at the ideal instance, where a float value is an extended real.

  The predicate is a conjunction of six tests, each a `jnp.all` over one argument array: for each of the five arrays,
  "|entry| < +inf" at every index, and for the fourth array (the widths) also "entry ≠ 0" at every index. It prints as a
  chain of one-bit `and`s of six reductions by `and`, and the claim's hypothesis says the chain's one result is 1.

  A chain of `and`s is 1 exactly when each link is 1. A reduction by `and` over every axis that is 1 had a 1 at every
  index. So each test holds entry by entry, and what is left is a fact about ONE extended real x:
    * max x (-x) < ⊤ leaves only a real x: at x = ⊤ the maximum is ⊤, at x = ⊥ it is -⊥ = ⊤, and ⊤ < ⊤ is false. (The word
      0x7F800000 is the pattern of +inf, which denotes ⊤.)
    * x ≠ 0 for a real x is the same inequality in ℝ. The printed comparison is the UNORDERED "not equal"; on a linear
      order nothing is unordered, so it answers as plain ≠. (The word 0x00000000 denotes 0.)
-/
import proofs.«103844_j2207613190522_2_alg».proof.Pre_finite_inputs
import Idealize.ShloMosaic.Lib.ValueIdx
import Idealize.ShloMosaic.Lib.ReduceAll
import Idealize.ShloMosaic.PureOps.Ideal.Laws

noncomputable section

namespace Cert.PreDecode

open Idealize.ShloMosaic Idealize.ShloMosaic.ValueIdx
open Cert.Pre_finite_inputs

/-- The scalar shape has one index. -/
instance : Subsingleton S_.Idx := ⟨fun a b => funext fun d => d.elim0⟩

/-! ## One extended real -/

/-- The pattern of +inf denotes the top of the extended reals. -/
theorem inf_word : Ideal.ofBits .f32 0x7F800000#32 = (⊤ : EReal) := by
  simp [Ideal.ofBits, Ideal.ieee]

/-- An extended real whose absolute value max x (-x) is strictly below +inf is a real: both infinities have
    absolute value ⊤, which is not below itself. -/
theorem real_of_abs_lt_inf (x : EReal)
    (h : Ideal.cmp .olt (max x (-x)) (Ideal.ofBits .f32 0x7F800000#32) = 1#1) : ∃ r : ℝ, x = (r : EReal) := by
  rw [inf_word] at h
  unfold Ideal.cmp at h
  induction x using EReal.rec with
  | bot => simp at h
  | coe r => exact ⟨r, rfl⟩
  | top => simp at h

/-- A real that the (unordered) "not equal" tells apart from the zero pattern is not 0. -/
theorem ne_zero_of_une (r : ℝ)
    (h : Ideal.cmp .une (r : EReal) (Ideal.ofBits .f32 0x00000000#32) = 1#1) : r ≠ 0 := by
  rw [Ideal.ofBits_zero_f32] at h
  unfold Ideal.cmp at h
  intro hr
  subst hr
  simp at h

/-! ## One array -/

/-- `jnp.all(|a| < inf)` is 1: every entry of `a` is a real. Stated for any shape, so each of the five arrays is one use. -/
theorem all_real {s : Shape} {axes : List (Fin s.rank)} (a : FVec Ideal s .f32)
    (hb : S_.BroadcastsInDim s (![] : Fin 0 → Fin s.rank)) (hr : s.ReducesTo axes S_) (hn : 0 < S_.numel)
    (e : Host.reduce IntOp.andi
          (cmpf .olt (Host.absf a) (broadcastInDim s ![] hb (constant (F := Ideal) S_ .f32 0x7F800000#32)))
          (constantI S_ 1 1#1) hr hn ix0 = 1#1)
    (i : s.Idx) : ∃ x : ℝ, a i = (x : EReal) :=
  real_of_abs_lt_inf (a i) (Host.reduce_andi_all _ _ hr hn ix0 e i)

/-- `jnp.all(a != 0)` is 1: an entry of `a` that is the real x has x ≠ 0. -/
theorem all_ne_zero {s : Shape} {axes : List (Fin s.rank)} (a : FVec Ideal s .f32)
    (hb : S_.BroadcastsInDim s (![] : Fin 0 → Fin s.rank)) (hr : s.ReducesTo axes S_) (hn : 0 < S_.numel)
    (e : Host.reduce IntOp.andi
          (cmpf .une a (broadcastInDim s ![] hb (constant (F := Ideal) S_ .f32 0x00000000#32)))
          (constantI S_ 1 1#1) hr hn ix0 = 1#1)
    (i : s.Idx) (x : ℝ) (hx : a i = (x : EReal)) : x ≠ 0 := by
  have hi : Ideal.cmp .une (a i) (Ideal.ofBits .f32 0x00000000#32) = 1#1 := Host.reduce_andi_all _ _ hr hn ix0 e i
  rw [hx] at hi
  exact ne_zero_of_une x hi

/-! ## The predicate -/

/-- THE PRECONDITION DECODED: where `finite_inputs` answers 1, every entry of the five argument arrays is a real
    number, and every entry of the fourth (the widths) is a nonzero one. -/
theorem decode [Cert.Pre_finite_inputs.Facts]
    (a0 : FVec Ideal S262144x3 .f32) (a1 : FVec Ideal S262144x16 .f32) (a2 : FVec Ideal S85x3 .f32)
    (a3 : FVec Ideal S85 .f32) (a4 : FVec Ideal S16 .f32)
    (h : Cert.Pre_finite_inputs.fn (F := Ideal) a0 a1 a2 a3 a4 = fun _ => 1#1) :
    (∀ i, ∃ x : ℝ, a0 i = (x : EReal)) ∧ (∀ i, ∃ x : ℝ, a1 i = (x : EReal)) ∧ (∀ i, ∃ x : ℝ, a2 i = (x : EReal))
    ∧ (∀ i, ∃ x : ℝ, a3 i = (x : EReal) ∧ x ≠ 0) ∧ (∀ i, ∃ x : ℝ, a4 i = (x : EReal)) := by
  have e := congrFun h ix0
  dsimp only [fn, fn_part1] at e
  simp only [andi, IntOp.andi_eq_one] at e
  obtain ⟨⟨⟨⟨⟨h0, h1⟩, h2⟩, h3⟩, h4⟩, h5⟩ := e
  refine ⟨fun i => all_real a0 _ _ _ h0 i, fun i => all_real a1 _ _ _ h1 i, fun i => all_real a2 _ _ _ h2 i,
    fun i => ?_, fun i => all_real a4 _ _ _ h4 i⟩
  obtain ⟨x, hx⟩ := all_real a3 _ _ _ h3 i
  exact ⟨x, hx, all_ne_zero a3 _ _ _ h5 i x hx⟩

end Cert.PreDecode

end
-- ==== Proof.Algebra1.lean ====
import proofs.«103844_j2207613190522_2_alg».proof.Proof.Spec

/-!
# The two weights are one real number

With real entries and a nonzero width, the reference's weight exp(Σ_d (x_d − q_d)² / o²) and the kernel's
weight exp(max(|x|² + |q|² − 2 x·q, 0) / o²) are the same real number: the expanded square is the sum of
squares, which is nonnegative, so the clamp at zero does nothing.
-/

noncomputable section

namespace Cert.Spec

open Idealize.ShloMosaic
open scoped BigOperators

/-- The pattern 0x40000000 denotes the real number 2. -/
theorem two_eq : two = ((2 : ℝ) : EReal) := by
  unfold two
  simp [Ideal.ofBits, Ideal.ieee, -EReal.coe_mul]; norm_num

/-- The coercion of a finite real sum is the sum of the coercions. -/
theorem coe_sum {ι : Type*} (s : Finset ι) (g : ι → ℝ) :
    ((∑ i ∈ s, g i : ℝ) : EReal) = ∑ i ∈ s, (g i : EReal) := by
  classical
  induction s using Finset.induction_on with
  | empty => simp
  | insert a s ha ih => rw [Finset.sum_insert ha, Finset.sum_insert ha, EReal.coe_add, ih]

/-- The weight of row x against kernel point q at width o, as a real number. -/
def wReal (x q : Fin 3 → ℝ) (o : ℝ) : ℝ :=
  Real.exp ((∑ d : Fin 3, (x d - q d) * (x d - q d)) * (1 / (o * o)))

/-- The reference's weight at real entries and a nonzero width. -/
theorem wRef_coe (x : Fin 262144 → Fin 3 → ℝ) (q : Fin 85 → Fin 3 → ℝ) (o : Fin 85 → ℝ)
    (ho : ∀ k, o k ≠ 0) (k : Fin 85) (r : Fin 262144) :
    wRef (fun r d => (x r d : EReal)) (fun k d => (q k d : EReal)) (fun k => (o k : EReal)) k r
      = ((wReal (x r) (q k) (o k) : ℝ) : EReal) := by
  have hoo : o k * o k ≠ 0 := mul_ne_zero (ho k) (ho k)
  unfold wRef wReal
  simp only [← EReal.coe_sub, ← EReal.coe_mul, ← coe_sum]
  rw [Ideal.div_coe hoo, ← EReal.coe_mul, Ideal.exp_coe]

/-- The kernel's weight at real entries and a nonzero width: the same real number. -/
theorem wKer_coe (x : Fin 262144 → Fin 3 → ℝ) (q : Fin 85 → Fin 3 → ℝ) (o : Fin 85 → ℝ)
    (ho : ∀ k, o k ≠ 0) (r : Fin 262144) (k : Fin 85) :
    wKer (fun r d => (x r d : EReal)) (fun k d => (q k d : EReal)) (fun k => (o k : EReal)) r k
      = ((wReal (x r) (q k) (o k) : ℝ) : EReal) := by
  have hoo : o k * o k ≠ 0 := mul_ne_zero (ho k) (ho k)
  have hsq : (x r 0 * x r 0 + x r 1 * x r 1 + x r 2 * x r 2 + ∑ d : Fin 3, q k d * q k d)
      - 2 * (x r 0 * q k 0 + x r 1 * q k 1 + x r 2 * q k 2)
      = ∑ d : Fin 3, (x r d - q k d) * (x r d - q k d) := by
    simp only [Fin.sum_univ_three]; ring
  have hnn : (0 : ℝ) ≤ ∑ d : Fin 3, (x r d - q k d) * (x r d - q k d) :=
    Finset.sum_nonneg fun d _ => mul_self_nonneg _
  unfold wKer wReal
  rw [two_eq]
  simp only [← EReal.coe_sub, ← EReal.coe_mul, ← EReal.coe_add, ← coe_sum]
  rw [hsq, max_eq_left (EReal.coe_nonneg.mpr hnn), Ideal.div_coe hoo, ← EReal.coe_mul, Ideal.exp_coe]

end Cert.Spec

end
-- ==== Proof.Algebra2.lean ====
import proofs.«103844_j2207613190522_2_alg».proof.Proof.Spec

/-!
# The 2 × 32 blocks of 4096 rows are all the rows, each once

Half c at step i reads the rows (c·32 + i)·4096 + y, y < 4096.  For c < 2 and i < 32 that number is below
262144 = 2·32·4096, so the remainder in the row's definition changes nothing, and (c, i, y) ↦ row c i y is
the mixed-radix numbering of the rows: a bijection.  A sum over the halves, the steps and the rows of a block
is therefore the sum over all rows.
-/

noncomputable section

namespace Cert.Spec

open scoped BigOperators

/-- The row that half c reads at step i in place y, as a function of the triple. -/
def rowOf (p : Fin 2 × Fin 32 × Fin 4096) : Fin 262144 := row p.1 p.2.1.val p.2.2

/-- Different triples are different rows: the number (c·32 + i)·4096 + y determines its three digits. -/
theorem rowOf_injective : Function.Injective rowOf := by
  rintro ⟨c, i, y⟩ ⟨c', i', y'⟩ h
  have h' : ((c.val * 32 + i.val) * 4096 + y.val) % 262144
      = ((c'.val * 32 + i'.val) * 4096 + y'.val) % 262144 := congrArg Fin.val h
  have hc := c.isLt
  have hc' := c'.isLt
  have hi := i.isLt
  have hi' := i'.isLt
  have hy := y.isLt
  have hy' := y'.isLt
  have hall : c.val = c'.val ∧ i.val = i'.val ∧ y.val = y'.val := by omega
  exact Prod.ext (Fin.ext hall.1) (Prod.ext (Fin.ext hall.2.1) (Fin.ext hall.2.2))

/-- There are as many triples as rows, so the numbering is onto as well. -/
theorem rowOf_bijective : Function.Bijective rowOf :=
  (Fintype.bijective_iff_injective_and_card rowOf).mpr
    ⟨rowOf_injective, by simp only [Fintype.card_prod, Fintype.card_fin]⟩

/-- A sum over the halves, the 32 steps and a block's 4096 rows is the sum over all 262144 rows. -/
theorem sum_rows {M : Type*} [AddCommMonoid M] (g : Fin 262144 → M) :
    ∑ c : Fin 2, ∑ i ∈ Finset.range 32, ∑ y : Fin 4096, g (row c i y) = ∑ r : Fin 262144, g r :=
  calc ∑ c : Fin 2, ∑ i ∈ Finset.range 32, ∑ y : Fin 4096, g (row c i y)
      = ∑ c : Fin 2, ∑ i : Fin 32, ∑ y : Fin 4096, g (rowOf (c, i, y)) := by
        refine Finset.sum_congr rfl fun c _ => ?_
        rw [Finset.sum_range]; rfl
    _ = ∑ p : Fin 2 × Fin 32 × Fin 4096, g (rowOf p) := by
        rw [Fintype.sum_prod_type]
        refine Finset.sum_congr rfl fun c _ => ?_
        rw [Fintype.sum_prod_type]
    _ = ∑ r : Fin 262144, g r :=
        Fintype.sum_bijective rowOf rowOf_bijective _ _ (fun _ => rfl)

end Cert.Spec

end
-- ==== Proof.Algebra.lean ====
import proofs.«103844_j2207613190522_2_alg».proof.Proof.Algebra1
import proofs.«103844_j2207613190522_2_alg».proof.Proof.Algebra2

/-!
# The kernel's and the reference's kernel-feature matrices agree on real arguments

With real entries and nonzero widths every weight is a real number, so every partial sum, every running
total and both matrices are coercions of real numbers.  In ℝ the kernel's matrix is
Σ_c (Σ_{i<32} Σ_y t(row c i y)) · o and the reference's is o · Σ_r t(r), with t(r) = w(r,k) · Fm r f:
the blocks are all the rows once, and the factor o moves across the sum.  The algebra is done in ℝ and
coerced once, because on the extended reals a factor does not move across a sum at the infinities.
-/

noncomputable section

namespace Cert.Spec

open Idealize.ShloMosaic
open scoped BigOperators

section RealEntries

variable (x : Fin 262144 → Fin 3 → ℝ) (fm : Fin 262144 → Fin 16 → ℝ) (q : Fin 85 → Fin 3 → ℝ)
  (o : Fin 85 → ℝ)

/-- One step's partial sum is the coercion of the real partial sum. -/
theorem part_coe (ho : ∀ k, o k ≠ 0) (c : Fin 2) (i : ℕ) (k : Fin 85) (f : Fin 16) :
    part (fun r d => (x r d : EReal)) (fun r f => (fm r f : EReal)) (fun k d => (q k d : EReal))
        (fun k => (o k : EReal)) c i k f
      = ((∑ y : Fin 4096, wReal (x (row c i y)) (q k) (o k) * fm (row c i y) f : ℝ) : EReal) := by
  unfold part
  simp only [wKer_coe x q o ho, ← EReal.coe_mul, ← coe_sum]

/-- The running total after step n is the coercion of the real sum of the partial sums of steps 0 … n. -/
theorem total_coe (ho : ∀ k, o k ≠ 0) (c : Fin 2) (n : ℕ) (k : Fin 85) (f : Fin 16) :
    total (fun r d => (x r d : EReal)) (fun r f => (fm r f : EReal)) (fun k d => (q k d : EReal))
        (fun k => (o k : EReal)) c n k f
      = ((∑ i ∈ Finset.range (n + 1), ∑ y : Fin 4096,
            wReal (x (row c i y)) (q k) (o k) * fm (row c i y) f : ℝ) : EReal) := by
  induction n with
  | zero =>
    show 0 + part _ _ _ _ c 0 k f = _
    rw [zero_add, part_coe x fm q o ho, Finset.sum_range_one]
  | succ n ih =>
    show total _ _ _ _ c n k f + part _ _ _ _ c (n + 1) k f = _
    rw [ih, part_coe x fm q o ho, ← EReal.coe_add, ← Finset.sum_range_succ]

/-- The total after the 32 steps 0 … 31. -/
theorem total_31 (ho : ∀ k, o k ≠ 0) (c : Fin 2) (k : Fin 85) (f : Fin 16) :
    total (fun r d => (x r d : EReal)) (fun r f => (fm r f : EReal)) (fun k d => (q k d : EReal))
        (fun k => (o k : EReal)) c 31 k f
      = ((∑ i ∈ Finset.range 32, ∑ y : Fin 4096,
            wReal (x (row c i y)) (q k) (o k) * fm (row c i y) f : ℝ) : EReal) :=
  total_coe x fm q o ho c 31 k f

end RealEntries

/-- On real arguments with nonzero widths the two kernel-feature matrices are one function. -/
theorem qfKer_eq_qfRef (X : Fin 262144 → Fin 3 → EReal) (Fm : Fin 262144 → Fin 16 → EReal) (Q : Fin 85 → Fin 3 → EReal)
    (oD : Fin 85 → EReal) (oF : Fin 16 → EReal)
    (hX : ∀ r d, ∃ x : ℝ, X r d = (x : EReal)) (hF : ∀ r f, ∃ x : ℝ, Fm r f = (x : EReal))
    (hQ : ∀ k d, ∃ x : ℝ, Q k d = (x : EReal)) (hD : ∀ k, ∃ x : ℝ, oD k = (x : EReal) ∧ x ≠ 0)
    (hO : ∀ f, ∃ x : ℝ, oF f = (x : EReal)) :
    qfKer X Fm Q oD oF = qfRef X Fm Q oD oF := by
  choose x hx using hX
  choose fm hfm using hF
  choose q hq using hQ
  choose o ho ho0 using hD
  choose w hw using hO
  obtain rfl : X = fun r d => (x r d : EReal) := funext fun r => funext fun d => hx r d
  obtain rfl : Fm = fun r f => (fm r f : EReal) := funext fun r => funext fun f => hfm r f
  obtain rfl : Q = fun k d => (q k d : EReal) := funext fun k => funext fun d => hq k d
  obtain rfl : oD = fun k => (o k : EReal) := funext fun k => ho k
  obtain rfl : oF = fun f => (w f : EReal) := funext fun f => hw f
  funext k f
  unfold qfKer qfRef
  simp only [total_31 x fm q o ho0, wRef_coe x q o ho0, ← EReal.coe_mul, ← coe_sum]
  refine congrArg _ ?_
  rw [← Finset.sum_mul, sum_rows (fun r => wReal (x r) (q k) (o k) * fm r f), mul_comm]

end Cert.Spec

end
-- ==== Proof.lean ====
/-
  The certificate: a kernel in two calls against one jnp expression, equal on the extended reals.

  Both programs take points X [262144, 3], features F [262144, 16], kernel points Q [85, 3], widths oD [85] and feature
  weights oF [16], form the kernel-feature matrix QF k f = oF f · Σ_r exp(|X r − Q k|² / oD k²) · F r f, and return the rows
  [F r, F r · QFᵀ, (F r · QFᵀ) · QF].  The reference sums the squared differences and scales one sum over all rows.  The
  kernel expands the square as |x|² + |q|² − 2 x·q and clamps it at zero; its first call adds the rows up in two halves of
  32 blocks of 4096, a running total carried from block to block, and scales each half's total; the halves are added between
  the calls; its second call forms the result rows block by block.

  Under the precondition every argument entry is a real number and every width is nonzero, so every weight is a real number
  and the two matrices agree: the expanded square is the sum of squares (hence nonnegative, and the clamp is the identity),
  the blocks are all rows once, and a real factor moves across a finite sum of reals.  Without the nonzero widths the
  quotient by oD k² = 0 is infinite, the weights are infinite, and scaling the halves before adding them is no longer
  scaling their sum.

  The frames: each kernel program runs to the end through its four segments with every unscoped buffer at the contents a
  fold from the launch memory names, and that fold read at an argument is the launch memory; the reference's is its run.
  No operation of the kernel was rewritten for its idealization, so the idealized kernel is the kernel's own text.
-/
import proofs.«103844_j2207613190522_2_alg».proof.Defs
import proofs.«103844_j2207613190522_2_alg».proof.Proof.Gen.Kernel
import proofs.«103844_j2207613190522_2_alg».proof.Proof.Gen.KernelIdeal
import proofs.«103844_j2207613190522_2_alg».proof.Proof.Gen.ReferenceIdeal
import proofs.«103844_j2207613190522_2_alg».proof.Proof.Gen.Pre_finite_inputs
import proofs.«103844_j2207613190522_2_alg».proof.Proof.R0Frame
import proofs.«103844_j2207613190522_2_alg».proof.Proof.Run
import proofs.«103844_j2207613190522_2_alg».proof.Proof.RunArgs
import proofs.«103844_j2207613190522_2_alg».proof.Proof.KerValue
import proofs.«103844_j2207613190522_2_alg».proof.Proof.Bits.R0Frame
import proofs.«103844_j2207613190522_2_alg».proof.Proof.Bits.Run
import proofs.«103844_j2207613190522_2_alg».proof.Proof.Bits.RunArgs
import proofs.«103844_j2207613190522_2_alg».proof.Proof.RefValue
import proofs.«103844_j2207613190522_2_alg».proof.Proof.PreDecode
import proofs.«103844_j2207613190522_2_alg».proof.Proof.Algebra
import Idealize.ShloMosaic.Adequacy
import Idealize.ShloMosaic.Init

noncomputable section

namespace Cert.Proof

open Idealize.ShloMosaic Idealize.ShloMosaic.TcCoe Idealize.ShloMosaic.ValueIdx Idealize.SL.Sem

/-- With every argument entry a real number and every width nonzero, the kernel's and the reference's result arrays are
    one array: their kernel-feature matrices agree. -/
theorem res_eq (a0 : (⟨2, ![262144, 3]⟩ : Shape).Idx → EReal) (a1 : (⟨2, ![262144, 16]⟩ : Shape).Idx → EReal)
    (a2 : (⟨2, ![85, 3]⟩ : Shape).Idx → EReal) (a3 : (⟨1, ![85]⟩ : Shape).Idx → EReal) (a4 : (⟨1, ![16]⟩ : Shape).Idx → EReal)
    (h : (∀ i, ∃ x : ℝ, a0 i = (x : EReal)) ∧ (∀ i, ∃ x : ℝ, a1 i = (x : EReal)) ∧ (∀ i, ∃ x : ℝ, a2 i = (x : EReal))
      ∧ (∀ i, ∃ x : ℝ, a3 i = (x : EReal) ∧ x ≠ 0) ∧ (∀ i, ∃ x : ℝ, a4 i = (x : EReal))) :
    Cert.Spec.resKer a0 a1 a2 a3 a4 = Cert.Spec.resRef a0 a1 a2 a3 a4 := by
  obtain ⟨h0, h1, h2, h3, h4⟩ := h
  unfold Cert.Spec.resKer Cert.Spec.resRef
  rw [Cert.Spec.qfKer_eq_qfRef (Cert.Spec.mat a0) (Cert.Spec.mat a1) (Cert.Spec.mat a2) (Cert.Spec.vec a3) (Cert.Spec.vec a4) (fun r d => h0 (ix2 r d)) (fun r f => h1 (ix2 r f)) (fun k d => h2 (ix2 k d))
    (fun k => h3 (ix1 k)) (fun f => h4 (ix1 f))]

theorem frame_k : Cert.frame_Kernel := fun m ρ _ =>
  (θ_run Cert.Kernel.defs _ _).mono (fun r h c =>
      ⟨(h c _ (Cert.Kernel.Hand.mem_uc Cert.Kernel.main_arg0 (by decide))).trans (Cert.Kernel.Hand.W4_main_arg0 m c),
        (h c _ (Cert.Kernel.Hand.mem_uc Cert.Kernel.main_arg1 (by decide))).trans (Cert.Kernel.Hand.W4_main_arg1 m c),
        (h c _ (Cert.Kernel.Hand.mem_uc Cert.Kernel.main_arg2 (by decide))).trans (Cert.Kernel.Hand.W4_main_arg2 m c),
        (h c _ (Cert.Kernel.Hand.mem_uc Cert.Kernel.main_arg3 (by decide))).trans (Cert.Kernel.Hand.W4_main_arg3 m c),
        (h c _ (Cert.Kernel.Hand.mem_uc Cert.Kernel.main_arg4 (by decide))).trans (Cert.Kernel.Hand.W4_main_arg4 m c)⟩)
    (Cert.Kernel.Hand.run_all (F := Bits) Cert.Kernel.Hand.body_obligation0 Cert.Kernel.Hand.hin0 Cert.Kernel.Hand.hout0 m ρ)

theorem frame_ki : Cert.frame_KernelIdeal := fun m ρ _ =>
  (θ_run Cert.KernelIdeal.defs _ _).mono (fun r h c =>
      ⟨(h c _ (Cert.KernelIdeal.Hand.mem_uc Cert.KernelIdeal.main_arg0 (by decide))).trans (Cert.KernelIdeal.Hand.W4_main_arg0 m c),
        (h c _ (Cert.KernelIdeal.Hand.mem_uc Cert.KernelIdeal.main_arg1 (by decide))).trans (Cert.KernelIdeal.Hand.W4_main_arg1 m c),
        (h c _ (Cert.KernelIdeal.Hand.mem_uc Cert.KernelIdeal.main_arg2 (by decide))).trans (Cert.KernelIdeal.Hand.W4_main_arg2 m c),
        (h c _ (Cert.KernelIdeal.Hand.mem_uc Cert.KernelIdeal.main_arg3 (by decide))).trans (Cert.KernelIdeal.Hand.W4_main_arg3 m c),
        (h c _ (Cert.KernelIdeal.Hand.mem_uc Cert.KernelIdeal.main_arg4 (by decide))).trans (Cert.KernelIdeal.Hand.W4_main_arg4 m c)⟩)
    (Cert.KernelIdeal.Hand.run_all (F := Ideal) Cert.KernelIdeal.Hand.body_obligation0 Cert.KernelIdeal.Hand.hin0 Cert.KernelIdeal.Hand.hout0 m ρ)

theorem frame_ri : Cert.frame_ReferenceIdeal := fun m ρ _ =>
  (θ_run Cert.ReferenceIdeal.defs _ _).mono (fun _ h c => (h c).2) (Cert.ReferenceIdeal.RefValue.run_spec m ρ)

/-- No operation of the kernel was rewritten for its idealization. -/
theorem preserves : Cert.preserves_Kernel_KernelIdeal := trivial

/-- Both programs end with the specification's result array of the arguments: the kernel's by its run read through both
    calls, the reference's by its run, and the two arrays agree under the precondition. -/
theorem algebraic : Cert.algebraic_KernelIdeal_ReferenceIdeal := by
  intro m ρ m' ρ' hpre hagree
  refine ⟨fun c : Dev Cert.KernelIdeal.nD => Cert.Spec.resKer (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)), ?_, ?_⟩
  · refine (θ_run Cert.KernelIdeal.defs _ _).mono (fun r h c => ⟨?_, ?_, ?_, ?_, ?_, ?_⟩)
      (Cert.KernelIdeal.Hand.run_all (F := Ideal) Cert.KernelIdeal.Hand.body_obligation0 Cert.KernelIdeal.Hand.hin0 Cert.KernelIdeal.Hand.hout0 m ρ)
    · exact (h c _ (Cert.KernelIdeal.Hand.mem_uc Cert.KernelIdeal.main_v9 (by decide))).trans (Cert.KernelIdeal.Hand.W4_v9_eq m c)
    · exact (h c _ (Cert.KernelIdeal.Hand.mem_uc Cert.KernelIdeal.main_arg0 (by decide))).trans (Cert.KernelIdeal.Hand.W4_main_arg0 m c)
    · exact (h c _ (Cert.KernelIdeal.Hand.mem_uc Cert.KernelIdeal.main_arg1 (by decide))).trans (Cert.KernelIdeal.Hand.W4_main_arg1 m c)
    · exact (h c _ (Cert.KernelIdeal.Hand.mem_uc Cert.KernelIdeal.main_arg2 (by decide))).trans (Cert.KernelIdeal.Hand.W4_main_arg2 m c)
    · exact (h c _ (Cert.KernelIdeal.Hand.mem_uc Cert.KernelIdeal.main_arg3 (by decide))).trans (Cert.KernelIdeal.Hand.W4_main_arg3 m c)
    · exact (h c _ (Cert.KernelIdeal.Hand.mem_uc Cert.KernelIdeal.main_arg4 (by decide))).trans (Cert.KernelIdeal.Hand.W4_main_arg4 m c)
  · refine (θ_run Cert.ReferenceIdeal.defs _ _).mono (fun r h c => ⟨(h c).1.trans ?_, (h c).2⟩)
      (Cert.ReferenceIdeal.RefValue.run_spec m' ρ')
    obtain ⟨e0, e1, e2, e3, e4⟩ := hagree c
    rw [e0, e1, e2, e3, e4]
    exact (res_eq _ _ _ _ _ (Cert.PreDecode.decode _ _ _ _ _ (hpre c))).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
